-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S1024 .f32) (main_arg2 : FVec F S1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S1024 : Shape := ⟨1, ![1024]⟩
abbrev S_ : Shape := ⟨0, ![]⟩
abbrev S1x1024 : Shape := ⟨2, ![1, 1024]⟩
abbrev S1x1x1024 : Shape := ⟨3, ![1, 1, 1024]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 53
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .i1⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .i1⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .i1⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_call2_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S1024_S_d0 : S1024.ReducesTo [0] S_
  h_S_ : 0 < S_.numel
  bcast_S_S1024 : S_.BroadcastsInDim S1024 (![] : Fin 0 → Fin S1024.rank)
  shapeCasts_S1024_S1x1024 : S1024.ShapeCasts S1x1024
  bcast_S1x1024_S1x1x1024_1_2 : S1x1024.BroadcastsInDim S1x1x1024 (![1, 2] : Fin 2 → Fin S1x1x1024.rank)
  bcast_S1x1x1024_S4x4096x1024_0_1_2 : S1x1x1024.BroadcastsInDim S4x4096x1024 (![0, 1, 2] : Fin 3 → Fin S4x4096x1024.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  bitsLt_bf16_f32 : FTy.bits .bf16 < FTy.bits .f32
  transposes_S512x1024_p1_0_S1024x512 : S512x1024.Transposes [1, 0] S1024x512
  iota_S512x512_d0_w32 : S512x512.Iotas .tc 32 [0]
  iota_S512x512_d1_w32 : S512x512.Iotas .tc 32 [1]
  shapeCasts_S512x1024_S1x512x1024 : S512x1024.ShapeCasts S1x512x1024
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .f32 = 32 ∨ (Rect.block (s := S4x4096x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x4096x1024.size a
  hwx0_5 : ∀ i : grid0.Coords, EltTy.bits .f32 = 32 ∨ (Rect.block (s := S4x4096x1024) S1x512x1024.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024 : Shape := ⟨1, ![1024]⟩
abbrev S_ : Shape := ⟨0, ![]⟩
abbrev S1x1x1024 : Shape := ⟨3, ![1, 1, 1024]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .i1⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .i1⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1x1x1024, .f32⟩
  | .hbm, ⟨38, _⟩ => ⟨S4x4096x1024, .f32⟩
  | .hbm, ⟨39, _⟩ => ⟨S4x4096x1024, .f32⟩
  | .hbm, ⟨40, _⟩ => ⟨S1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .i1⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S4x4096x4096, .f32⟩
  | .hbm, ⟨59, _⟩ => ⟨S_, .f32⟩
  | .hbm, ⟨60, _⟩ => ⟨S4x4096x4096, .f32⟩
  | .hbm, ⟨61, _⟩ => ⟨S4x4096x4096, .f32⟩
  | .hbm, ⟨62, _⟩ => ⟨S4096, .i32⟩
  | .hbm, ⟨63, _⟩ => ⟨S4096x1, .i32⟩
  | .hbm, ⟨64, _⟩ => ⟨S4096, .i32⟩
  | .hbm, ⟨65, _⟩ => ⟨S1x4096, .i32⟩
  | .hbm, ⟨66, _⟩ => ⟨S4096x4096, .i32⟩
  | .hbm, ⟨67, _⟩ => ⟨S4096x4096, .i32⟩
  | .hbm, ⟨68, _⟩ => ⟨S4096x4096, .i1⟩
  | .hbm, ⟨69, _⟩ => ⟨S1x4096x4096, .i1⟩
  | .hbm, ⟨70, _⟩ => ⟨S_, .f32⟩
  | .hbm, ⟨71, _⟩ => ⟨S4x4096x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096x4096, .f32⟩
  | .hbm, ⟨77, _⟩ => ⟨S4x4096x4096, .f32⟩
  | .hbm, ⟨78, _⟩ => ⟨S_, .f32⟩
  | .hbm, ⟨79, _⟩ => ⟨S4x4096x4096, .f32⟩
  | .hbm, ⟨80, _⟩ => ⟨S4x4096x4096, .f32⟩
  | .hbm, ⟨81, _⟩ => ⟨S_, .f32⟩
  | .hbm, ⟨82, _⟩ => ⟨S_, .f32⟩
  | .hbm, ⟨83, _⟩ => ⟨S4x4096x4096, .i1⟩
  | .hbm, ⟨84, _⟩ => ⟨S4x4096x4096, .f32⟩
  | .hbm, ⟨85, _⟩ => ⟨S4x4096x4096, .f32⟩
  | .hbm, ⟨86, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_call2_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  reducesTo_S1024_S_d0 : S1024.ReducesTo [0] S_
  h_S_ : 0 < S_.numel
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.FrameB.Entry.lean ====
/-
  The TensorCore buffers' contents when the attention region is entered — after the host operations that
  compute the three binding vectors and the returned keys and values — and each window's block of its array
  at a grid point.  Stated at any float instance.
-/
import proofs.«128873_j58334245814673_2_alg».proof.Proof.Gen.Kernel.Launch
import proofs.«128873_j58334245814673_2_alg».proof.Proof.Gen.Kernel.Skeleton
import proofs.«128873_j58334245814673_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The host operations before the region, stretch by stretch, in order. -/
abbrev preOps : List (List (HloOp τ sig (Elt F))) :=
  [hostOps0, hostOps0_1, hostOps0_2, hostOps0_3, hostOps0_4, hostOps0_5, hostOps0_6]

/-- Core `c`'s buffer contents when the region is entered, as a valuation: the launch contents after
    the host operations before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.FrameB.Conds.lean ====
/-
  The grid of the attention region has 256 points t = (b, qi, ki) = (t / 64, (t / 8) % 8, t % 8): batch, query
  tile, key tile.  The body branches three times on the coordinates: ki = 0 (clear the accumulator), ki ≤ qi
  (a key tile at or before the query tile: accumulate), ki = qi (the diagonal tile: store the accumulator to the
  output block).  Here: those conditions in closed form over the point's number, where the output window is idle
  and where it is written back (only at ki = 7), and the names of the staging memrefs the body is called with.
-/
import proofs.«128873_j58334245814673_2_alg».proof.Proof.FrameB.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions -/

/-- The key tile is the first one: `ki = 0`. -/
abbrev cond1 (i : grid0.Coords) : Prop := (Scalar.cmpi .ne (Scalar.extui (Scalar.cmpi .eq (BitVec.ofNat 32 (i 2).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The key tile is not after the query tile: `ki ≤ qi`. -/
abbrev cond2 (i : grid0.Coords) : Prop := (Scalar.cmpi .ne (Scalar.extui (Scalar.cmpi .sle (BitVec.ofNat 32 (i 2).val) (BitVec.ofNat 32 (i 1).val))) 0#32) = 1#1
theorem hcond2 : ∀ t : Fin cfg0.N, cond2 (grid0.coords t) ↔ t.val % 8 ≤ t.val / 8 % 8 :=
  (by decide +kernel : ∀ t : Fin grid0.N, cond2 (grid0.coords t) ↔ t.val % 8 ≤ t.val / 8 % 8)

/-- The diagonal tile: `ki = qi`. -/
abbrev cond3 (i : grid0.Coords) : Prop := k0_cond3 i = 1#1
theorem hcond3 : ∀ t : Fin cfg0.N, cond3 (grid0.coords t) ↔ t.val % 8 = t.val / 8 % 8 :=
  (by decide +kernel : ∀ t : Fin grid0.N, cond3 (grid0.coords t) ↔ t.val % 8 = t.val / 8 % 8)

/-! ## Where the windows are idle, and where the output is written back -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
/-- Off the diagonal the body stores nothing into the output window's buffer. -/
theorem idleAt_5 : ∀ t : Fin cfg0.N, ¬cond3 (grid0.coords t) → cfg0.idle 5 (grid0.coords t) = true := by decide +kernel
/-- On the diagonal it stores the whole block. -/
theorem liveAt_5 : ∀ t : Fin cfg0.N, cond3 (grid0.coords t) → cfg0.idle 5 (grid0.coords t) = false := by decide +kernel
/-- The output block is written back exactly at the last key tile. -/
theorem flush_5 : ∀ t : Fin cfg0.N, (cfg0.win 5).flush t = true ↔ t.val % 8 = 7 :=
  (by decide +kernel : ∀ t : Fin grid0.N, win0_5.flush t = true ↔ t.val % 8 = 7)
theorem noFlush_5 (t : Fin cfg0.N) (h : t.val % 8 ≠ 7) : (cfg0.win 5).flush t = false := by
  cases hf : (cfg0.win 5).flush t
  · rfl
  · exact absurd ((flush_5 t).mp hf) h
/-- The output window is never fetched. -/
theorem noFetch_5 : ∀ t : Fin cfg0.N, (cfg0.win 5).fetch t = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1024 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S512x1024 .f32 := Memref.whole cc0_scratch0
/-- The accumulator as a view: what it holds is stated through it. -/
abbrev VS : View sig .tc .vmem S512x1024 .f32 := (scM).view
/-- One staging buffer of the output window, through which its contents are stated. -/
abbrev VO : View sig .tc .vmem S1x512x1024 .f32 := (Memref.whole cc0_stg5_0 : Memref sig .tc .vmem S1x512x1024 .f32).view

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.FrameB.RunA.lean ====
/-
  The body at a grid point of case A — the first key tile of the first query tile (ki = 0 = qi): the accumulator is cleared, the tile's contribution added, and the accumulator stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameB.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case A. -/
noncomputable def kernelRun_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) :
    Σ' (L5 : List (View.Piece (Elt F) S1x512x1024 .f32)), { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, ?_, fun xo E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Hand

end
-- ==== Proof.FrameB.RunB.lean ====
/-
  The body at a grid point of case B — the first key tile of a later query tile (ki = 0 < qi): the accumulator is cleared and the tile's contribution added; nothing is stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameB.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case B. -/
noncomputable def kernelRun_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) :
    { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, fun xi5 E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.FrameB.RunC.lean ====
/-
  The body at a grid point of case C — a key tile strictly between the first and the diagonal one (0 < ki < qi): the tile's contribution is added to the accumulator; nothing is stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameB.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case C. -/
noncomputable def kernelRun_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) :
    { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, fun xi5 E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.FrameB.RunD.lean ====
/-
  The body at a grid point of case D — the diagonal tile of a later query tile (ki = qi > 0): the tile's contribution is added and the accumulator stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameB.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case D. -/
noncomputable def kernelRun_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) :
    Σ' (L5 : List (View.Piece (Elt F) S1x512x1024 .f32)), { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, ?_, fun xo E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Hand

end
-- ==== Proof.FrameB.RunE.lean ====
/-
  The body at a grid point of case E — a key tile after the query tile (ki > qi): the body does nothing.
  On whole staging memrefs holding the five input blocks, the output window's buffer and the accumulator, the body
  runs to its end holding the inputs as they were, and each buffer it stores into with the stored pieces written:
  the pieces are found by running the body.
-/
import proofs.«128873_j58334245814673_2_alg».proof.Proof.FrameB.RunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case E. -/
theorem kernelRun_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : ¬cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) :
    ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs) -∗ K ⟨⟩))
          ⊢ wp frame (wpE (defs₀ (F := F)) Variants.none c none) E (cc0__hdc_attn_kernel i arg3 harg3 arg4 harg4 arg5 harg5 arg6 harg6 arg7 harg7 arg8 harg8 arg9 harg9) K := by
  intro xi5 E K
  simp only [cc0__hdc_attn_kernel_eq_skeleton]; unfold cc0__hdc_attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; · ipureintro; exact harg9.read_unread _
  iexact HS

end Cert.Kernel.Hand

end
-- ==== Proof.FrameB.Outs.lean ====
/-
  What the body leaves behind, case by case and then point by point: the output window's staging buffer and the
  accumulator after each of the 256 grid points, as a recursion over the point's number; the region's invariant
  (the accumulator at what the point before left); and the proof data of the region.
-/
import proofs.«128873_j58334245814673_2_alg».proof.Proof.FrameB.RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's one store into the output window's buffer covers its block. -/
theorem cover_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (y : S1x512x1024.Idx) :
    ∃ pc ∈ (kernelRun_A c i arg3 harg3 arg4 harg4 arg5 harg5 arg6 harg6 arg7 harg7 arg8 harg8 arg9 harg9 hc1 hc2 hc3 x0 x1 x2 x3 x4).1, y ∈ pc.1.set :=
  View.cover_of_tiledL (kernelRun_A c i arg3 harg3 arg4 harg4 arg5 harg5 arg6 harg6 arg7 harg7 arg8 harg8 arg9 harg9 hc1 hc2 hc3 x0 x1 x2 x3 x4).1 S1x512x1024.size (by sl_kernel_rfl) y

/-- What case A leaves in the output window's buffer: its pieces read back. -/
def out_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) : Vec F S1x512x1024 .f32 :=
  VO.read (Elt F) (VO.writes (Elt F) VO.junk (kernelRun_A c i arg3 harg3 arg4 harg4 arg5 harg5 arg6 harg6 arg7 harg7 arg8 harg8 arg9 harg9 hc1 hc2 hc3 x0 x1 x2 x3 x4).1)

/-- Case A's stores into the accumulator cover it. -/
theorem scover_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (y : S512x1024.Idx) :
    ∃ pc ∈ (kernelRun_A c i arg3 harg3 arg4 harg4 arg5 harg5 arg6 harg6 arg7 harg7 arg8 harg8 arg9 harg9 hc1 hc2 hc3 x0 x1 x2 x3 x4).2.1, y ∈ pc.1.set :=
  View.cover_of_tiledL (kernelRun_A c i arg3 harg3 arg4 harg4 arg5 harg5 arg6 harg6 arg7 harg7 arg8 harg8 arg9 harg9 hc1 hc2 hc3 x0 x1 x2 x3 x4).2.1 S512x1024.size (by sl_kernel_rfl) y

/-- What case A leaves in the accumulator: its pieces read back. -/
def sout_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) : Vec F S512x1024 .f32 :=
  VS.read (Elt F) (VS.writes (Elt F) VS.junk (kernelRun_A c i arg3 harg3 arg4 harg4 arg5 harg5 arg6 harg6 arg7 harg7 arg8 harg8 arg9 harg9 hc1 hc2 hc3 x0 x1 x2 x3 x4).2.1)

/-- Case B's stores into the accumulator cover it. -/
theorem scover_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (y : S512x1024.Idx) :
    ∃ pc ∈ (kernelRun_B c i arg3 harg3 arg4 harg4 arg5 harg5 arg6 harg6 arg7 harg7 arg8 harg8 arg9 harg9 hc1 hc2 hc3 x0 x1 x2 x3 x4).1, y ∈ pc.1.set :=
  View.cover_of_tiledL (kernelRun_B c i arg3 harg3 arg4 harg4 arg5 harg5 arg6 harg6 arg7 harg7 arg8 harg8 arg9 harg9 hc1 hc2 hc3 x0 x1 x2 x3 x4).1 S512x1024.size (by sl_kernel_rfl) y

/-- What case B leaves in the accumulator: its pieces read back. -/
def sout_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) : Vec F S512x1024 .f32 :=
  VS.read (Elt F) (VS.writes (Elt F) VS.junk (kernelRun_B c i arg3 harg3 arg4 harg4 arg5 harg5 arg6 harg6 arg7 harg7 arg8 harg8 arg9 harg9 hc1 hc2 hc3 x0 x1 x2 x3 x4).1)

/-- Case C's stores into the accumulator cover it. -/
theorem scover_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) (y : S512x1024.Idx) :
    ∃ pc ∈ (kernelRun_C c i arg3 harg3 arg4 harg4 arg5 harg5 arg6 harg6 arg7 harg7 arg8 harg8 arg9 harg9 hc1 hc2 hc3 x0 x1 x2 x3 x4 xs).1, y ∈ pc.1.set :=
  View.cover_of_tiledL (kernelRun_C c i arg3 harg3 arg4 harg4 arg5 harg5 arg6 harg6 arg7 harg7 arg8 harg8 arg9 harg9 hc1 hc2 hc3 x0 x1 x2 x3 x4 xs).1 S512x1024.size (by sl_kernel_rfl) y

/-- What case C leaves in the accumulator: its pieces read back. -/
def sout_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) : Vec F S512x1024 .f32 :=
  VS.read (Elt F) (VS.writes (Elt F) VS.junk (kernelRun_C c i arg3 harg3 arg4 harg4 arg5 harg5 arg6 harg6 arg7 harg7 arg8 harg8 arg9 harg9 hc1 hc2 hc3 x0 x1 x2 x3 x4 xs).1)

/-- Case D's one store into the output window's buffer covers its block. -/
theorem cover_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) (y : S1x512x1024.Idx) :
    ∃ pc ∈ (kernelRun_D c i arg3 harg3 arg4 harg4 arg5 harg5 arg6 harg6 arg7 harg7 arg8 harg8 arg9 harg9 hc1 hc2 hc3 x0 x1 x2 x3 x4 xs).1, y ∈ pc.1.set :=
  View.cover_of_tiledL (kernelRun_D c i arg3 harg3 arg4 harg4 arg5 harg5 arg6 harg6 arg7 harg7 arg8 harg8 arg9 harg9 hc1 hc2 hc3 x0 x1 x2 x3 x4 xs).1 S1x512x1024.size (by sl_kernel_rfl) y

/-- What case D leaves in the output window's buffer: its pieces read back. -/
def out_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) : Vec F S1x512x1024 .f32 :=
  VO.read (Elt F) (VO.writes (Elt F) VO.junk (kernelRun_D c i arg3 harg3 arg4 harg4 arg5 harg5 arg6 harg6 arg7 harg7 arg8 harg8 arg9 harg9 hc1 hc2 hc3 x0 x1 x2 x3 x4 xs).1)

/-- Case D's stores into the accumulator cover it. -/
theorem scover_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) (y : S512x1024.Idx) :
    ∃ pc ∈ (kernelRun_D c i arg3 harg3 arg4 harg4 arg5 harg5 arg6 harg6 arg7 harg7 arg8 harg8 arg9 harg9 hc1 hc2 hc3 x0 x1 x2 x3 x4 xs).2.1, y ∈ pc.1.set :=
  View.cover_of_tiledL (kernelRun_D c i arg3 harg3 arg4 harg4 arg5 harg5 arg6 harg6 arg7 harg7 arg8 harg8 arg9 harg9 hc1 hc2 hc3 x0 x1 x2 x3 x4 xs).2.1 S512x1024.size (by sl_kernel_rfl) y

/-- What case D leaves in the accumulator: its pieces read back. -/
def sout_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) : Vec F S512x1024 .f32 :=
  VS.read (Elt F) (VS.writes (Elt F) VS.junk (kernelRun_D c i arg3 harg3 arg4 harg4 arg5 harg5 arg6 harg6 arg7 harg7 arg8 harg8 arg9 harg9 hc1 hc2 hc3 x0 x1 x2 x3 x4 xs).2.1)

/-! ## What the output window's buffer and the accumulator hold after each point -/

/-- THE ACCUMULATION, by recursion on the point's number `n` (ki = n % 8, qi = n / 8 % 8): after the body at point `n`,
    the output window's buffer and the accumulator.  On the diagonal (ki = qi) the buffer holds what the case stored; past
    it (ki > qi) the body does nothing and both are as the point before left them; before it the buffer's contents are not
    consulted (the window is idle and is not written back there) and are carried along. -/
def outsAt (c : Dev nD) : (n : ℕ) → n < cfg0.N → Vec F S1x512x1024 .f32 × Vec F S512x1024 .f32
  | 0, hn => (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond1 ⟨0, hn⟩).mpr (show (0:ℕ) % 8 = 0 by decide)) ((hcond2 ⟨0, hn⟩).mpr (show (0:ℕ) % 8 ≤ 0 / 8 % 8 by decide)) ((hcond3 ⟨0, hn⟩).mpr (show (0:ℕ) % 8 = 0 / 8 % 8 by decide)) (iblk m c 0 ⟨0, hn⟩) (iblk m c 1 ⟨0, hn⟩) (iblk m c 2 ⟨0, hn⟩) (iblk m c 3 ⟨0, hn⟩) (iblk m c 4 ⟨0, hn⟩),
              sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond1 ⟨0, hn⟩).mpr (show (0:ℕ) % 8 = 0 by decide)) ((hcond2 ⟨0, hn⟩).mpr (show (0:ℕ) % 8 ≤ 0 / 8 % 8 by decide)) ((hcond3 ⟨0, hn⟩).mpr (show (0:ℕ) % 8 = 0 / 8 % 8 by decide)) (iblk m c 0 ⟨0, hn⟩) (iblk m c 1 ⟨0, hn⟩) (iblk m c 2 ⟨0, hn⟩) (iblk m c 3 ⟨0, hn⟩) (iblk m c 4 ⟨0, hn⟩))
  | n + 1, hn =>
    if h1 : (n + 1) % 8 = 0 then
      if h3 : (n + 1) % 8 = (n + 1) / 8 % 8 then
        (out_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond1 ⟨n + 1, hn⟩).mpr h1) ((hcond2 ⟨n + 1, hn⟩).mpr (le_of_eq h3)) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩),
         sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond1 ⟨n + 1, hn⟩).mpr h1) ((hcond2 ⟨n + 1, hn⟩).mpr (le_of_eq h3)) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        ((outsAt c n (Nat.lt_of_succ_lt hn)).1,
         sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond1 ⟨n + 1, hn⟩).mpr h1) ((hcond2 ⟨n + 1, hn⟩).mpr (h1 ▸ Nat.zero_le _)) (fun h => h3 ((hcond3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h2 : (n + 1) % 8 ≤ (n + 1) / 8 % 8 then
        if h3 : (n + 1) % 8 = (n + 1) / 8 % 8 then
          (out_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h1 ((hcond1 ⟨n + 1, hn⟩).mp h)) ((hcond2 ⟨n + 1, hn⟩).mpr h2) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2,
           sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h1 ((hcond1 ⟨n + 1, hn⟩).mp h)) ((hcond2 ⟨n + 1, hn⟩).mpr h2) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2)
        else
          ((outsAt c n (Nat.lt_of_succ_lt hn)).1,
           sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h1 ((hcond1 ⟨n + 1, hn⟩).mp h)) ((hcond2 ⟨n + 1, hn⟩).mpr h2) (fun h => h3 ((hcond3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2)
      else
        outsAt c n (Nat.lt_of_succ_lt hn)

/-- `outsAt` at a point of case A. -/
theorem outsAt_A (c : Dev nD) (t : Fin cfg0.N) (h1 : t.val % 8 = 0) (h3 : t.val % 8 = t.val / 8 % 8) :
    outsAt m c t.val t.isLt = (out_A c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (le_of_eq h3)) ((hcond3 t).mpr h3) (iblk m c 0 t) (iblk m c 1 t) (iblk m c 2 t) (iblk m c 3 t) (iblk m c 4 t),
      sout_A c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (le_of_eq h3)) ((hcond3 t).mpr h3) (iblk m c 0 t) (iblk m c 1 t) (iblk m c 2 t) (iblk m c 3 t) (iblk m c 4 t)) := by
  obtain ⟨n, hn⟩ := t
  cases n with
  | zero => exact rfl
  | succ n => exact (dif_pos h1).trans ((dif_pos h3).trans rfl)

/-- `outsAt` at a point of case B: the accumulator restarted; the buffer carried. -/
theorem outsAt_B (c : Dev nD) (t : Fin cfg0.N) (h1 : t.val % 8 = 0) (h3 : ¬t.val % 8 = t.val / 8 % 8) :
    outsAt m c t.val t.isLt = ((outsAt m c (t.val - 1) (Nat.lt_of_le_of_lt (Nat.sub_le _ _) t.isLt)).1,
      sout_B c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (h1 ▸ Nat.zero_le _)) (fun h => h3 ((hcond3 t).mp h)) (iblk m c 0 t) (iblk m c 1 t) (iblk m c 2 t) (iblk m c 3 t) (iblk m c 4 t)) := by
  obtain ⟨n, hn⟩ := t
  cases n with
  | zero => exact absurd (show (0:ℕ) % 8 = 0 / 8 % 8 by decide) h3
  | succ n => exact (dif_pos h1).trans ((dif_neg h3).trans rfl)

/-- `outsAt` at a point of case C: one more tile added to the accumulator; the buffer carried. -/
theorem outsAt_C (c : Dev nD) (t : Fin cfg0.N) (h1 : ¬t.val % 8 = 0) (h2 : t.val % 8 ≤ t.val / 8 % 8) (h3 : ¬t.val % 8 = t.val / 8 % 8) :
    outsAt m c t.val t.isLt = ((outsAt m c (t.val - 1) (Nat.lt_of_le_of_lt (Nat.sub_le _ _) t.isLt)).1,
      sout_C c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) (fun h => h3 ((hcond3 t).mp h)) (iblk m c 0 t) (iblk m c 1 t) (iblk m c 2 t) (iblk m c 3 t) (iblk m c 4 t) (outsAt m c (t.val - 1) (Nat.lt_of_le_of_lt (Nat.sub_le _ _) t.isLt)).2) := by
  obtain ⟨n, hn⟩ := t
  cases n with
  | zero => exact absurd (show (0:ℕ) % 8 = 0 by decide) h1
  | succ n => exact (dif_neg h1).trans ((dif_pos h2).trans ((dif_neg h3).trans rfl))

/-- `outsAt` at a point of case D: the diagonal tile added, the accumulator stored to the buffer. -/
theorem outsAt_D (c : Dev nD) (t : Fin cfg0.N) (h1 : ¬t.val % 8 = 0) (h2 : t.val % 8 ≤ t.val / 8 % 8) (h3 : t.val % 8 = t.val / 8 % 8) :
    outsAt m c t.val t.isLt = (out_D c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) ((hcond3 t).mpr h3) (iblk m c 0 t) (iblk m c 1 t) (iblk m c 2 t) (iblk m c 3 t) (iblk m c 4 t) (outsAt m c (t.val - 1) (Nat.lt_of_le_of_lt (Nat.sub_le _ _) t.isLt)).2,
      sout_D c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) ((hcond3 t).mpr h3) (iblk m c 0 t) (iblk m c 1 t) (iblk m c 2 t) (iblk m c 3 t) (iblk m c 4 t) (outsAt m c (t.val - 1) (Nat.lt_of_le_of_lt (Nat.sub_le _ _) t.isLt)).2) := by
  obtain ⟨n, hn⟩ := t
  cases n with
  | zero => exact absurd (show (0:ℕ) % 8 = 0 by decide) h1
  | succ n => exact (dif_neg h1).trans ((dif_pos h2).trans ((dif_pos h3).trans rfl))

/-- `outsAt` at a point of case E: everything as the point before left it. -/
theorem outsAt_E (c : Dev nD) (t : Fin cfg0.N) (h1 : ¬t.val % 8 = 0) (h2 : ¬t.val % 8 ≤ t.val / 8 % 8) :
    outsAt m c t.val t.isLt = (outsAt m c (t.val - 1) (Nat.lt_of_le_of_lt (Nat.sub_le _ _) t.isLt)) := by
  obtain ⟨n, hn⟩ := t
  cases n with
  | zero => exact absurd (show (0:ℕ) % 8 = 0 by decide) h1
  | succ n => exact (dif_neg h1).trans ((dif_neg h2).trans rfl)

/-! ## The invariant and the proof data -/

/-- The region invariant before position `n`: before the first point the accumulator holds anything; afterwards what the
    point before left in it; the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-- How the full share of `x`'s array is dealt between the two windows that read it; the other windows hold theirs whole. -/
def shareOf : Fin 6 → PosShare TreeShare
  | ⟨0, _⟩ => fullShare.left
  | ⟨1, _⟩ => fullShare.right
  | _ => fullShare

/-- The proof data of the region on core `c`: the arrays as the region finds them; after the body each input's buffer
    at its block, the output's at `outsAt`'s first component; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q := shareOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]

/-- Each input window's current staging buffer holds its block at every point, fetched there or not: unfetched, the
    block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

end Cert.Kernel.Hand

end
-- ==== Proof.FrameB.Sound.lean ====
/-
  The body obligation at a generic grid point.  The point's number decides the case (ki = t % 8, qi = t / 8 % 8);
  the inputs' staging buffers hold their blocks; the invariant hands the body the accumulator at what the point before
  left (anything at the first key tile, where the body clears it) and takes it back at this point's contents.  Past the
  diagonal the body does nothing, and the output window's buffer still holds what the diagonal point stored: that is
  what the write-back at the last key tile writes.
-/
import proofs.«128873_j58334245814673_2_alg».proof.Proof.FrameB.Outs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Past the diagonal (ki > qi) the output window's buffer holds what the point before left in it: looking back through
    the idle points to the diagonal one, where the body stored the block. -/
theorem before5_E (c : Dev nD) : ∀ (n : ℕ) (hn : n < cfg0.N), ¬ n % 8 ≤ n / 8 % 8 →
    ∀ d, (dats m 0 c).before 5 ⟨n, hn⟩ d = (outsAt m c (n - 1) (Nat.lt_of_le_of_lt (Nat.sub_le _ _) hn)).1 := by
  intro n
  induction n with
  | zero => intro hn h; exact absurd (by decide) h
  | succ k ih =>
    intro hn h d
    have hN : k + 1 < 256 := lt_of_lt_of_eq hn (show cfg0.N = 256 from N_0)
    have hk : k < cfg0.N := Nat.lt_of_succ_lt hn
    rw [(dats m 0 c).before_of_pos 5 ⟨k + 1, hn⟩ (Nat.succ_ne_zero k) (noFetch_5 _) d]
    rw [show (⟨(⟨k + 1, hn⟩ : Fin cfg0.N).val - 1, Nat.lt_of_le_of_lt (Nat.sub_le _ _) (⟨k + 1, hn⟩ : Fin cfg0.N).isLt⟩ : Fin cfg0.N) = ⟨k, hk⟩ from rfl]
    rw [noFlush_5 ⟨k, hk⟩ (by show k % 8 ≠ 7; omega), if_neg Bool.false_ne_true]
    unfold Dat.left
    by_cases h3 : k % 8 = k / 8 % 8
    · rw [liveAt_5 ⟨k, hk⟩ ((hcond3 ⟨k, hk⟩).mpr h3)]
      show (dats m 0 c).kept 5 ⟨k, hk⟩ d = _
      unfold Dat.kept
      rw [Pipeline.fill_of_clip_none (cfg := cfg0) 5 _ (fun a => rfl) d ((dats m 0 c).after 5 ⟨k, hk⟩), Window.fill_cut, after_5]
      rfl
    · rw [idleAt_5 ⟨k, hk⟩ (fun hc => h3 ((hcond3 ⟨k, hk⟩).mp hc))]
      show (dats m 0 c).before 5 ⟨k, hk⟩ d = _
      have hE : ¬ k % 8 ≤ k / 8 % 8 := by omega
      rw [ih hk hE d]
      have := outsAt_E m c ⟨k, hk⟩ (by show ¬ k % 8 = 0; omega) hE
      exact (congrArg Prod.fst this).symm

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  by_cases h1 : t.val % 8 = 0
  · by_cases h3 : t.val % 8 = t.val / 8 % 8
    · -- the first key tile of the first query tile
      rw [show (dats m 0 c).leavesExact 5 t = owns (c : Thread nD τ) (ms5 t) fullShare ((dats m 0 c).after 5 t) from by
        unfold Dat.leavesExact; rw [liveAt_5 t ((hcond3 t).mpr h3)], after_5]
      rw [outsAt_A m c t h1 h3]
      unfold out_A sout_A; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ ((hcond1 t).mpr h1) ((hcond2 t).mpr (le_of_eq h3)) ((hcond3 t).mpr h3) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_A c _ _ _ _ _ _ _ _ _ _ _ _ _ _ _ _ _ _ _ _ _ _ _)
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ ((hcond1 t).mpr h1) ((hcond2 t).mpr (le_of_eq h3)) ((hcond3 t).mpr h3) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_A c _ _ _ _ _ _ _ _ _ _ _ _ _ _ _ _ _ _ _ _ _ _ _)
    · -- the first key tile of a later query tile
      rw [Dat.leavesExact_idle (dats m 0 c) 5 t (idleAt_5 t (fun hc => h3 ((hcond3 t).mp hc))) (noFlush_5 t (by omega))]
      rw [outsAt_B m c t h1 h3]
      unfold sout_B; (try dsimp only)
      by_cases hz : t.val = 0
      · exfalso; rw [hz] at h3; exact h3 (by decide)
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_B c (grid0.coords t) _ _ _ _ _ _ _ _ _ _ _ _ _ _ ((hcond1 t).mpr h1) ((hcond2 t).mpr (h1 ▸ Nat.zero_le _)) (fun h => h3 ((hcond3 t).mp h)) (iblk m c 0 t) (iblk m c 1 t) (iblk m c 2 t) (iblk m c 3 t) (iblk m c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS Hg]
        · isplitl [HS]
          · unfold owns; iexists _; isplitr
            swap; · iexact HS
            ipureintro; exact View.read_writes_of_cover _ _ _ _ _ (scover_B c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun hz => h1 (by rw [hz])
    by_cases h2 : t.val % 8 ≤ t.val / 8 % 8
    · by_cases h3 : t.val % 8 = t.val / 8 % 8
      · -- the diagonal tile of a later query tile
        rw [show (dats m 0 c).leavesExact 5 t = owns (c : Thread nD τ) (ms5 t) fullShare ((dats m 0 c).after 5 t) from by
          unfold Dat.leavesExact; rw [liveAt_5 t ((hcond3 t).mpr h3)], after_5]
        rw [outsAt_D m c t h1 h2 h3]
        unfold out_D sout_D; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_D c (grid0.coords t) _ _ _ _ _ _ _ _ _ _ _ _ _ _ (fun h => h1 ((hcond1 t).mp h)) ((hcond2 t).mpr h2) ((hcond3 t).mpr h3) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_D c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_D c _ _ _ _ _ _ _ _ _ _ _ _ _ _ _ _ _ _ _ _ _ _ _ _)
      · -- a key tile strictly before the diagonal
        rw [Dat.leavesExact_idle (dats m 0 c) 5 t (idleAt_5 t (fun hc => h3 ((hcond3 t).mp hc))) (noFlush_5 t (by omega))]
        rw [outsAt_C m c t h1 h2 h3]
        unfold sout_C; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_C c (grid0.coords t) _ _ _ _ _ _ _ _ _ _ _ _ _ _ (fun h => h1 ((hcond1 t).mp h)) ((hcond2 t).mpr h2) (fun h => h3 ((hcond3 t).mp h)) (iblk m c 0 t) (iblk m c 1 t) (iblk m c 2 t) (iblk m c 3 t) (iblk m c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- past the diagonal: the body does nothing
      have h3 : ¬ t.val % 8 = t.val / 8 % 8 := fun h => h2 (le_of_eq h)
      rw [outsAt_E m c t h1 h2]
      rw [PhiS_castSucc m c t, PhiS_pos m c _ _ hz]
      by_cases h7 : t.val % 8 = 7
      · -- the last key tile: the block is written back, at what the diagonal point stored
        rw [show (dats m 0 c).leavesExact 5 t = owns (c : Thread nD τ) (ms5 t) fullShare ((dats m 0 c).after 5 t) from by
          unfold Dat.leavesExact; rw [idleAt_5 t (fun hc => h3 ((hcond3 t).mp hc)), (flush_5 t).mpr h7], after_5, outsAt_E m c t h1 h2]
        simp only [before5_E m c t.val t.isLt h2]
        iintro ⟨⟨HS, Hg⟩, Ho, ⟨%d0, H0⟩, ⟨%d1, H1⟩, ⟨%d2, H2⟩, ⟨%d3, H3⟩, ⟨%d4, H4⟩, ⟨%d5, H5⟩⟩
        iapply (kernelRun_E c (grid0.coords t) _ _ _ _ _ _ _ _ _ _ _ _ _ _ (fun h => h1 ((hcond1 t).mp h)) (fun h => h2 ((hcond2 t).mp h)) (fun h => h3 ((hcond3 t).mp h)) (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [Dat.leavesExact_idle (dats m 0 c) 5 t (idleAt_5 t (fun hc => h3 ((hcond3 t).mp hc))) (noFlush_5 t h7)]
        iintro ⟨⟨HS, Hg⟩, Ho, ⟨%d0, H0⟩, ⟨%d1, H1⟩, ⟨%d2, H2⟩, ⟨%d3, H3⟩, ⟨%d4, H4⟩, ⟨%d5, H5⟩⟩
        iapply (kernelRun_E c (grid0.coords t) _ _ _ _ _ _ _ _ _ _ _ _ _ _ (fun h => h1 ((hcond1 t).mp h)) (fun h => h2 ((hcond2 t).mp h)) (fun h => h3 ((hcond3 t).mp h)) (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.FrameB.Launch.Main.lean ====
/-
  @main up to the attention region: seven lines of host operations, none of which allocates, then the region.
  The program reaches the region holding every unscoped TensorCore buffer at its contents after all seven lines.
  Stated at any float instance.
-/
import proofs.«128873_j58334245814673_2_alg».proof.Proof.FrameB.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is seven lines of host operations, then the region: it reaches the region holding every unscoped buffer at
    its contents after all of them (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main preOps
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩
    main_chain

end Cert.Kernel.Hand

end
-- ==== Proof.FrameB.Launch.Split.lean ====
/-
  The region's six windows stand on five buffers: windows 0 and 1 both read the first argument. At the region's
  entry each of the five buffers is held whole at the full share; the full share of the first argument's buffer is
  cut into its two halves, one for window 0 and one for window 1, and every other window takes its buffer whole.
  That is the pipeline's picture of its arrays at entry, each window's array at its own share. Stated at any float
  instance.
-/
import proofs.«128873_j58334245814673_2_alg».proof.Proof.FrameB.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares, and the arrays' buffers dealt to the windows -/

/-- The share each window holds its array at: the array read through windows 0 and 1 is split between them, each
    taking one half of the full share; every other window's array is held whole. -/
def qOf : Fin 6 → PosShare TreeShare
  | ⟨0, _⟩ => fullShare.left
  | ⟨1, _⟩ => fullShare.right
  | _ => fullShare

theorem arrRefs_eq : Finset.univ.image (Pipeline.arrRef spec0) = [main_arg0, main_v9, main_v19, main_v29, main_v36].toFinset := by decide

/-- The distinct buffers behind the windows' arrays, one by one: five buffers for six windows. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v9) ↦{fullShare} V m c main_v9)
          ∗ (((c.tc : Thread nD τ).loc main_v19) ↦{fullShare} V m c main_v19) ∗ (((c.tc : Thread nD τ).loc main_v29) ↦{fullShare} V m c main_v29)
          ∗ (((c.tc : Thread nD τ).loc main_v36) ↦{fullShare} V m c main_v36)) :=
  bigSep_eq_bigSepL_of_eq [main_arg0, main_v9, main_v19, main_v29, main_v36] arrRefs_eq (by decide) _

/-- The pipeline's arrays at entry, window by window: each window's array buffer, whole, at its share, at the
    region-entry contents. -/
theorem arrays_entry (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrays ((dats 0 c).arrAt · 0)
      = bigSep Finset.univ fun w : Fin 6 => (((c.tc : Thread nD τ).loc (Pipeline.arrRef spec0 w)) ↦{(dats 0 c).share w} V m c (Pipeline.arrRef spec0 w) : sProp 𝕄) := by
  unfold Dat.arrays
  exact bigSep_congr fun w _ => by
    rw [(arr_whole0 w).set_eq_univ]; dsimp only
    rw [show (dats 0 c).arrAt w 0 = V m c (Pipeline.arrRef spec0 w) from hA c w]

theorem hsplit (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qOf w) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have s0 : (dats 0 c).share 0 = fullShare.left := (if_neg (by decide)).trans (hq c 0)
  have s1 : (dats 0 c).share 1 = fullShare.right := (if_neg (by decide)).trans (hq c 1)
  have s2 : (dats 0 c).share 2 = fullShare := (if_neg (by decide)).trans (hq c 2)
  have s3 : (dats 0 c).share 3 = fullShare := (if_neg (by decide)).trans (hq c 3)
  have s4 : (dats 0 c).share 4 = fullShare := (if_neg (by decide)).trans (hq c 4)
  have s5 : (dats 0 c).share 5 = fullShare := if_pos (by decide)
  rw [arrays_entry m dats hA c, bigSep_W0, s0, s1, s2, s3, s4, s5]
  rw [arrBufs_eq]
  iintro ⟨H0, H9, H19, H29, H36⟩
  ihave H0 := (pointsTo_share (PosShare.mem_left_op_right fullShare)).1 $$ H0
  icases H0 with ⟨H0l, H0r⟩
  isplitl [H0l]; · iexact H0l
  isplitl [H0r]; · iexact H0r
  isplitl [H9]; · iexact H9
  isplitl [H19]; · iexact H19
  isplitl [H29]; · iexact H29
  iexact H36

end Cert.Kernel.Hand

end
-- ==== Proof.FrameB.Launch.Args.lean ====
/-
  The four arguments of @main end unchanged. No host operation before the region writes an argument, so each is at
  its launch contents when the region is entered; the first argument is an input array of the pipeline, never
  written by it, and the other three are no window's array and bypass the region. Stated at any float instance.
-/
import proofs.«128873_j58334245814673_2_alg».proof.Proof.FrameB.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- A buffer no operation of any of the lines writes keeps its contents through all of them. -/
theorem after_flatten_keep {b : DevRef τ sig} (opss : List (List (HloOp τ sig (Elt F)))) (W : Valuation τ sig (Elt F))
    (h : opss.Forall fun ops => ops.Forall fun op => b ∉ op.writes) : StableHlo.after opss.flatten W b = W b :=
  StableHlo.after_of_forall_not_mem opss.flatten W fun op hop => by
    obtain ⟨ops, ho, hm⟩ := List.mem_flatten.mp hop
    exact (List.forall_iff_forall_mem.mp ((List.forall_iff_forall_mem.mp h) ops ho)) op hm

/-! Every host operation writes its own result buffer only, and none of those is an argument of @main. -/
theorem keeps0 : ∀ r ∈ [main_arg0, main_arg1, main_arg2, main_arg3], (hostOps0 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps1 : ∀ r ∈ [main_arg0, main_arg1, main_arg2, main_arg3], (hostOps0_1 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps2 : ∀ r ∈ [main_arg0, main_arg1, main_arg2, main_arg3], (hostOps0_2 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps3 : ∀ r ∈ [main_arg0, main_arg1, main_arg2, main_arg3], (hostOps0_3 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps4 : ∀ r ∈ [main_arg0, main_arg1, main_arg2, main_arg3], (hostOps0_4 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps5 : ∀ r ∈ [main_arg0, main_arg1, main_arg2, main_arg3], (hostOps0_5 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps6 : ∀ r ∈ [main_arg0, main_arg1, main_arg2, main_arg3], (hostOps0_6 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)

/-- So the arguments hold their launch contents when the region is entered. -/
theorem V_arg (c : Dev nD) : ∀ r ∈ [main_arg0, main_arg1, main_arg2, main_arg3], V m c r = m ((c.tc : Thread nD τ).loc r) := fun r hr =>
  after_flatten_keep preOps (fun b => m (c, b))
    ⟨keeps0 r hr, keeps1 r hr, keeps2 r hr, keeps3 r hr, keeps4 r hr, keeps5 r hr, keeps6 r hr⟩

/-- THE FRAME from a frame run: the first argument is the array of input windows 0 and 1, which the pipeline never
    writes (`Dat.arrAt_in`), and is at its launch contents at the region's entry; the other three arguments are no
    window's array, bypass the region (the run's second clause) and are at their launch contents at its entry. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_arg m c main_arg0 (by decide)))),
     ((h c).2 main_arg1 (Pipeline.mem_restRefs_of main_arg1 (by decide) (by decide))).trans (V_arg m c main_arg1 (by decide)),
     ((h c).2 main_arg2 (Pipeline.mem_restRefs_of main_arg2 (by decide) (by decide))).trans (V_arg m c main_arg2 (by decide)),
     ((h c).2 main_arg3 (Pipeline.mem_restRefs_of main_arg3 (by decide) (by decide))).trans (V_arg m c main_arg3 (by decide))⟩) h

end Cert.Kernel.Hand

end
-- ==== Proof.FrameB.Launch.lean ====
/-
  The frame run of the attention region, whose two input windows 0 and 1 read one array. The library's launch
  theorem for windows that need not have distinct arrays is applied with: no semaphore and no prefetched table of the
  kernel's own; the arrays' buffers dealt to the windows share by share; the generator register and the scratch
  routed into the region's invariant at entry and out of it at exit; every other unscoped buffer bypassing the
  region. Stated at any float instance.
-/
import proofs.«128873_j58334245814673_2_alg».proof.Proof.FrameB.Launch.Main
import proofs.«128873_j58334245814673_2_alg».proof.Proof.FrameB.Launch.Split
import proofs.«128873_j58334245814673_2_alg».proof.Proof.FrameB.Launch.Args

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- THE FRAME RUN for windows that share an array. The library's launch theorem for a region whose windows need not have
    distinct arrays, at no semaphore of the kernel's own and no prefetched table: the arrays' buffers are dealt to the
    windows by `hsplit`, the generator register and the scoped rest make the class invariant `ΦA` at entry (`hin`) and
    are given back at exit (`hout`), and every unscoped buffer that is no window's array bypasses the region and is read
    back at the end at its entry contents. -/
theorem run_of_body (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qOf w)
    (hbody : ∀ c, Pipeline.BodyObligationLoose (dats 0 c) (defs₀ (F := F)) Variants.none () Set.univ)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats ()
    cellOf_inj 0 winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨(h c).1, Pipeline.rest_of_restP Pipeline.Prefetch.none spec0 ((cfgs 0).toPCfg_adm (Val := Elt F)).1 c (V m c) s (fun k => k.elim0) (h c).2.1 (h c).2.2⟩)

end Cert.Kernel.Hand

end
-- ==== Proof.FrameB.Frame.lean ====
/-
  The frame run of the attention region and the frame claim: every weakly fair execution of the program terminates,
  nothing faults, the output array ends at what the write-backs leave in it (the proof data's `arrAt`), and every other
  unscoped buffer — the four arguments among them — as the region found it.
-/
import proofs.«128873_j58334245814673_2_alg».proof.Proof.FrameB.Sound
import proofs.«128873_j58334245814673_2_alg».proof.Proof.FrameB.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares the proof data names are the ones the arrays are dealt at. -/
theorem hq (c : Dev nD) (w : Fin 6) : (dats m 0 c).q w = qOf w := by
  show shareOf w = qOf w
  match w with
  | ⟨0, _⟩ => rfl
  | ⟨1, _⟩ => rfl
  | ⟨2, _⟩ => rfl
  | ⟨3, _⟩ => rfl
  | ⟨4, _⟩ => rfl
  | ⟨5, _⟩ => rfl

set_option backward.isDefEq.respectTransparency.types false in
/-- The frame run. -/
theorem run_main : θ_run defs (onTc (τ := τ) (main (F := F))) (s₀ m ρ) (Pipeline.FramePost cfgs (dats m) 0 (V m)) :=
  run_of_body m ρ (dats m) (A_eq m) (hq m) (fun c => (body_obligation m c).loose) (fun _ _ => rfl) (hin m) (hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameI.Entry.lean ====
/-
  The TensorCore buffers' contents when the attention region is entered — after the host operations that
  compute the three binding vectors and the returned keys and values — and each window's block of its array
  at a grid point.  Stated at any float instance.
-/
import proofs.«128873_j58334245814673_2_alg».proof.Proof.Gen.KernelIdeal.Launch
import proofs.«128873_j58334245814673_2_alg».proof.Proof.Gen.KernelIdeal.Skeleton
import proofs.«128873_j58334245814673_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The host operations before the region, stretch by stretch, in order. -/
abbrev preOps : List (List (HloOp τ sig (Elt F))) :=
  [hostOps0, hostOps0_1, hostOps0_2, hostOps0_3, hostOps0_4, hostOps0_5, hostOps0_6]

/-- Core `c`'s buffer contents when the region is entered, as a valuation: the launch contents after
    the host operations before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.FrameI.Conds.lean ====
/-
  The grid of the attention region has 256 points t = (b, qi, ki) = (t / 64, (t / 8) % 8, t % 8): batch, query
  tile, key tile.  The body branches three times on the coordinates: ki = 0 (clear the accumulator), ki ≤ qi
  (a key tile at or before the query tile: accumulate), ki = qi (the diagonal tile: store the accumulator to the
  output block).  Here: those conditions in closed form over the point's number, where the output window is idle
  and where it is written back (only at ki = 7), and the names of the staging memrefs the body is called with.
-/
import proofs.«128873_j58334245814673_2_alg».proof.Proof.FrameI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions -/

/-- The key tile is the first one: `ki = 0`. -/
abbrev cond1 (i : grid0.Coords) : Prop := (Scalar.cmpi .ne (Scalar.extui (Scalar.cmpi .eq (BitVec.ofNat 32 (i 2).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The key tile is not after the query tile: `ki ≤ qi`. -/
abbrev cond2 (i : grid0.Coords) : Prop := (Scalar.cmpi .ne (Scalar.extui (Scalar.cmpi .sle (BitVec.ofNat 32 (i 2).val) (BitVec.ofNat 32 (i 1).val))) 0#32) = 1#1
theorem hcond2 : ∀ t : Fin cfg0.N, cond2 (grid0.coords t) ↔ t.val % 8 ≤ t.val / 8 % 8 :=
  (by decide +kernel : ∀ t : Fin grid0.N, cond2 (grid0.coords t) ↔ t.val % 8 ≤ t.val / 8 % 8)

/-- The diagonal tile: `ki = qi`. -/
abbrev cond3 (i : grid0.Coords) : Prop := k0_cond3 i = 1#1
theorem hcond3 : ∀ t : Fin cfg0.N, cond3 (grid0.coords t) ↔ t.val % 8 = t.val / 8 % 8 :=
  (by decide +kernel : ∀ t : Fin grid0.N, cond3 (grid0.coords t) ↔ t.val % 8 = t.val / 8 % 8)

/-! ## Where the windows are idle, and where the output is written back -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
/-- Off the diagonal the body stores nothing into the output window's buffer. -/
theorem idleAt_5 : ∀ t : Fin cfg0.N, ¬cond3 (grid0.coords t) → cfg0.idle 5 (grid0.coords t) = true := by decide +kernel
/-- On the diagonal it stores the whole block. -/
theorem liveAt_5 : ∀ t : Fin cfg0.N, cond3 (grid0.coords t) → cfg0.idle 5 (grid0.coords t) = false := by decide +kernel
/-- The output block is written back exactly at the last key tile. -/
theorem flush_5 : ∀ t : Fin cfg0.N, (cfg0.win 5).flush t = true ↔ t.val % 8 = 7 :=
  (by decide +kernel : ∀ t : Fin grid0.N, win0_5.flush t = true ↔ t.val % 8 = 7)
theorem noFlush_5 (t : Fin cfg0.N) (h : t.val % 8 ≠ 7) : (cfg0.win 5).flush t = false := by
  cases hf : (cfg0.win 5).flush t
  · rfl
  · exact absurd ((flush_5 t).mp hf) h
/-- The output window is never fetched. -/
theorem noFetch_5 : ∀ t : Fin cfg0.N, (cfg0.win 5).fetch t = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1024 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S512x1024 .f32 := Memref.whole cc0_scratch0
/-- The accumulator as a view: what it holds is stated through it. -/
abbrev VS : View sig .tc .vmem S512x1024 .f32 := (scM).view
/-- One staging buffer of the output window, through which its contents are stated. -/
abbrev VO : View sig .tc .vmem S1x512x1024 .f32 := (Memref.whole cc0_stg5_0 : Memref sig .tc .vmem S1x512x1024 .f32).view

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.FrameI.RunA.lean ====
/-
  The body at a grid point of case A — the first key tile of the first query tile (ki = 0 = qi): the accumulator is cleared, the tile's contribution added, and the accumulator stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case A. -/
noncomputable def kernelRun_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) :
    Σ' (L5 : List (View.Piece (Elt F) S1x512x1024 .f32)), { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, ?_, fun xo E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Hand

end
-- ==== Proof.FrameI.RunB.lean ====
/-
  The body at a grid point of case B — the first key tile of a later query tile (ki = 0 < qi): the accumulator is cleared and the tile's contribution added; nothing is stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case B. -/
noncomputable def kernelRun_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) :
    { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, fun xi5 E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.FrameI.RunC.lean ====
/-
  The body at a grid point of case C — a key tile strictly between the first and the diagonal one (0 < ki < qi): the tile's contribution is added to the accumulator; nothing is stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case C. -/
noncomputable def kernelRun_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) :
    { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, fun xi5 E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.FrameI.RunD.lean ====
/-
  The body at a grid point of case D — the diagonal tile of a later query tile (ki = qi > 0): the tile's contribution is added and the accumulator stored to the output block.
  On whole staging memrefs holding the five input blocks, the output window's buffer and the accumulator, the body
  runs to its end holding the inputs as they were, and each buffer it stores into with the stored pieces written:
  the pieces are found by running the body.
-/
import proofs.«128873_j58334245814673_2_alg».proof.Proof.FrameI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case D. -/
noncomputable def kernelRun_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) :
    Σ' (L5 : List (View.Piece (Elt F) S1x512x1024 .f32)), { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__hdc_attn_kernel i arg3 harg3 arg4 harg4 arg5 harg5 arg6 harg6 arg7 harg7 arg8 harg8 arg9 harg9) K } := by
  refine ⟨?_, ?_, fun xo E K => ?run⟩
  case run =>
    simp only [cc0__hdc_attn_kernel_eq_skeleton]; unfold cc0__hdc_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Hand

end
-- ==== Proof.FrameI.RunE.lean ====
/-
  The body at a grid point of case E — a key tile after the query tile (ki > qi): the body does nothing.
  On whole staging memrefs holding the five input blocks, the output window's buffer and the accumulator, the body
  runs to its end holding the inputs as they were, and each buffer it stores into with the stored pieces written:
  the pieces are found by running the body.
-/
import proofs.«128873_j58334245814673_2_alg».proof.Proof.FrameI.RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in case E. -/
theorem kernelRun_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : ¬cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) :
    ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs) -∗ K ⟨⟩))
          ⊢ wp frame (wpE (defs₀ (F := F)) Variants.none c none) E (cc0__hdc_attn_kernel i arg3 harg3 arg4 harg4 arg5 harg5 arg6 harg6 arg7 harg7 arg8 harg8 arg9 harg9) K := by
  intro xi5 E K
  simp only [cc0__hdc_attn_kernel_eq_skeleton]; unfold cc0__hdc_attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; · ipureintro; exact harg9.read_unread _
  iexact HS

end Cert.KernelIdeal.Hand

end
-- ==== Proof.FrameI.Outs.lean ====
/-
  What the body leaves behind, case by case and then point by point: the output window's staging buffer and the
  accumulator after each of the 256 grid points, as a recursion over the point's number; the region's invariant
  (the accumulator at what the point before left); and the proof data of the region.
-/
import proofs.«128873_j58334245814673_2_alg».proof.Proof.FrameI.RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's one store into the output window's buffer covers its block. -/
theorem cover_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (y : S1x512x1024.Idx) :
    ∃ pc ∈ (kernelRun_A c i arg3 harg3 arg4 harg4 arg5 harg5 arg6 harg6 arg7 harg7 arg8 harg8 arg9 harg9 hc1 hc2 hc3 x0 x1 x2 x3 x4).1, y ∈ pc.1.set :=
  View.cover_of_tiledL (kernelRun_A c i arg3 harg3 arg4 harg4 arg5 harg5 arg6 harg6 arg7 harg7 arg8 harg8 arg9 harg9 hc1 hc2 hc3 x0 x1 x2 x3 x4).1 S1x512x1024.size (by sl_kernel_rfl) y

/-- What case A leaves in the output window's buffer: its pieces read back. -/
def out_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) : Vec F S1x512x1024 .f32 :=
  VO.read (Elt F) (VO.writes (Elt F) VO.junk (kernelRun_A c i arg3 harg3 arg4 harg4 arg5 harg5 arg6 harg6 arg7 harg7 arg8 harg8 arg9 harg9 hc1 hc2 hc3 x0 x1 x2 x3 x4).1)

/-- Case A's stores into the accumulator cover it. -/
theorem scover_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (y : S512x1024.Idx) :
    ∃ pc ∈ (kernelRun_A c i arg3 harg3 arg4 harg4 arg5 harg5 arg6 harg6 arg7 harg7 arg8 harg8 arg9 harg9 hc1 hc2 hc3 x0 x1 x2 x3 x4).2.1, y ∈ pc.1.set :=
  View.cover_of_tiledL (kernelRun_A c i arg3 harg3 arg4 harg4 arg5 harg5 arg6 harg6 arg7 harg7 arg8 harg8 arg9 harg9 hc1 hc2 hc3 x0 x1 x2 x3 x4).2.1 S512x1024.size (by sl_kernel_rfl) y

/-- What case A leaves in the accumulator: its pieces read back. -/
def sout_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) : Vec F S512x1024 .f32 :=
  VS.read (Elt F) (VS.writes (Elt F) VS.junk (kernelRun_A c i arg3 harg3 arg4 harg4 arg5 harg5 arg6 harg6 arg7 harg7 arg8 harg8 arg9 harg9 hc1 hc2 hc3 x0 x1 x2 x3 x4).2.1)

/-- Case B's stores into the accumulator cover it. -/
theorem scover_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (y : S512x1024.Idx) :
    ∃ pc ∈ (kernelRun_B c i arg3 harg3 arg4 harg4 arg5 harg5 arg6 harg6 arg7 harg7 arg8 harg8 arg9 harg9 hc1 hc2 hc3 x0 x1 x2 x3 x4).1, y ∈ pc.1.set :=
  View.cover_of_tiledL (kernelRun_B c i arg3 harg3 arg4 harg4 arg5 harg5 arg6 harg6 arg7 harg7 arg8 harg8 arg9 harg9 hc1 hc2 hc3 x0 x1 x2 x3 x4).1 S512x1024.size (by sl_kernel_rfl) y

/-- What case B leaves in the accumulator: its pieces read back. -/
def sout_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) : Vec F S512x1024 .f32 :=
  VS.read (Elt F) (VS.writes (Elt F) VS.junk (kernelRun_B c i arg3 harg3 arg4 harg4 arg5 harg5 arg6 harg6 arg7 harg7 arg8 harg8 arg9 harg9 hc1 hc2 hc3 x0 x1 x2 x3 x4).1)

/-- Case C's stores into the accumulator cover it. -/
theorem scover_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) (y : S512x1024.Idx) :
    ∃ pc ∈ (kernelRun_C c i arg3 harg3 arg4 harg4 arg5 harg5 arg6 harg6 arg7 harg7 arg8 harg8 arg9 harg9 hc1 hc2 hc3 x0 x1 x2 x3 x4 xs).1, y ∈ pc.1.set :=
  View.cover_of_tiledL (kernelRun_C c i arg3 harg3 arg4 harg4 arg5 harg5 arg6 harg6 arg7 harg7 arg8 harg8 arg9 harg9 hc1 hc2 hc3 x0 x1 x2 x3 x4 xs).1 S512x1024.size (by sl_kernel_rfl) y

/-- What case C leaves in the accumulator: its pieces read back. -/
def sout_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : ¬cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) : Vec F S512x1024 .f32 :=
  VS.read (Elt F) (VS.writes (Elt F) VS.junk (kernelRun_C c i arg3 harg3 arg4 harg4 arg5 harg5 arg6 harg6 arg7 harg7 arg8 harg8 arg9 harg9 hc1 hc2 hc3 x0 x1 x2 x3 x4 xs).1)

/-- Case D's one store into the output window's buffer covers its block. -/
theorem cover_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) (y : S1x512x1024.Idx) :
    ∃ pc ∈ (kernelRun_D c i arg3 harg3 arg4 harg4 arg5 harg5 arg6 harg6 arg7 harg7 arg8 harg8 arg9 harg9 hc1 hc2 hc3 x0 x1 x2 x3 x4 xs).1, y ∈ pc.1.set :=
  View.cover_of_tiledL (kernelRun_D c i arg3 harg3 arg4 harg4 arg5 harg5 arg6 harg6 arg7 harg7 arg8 harg8 arg9 harg9 hc1 hc2 hc3 x0 x1 x2 x3 x4 xs).1 S1x512x1024.size (by sl_kernel_rfl) y

/-- What case D leaves in the output window's buffer: its pieces read back. -/
def out_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) : Vec F S1x512x1024 .f32 :=
  VO.read (Elt F) (VO.writes (Elt F) VO.junk (kernelRun_D c i arg3 harg3 arg4 harg4 arg5 harg5 arg6 harg6 arg7 harg7 arg8 harg8 arg9 harg9 hc1 hc2 hc3 x0 x1 x2 x3 x4 xs).1)

/-- Case D's stores into the accumulator cover it. -/
theorem scover_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) (y : S512x1024.Idx) :
    ∃ pc ∈ (kernelRun_D c i arg3 harg3 arg4 harg4 arg5 harg5 arg6 harg6 arg7 harg7 arg8 harg8 arg9 harg9 hc1 hc2 hc3 x0 x1 x2 x3 x4 xs).2.1, y ∈ pc.1.set :=
  View.cover_of_tiledL (kernelRun_D c i arg3 harg3 arg4 harg4 arg5 harg5 arg6 harg6 arg7 harg7 arg8 harg8 arg9 harg9 hc1 hc2 hc3 x0 x1 x2 x3 x4 xs).2.1 S512x1024.size (by sl_kernel_rfl) y

/-- What case D leaves in the accumulator: its pieces read back. -/
def sout_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i)
    (x0 : Vec F S1x512x1024 .f32) (x1 : Vec F S1x512x1024 .f32) (x2 : Vec F S1x1024 .f32) (x3 : Vec F S1x1024 .f32) (x4 : Vec F S1x1024 .f32) (xs : Vec F S512x1024 .f32) : Vec F S512x1024 .f32 :=
  VS.read (Elt F) (VS.writes (Elt F) VS.junk (kernelRun_D c i arg3 harg3 arg4 harg4 arg5 harg5 arg6 harg6 arg7 harg7 arg8 harg8 arg9 harg9 hc1 hc2 hc3 x0 x1 x2 x3 x4 xs).2.1)

/-! ## What the output window's buffer and the accumulator hold after each point -/

/-- THE ACCUMULATION, by recursion on the point's number `n` (ki = n % 8, qi = n / 8 % 8): after the body at point `n`,
    the output window's buffer and the accumulator.  On the diagonal (ki = qi) the buffer holds what the case stored; past
    it (ki > qi) the body does nothing and both are as the point before left them; before it the buffer's contents are not
    consulted (the window is idle and is not written back there) and are carried along. -/
def outsAt (c : Dev nD) : (n : ℕ) → n < cfg0.N → Vec F S1x512x1024 .f32 × Vec F S512x1024 .f32
  | 0, hn => (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond1 ⟨0, hn⟩).mpr (show (0:ℕ) % 8 = 0 by decide)) ((hcond2 ⟨0, hn⟩).mpr (show (0:ℕ) % 8 ≤ 0 / 8 % 8 by decide)) ((hcond3 ⟨0, hn⟩).mpr (show (0:ℕ) % 8 = 0 / 8 % 8 by decide)) (iblk m c 0 ⟨0, hn⟩) (iblk m c 1 ⟨0, hn⟩) (iblk m c 2 ⟨0, hn⟩) (iblk m c 3 ⟨0, hn⟩) (iblk m c 4 ⟨0, hn⟩),
              sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond1 ⟨0, hn⟩).mpr (show (0:ℕ) % 8 = 0 by decide)) ((hcond2 ⟨0, hn⟩).mpr (show (0:ℕ) % 8 ≤ 0 / 8 % 8 by decide)) ((hcond3 ⟨0, hn⟩).mpr (show (0:ℕ) % 8 = 0 / 8 % 8 by decide)) (iblk m c 0 ⟨0, hn⟩) (iblk m c 1 ⟨0, hn⟩) (iblk m c 2 ⟨0, hn⟩) (iblk m c 3 ⟨0, hn⟩) (iblk m c 4 ⟨0, hn⟩))
  | n + 1, hn =>
    if h1 : (n + 1) % 8 = 0 then
      if h3 : (n + 1) % 8 = (n + 1) / 8 % 8 then
        (out_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond1 ⟨n + 1, hn⟩).mpr h1) ((hcond2 ⟨n + 1, hn⟩).mpr (le_of_eq h3)) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩),
         sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond1 ⟨n + 1, hn⟩).mpr h1) ((hcond2 ⟨n + 1, hn⟩).mpr (le_of_eq h3)) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        ((outsAt c n (Nat.lt_of_succ_lt hn)).1,
         sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond1 ⟨n + 1, hn⟩).mpr h1) ((hcond2 ⟨n + 1, hn⟩).mpr (h1 ▸ Nat.zero_le _)) (fun h => h3 ((hcond3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h2 : (n + 1) % 8 ≤ (n + 1) / 8 % 8 then
        if h3 : (n + 1) % 8 = (n + 1) / 8 % 8 then
          (out_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h1 ((hcond1 ⟨n + 1, hn⟩).mp h)) ((hcond2 ⟨n + 1, hn⟩).mpr h2) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2,
           sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h1 ((hcond1 ⟨n + 1, hn⟩).mp h)) ((hcond2 ⟨n + 1, hn⟩).mpr h2) ((hcond3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2)
        else
          ((outsAt c n (Nat.lt_of_succ_lt hn)).1,
           sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h1 ((hcond1 ⟨n + 1, hn⟩).mp h)) ((hcond2 ⟨n + 1, hn⟩).mpr h2) (fun h => h3 ((hcond3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2)
      else
        outsAt c n (Nat.lt_of_succ_lt hn)

/-- `outsAt` at a point of case A. -/
theorem outsAt_A (c : Dev nD) (t : Fin cfg0.N) (h1 : t.val % 8 = 0) (h3 : t.val % 8 = t.val / 8 % 8) :
    outsAt m c t.val t.isLt = (out_A c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (le_of_eq h3)) ((hcond3 t).mpr h3) (iblk m c 0 t) (iblk m c 1 t) (iblk m c 2 t) (iblk m c 3 t) (iblk m c 4 t),
      sout_A c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (le_of_eq h3)) ((hcond3 t).mpr h3) (iblk m c 0 t) (iblk m c 1 t) (iblk m c 2 t) (iblk m c 3 t) (iblk m c 4 t)) := by
  obtain ⟨n, hn⟩ := t
  cases n with
  | zero => exact rfl
  | succ n => exact (dif_pos h1).trans ((dif_pos h3).trans rfl)

/-- `outsAt` at a point of case B: the accumulator restarted; the buffer carried. -/
theorem outsAt_B (c : Dev nD) (t : Fin cfg0.N) (h1 : t.val % 8 = 0) (h3 : ¬t.val % 8 = t.val / 8 % 8) :
    outsAt m c t.val t.isLt = ((outsAt m c (t.val - 1) (Nat.lt_of_le_of_lt (Nat.sub_le _ _) t.isLt)).1,
      sout_B c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (h1 ▸ Nat.zero_le _)) (fun h => h3 ((hcond3 t).mp h)) (iblk m c 0 t) (iblk m c 1 t) (iblk m c 2 t) (iblk m c 3 t) (iblk m c 4 t)) := by
  obtain ⟨n, hn⟩ := t
  cases n with
  | zero => exact absurd (show (0:ℕ) % 8 = 0 / 8 % 8 by decide) h3
  | succ n => exact (dif_pos h1).trans ((dif_neg h3).trans rfl)

/-- `outsAt` at a point of case C: one more tile added to the accumulator; the buffer carried. -/
theorem outsAt_C (c : Dev nD) (t : Fin cfg0.N) (h1 : ¬t.val % 8 = 0) (h2 : t.val % 8 ≤ t.val / 8 % 8) (h3 : ¬t.val % 8 = t.val / 8 % 8) :
    outsAt m c t.val t.isLt = ((outsAt m c (t.val - 1) (Nat.lt_of_le_of_lt (Nat.sub_le _ _) t.isLt)).1,
      sout_C c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) (fun h => h3 ((hcond3 t).mp h)) (iblk m c 0 t) (iblk m c 1 t) (iblk m c 2 t) (iblk m c 3 t) (iblk m c 4 t) (outsAt m c (t.val - 1) (Nat.lt_of_le_of_lt (Nat.sub_le _ _) t.isLt)).2) := by
  obtain ⟨n, hn⟩ := t
  cases n with
  | zero => exact absurd (show (0:ℕ) % 8 = 0 by decide) h1
  | succ n => exact (dif_neg h1).trans ((dif_pos h2).trans ((dif_neg h3).trans rfl))

/-- `outsAt` at a point of case D: the diagonal tile added, the accumulator stored to the buffer. -/
theorem outsAt_D (c : Dev nD) (t : Fin cfg0.N) (h1 : ¬t.val % 8 = 0) (h2 : t.val % 8 ≤ t.val / 8 % 8) (h3 : t.val % 8 = t.val / 8 % 8) :
    outsAt m c t.val t.isLt = (out_D c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) ((hcond3 t).mpr h3) (iblk m c 0 t) (iblk m c 1 t) (iblk m c 2 t) (iblk m c 3 t) (iblk m c 4 t) (outsAt m c (t.val - 1) (Nat.lt_of_le_of_lt (Nat.sub_le _ _) t.isLt)).2,
      sout_D c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) ((hcond3 t).mpr h3) (iblk m c 0 t) (iblk m c 1 t) (iblk m c 2 t) (iblk m c 3 t) (iblk m c 4 t) (outsAt m c (t.val - 1) (Nat.lt_of_le_of_lt (Nat.sub_le _ _) t.isLt)).2) := by
  obtain ⟨n, hn⟩ := t
  cases n with
  | zero => exact absurd (show (0:ℕ) % 8 = 0 by decide) h1
  | succ n => exact (dif_neg h1).trans ((dif_pos h2).trans ((dif_pos h3).trans rfl))

/-- `outsAt` at a point of case E: everything as the point before left it. -/
theorem outsAt_E (c : Dev nD) (t : Fin cfg0.N) (h1 : ¬t.val % 8 = 0) (h2 : ¬t.val % 8 ≤ t.val / 8 % 8) :
    outsAt m c t.val t.isLt = (outsAt m c (t.val - 1) (Nat.lt_of_le_of_lt (Nat.sub_le _ _) t.isLt)) := by
  obtain ⟨n, hn⟩ := t
  cases n with
  | zero => exact absurd (show (0:ℕ) % 8 = 0 by decide) h1
  | succ n => exact (dif_neg h1).trans ((dif_neg h2).trans rfl)

/-! ## The invariant and the proof data -/

/-- The region invariant before position `n`: before the first point the accumulator holds anything; afterwards what the
    point before left in it; the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-- How the full share of `x`'s array is dealt between the two windows that read it; the other windows hold theirs whole. -/
def shareOf : Fin 6 → PosShare TreeShare
  | ⟨0, _⟩ => fullShare.left
  | ⟨1, _⟩ => fullShare.right
  | _ => fullShare

/-- The proof data of the region on core `c`: the arrays as the region finds them; after the body each input's buffer
    at its block, the output's at `outsAt`'s first component; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q := shareOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]

/-- Each input window's current staging buffer holds its block at every point, fetched there or not: unfetched, the
    block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

end Cert.KernelIdeal.Hand

end
-- ==== Proof.FrameI.Sound.lean ====
/-
  The body obligation at a generic grid point.  The point's number decides the case (ki = t % 8, qi = t / 8 % 8);
  the inputs' staging buffers hold their blocks; the invariant hands the body the accumulator at what the point before
  left (anything at the first key tile, where the body clears it) and takes it back at this point's contents.  Past the
  diagonal the body does nothing, and the output window's buffer still holds what the diagonal point stored: that is
  what the write-back at the last key tile writes.
-/
import proofs.«128873_j58334245814673_2_alg».proof.Proof.FrameI.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Past the diagonal (ki > qi) the output window's buffer holds what the point before left in it: looking back through
    the idle points to the diagonal one, where the body stored the block. -/
theorem before5_E (c : Dev nD) : ∀ (n : ℕ) (hn : n < cfg0.N), ¬ n % 8 ≤ n / 8 % 8 →
    ∀ d, (dats m 0 c).before 5 ⟨n, hn⟩ d = (outsAt m c (n - 1) (Nat.lt_of_le_of_lt (Nat.sub_le _ _) hn)).1 := by
  intro n
  induction n with
  | zero => intro hn h; exact absurd (by decide) h
  | succ k ih =>
    intro hn h d
    have hN : k + 1 < 256 := lt_of_lt_of_eq hn (show cfg0.N = 256 from N_0)
    have hk : k < cfg0.N := Nat.lt_of_succ_lt hn
    rw [(dats m 0 c).before_of_pos 5 ⟨k + 1, hn⟩ (Nat.succ_ne_zero k) (noFetch_5 _) d]
    rw [show (⟨(⟨k + 1, hn⟩ : Fin cfg0.N).val - 1, Nat.lt_of_le_of_lt (Nat.sub_le _ _) (⟨k + 1, hn⟩ : Fin cfg0.N).isLt⟩ : Fin cfg0.N) = ⟨k, hk⟩ from rfl]
    rw [noFlush_5 ⟨k, hk⟩ (by show k % 8 ≠ 7; omega), if_neg Bool.false_ne_true]
    unfold Dat.left
    by_cases h3 : k % 8 = k / 8 % 8
    · rw [liveAt_5 ⟨k, hk⟩ ((hcond3 ⟨k, hk⟩).mpr h3)]
      show (dats m 0 c).kept 5 ⟨k, hk⟩ d = _
      unfold Dat.kept
      rw [Pipeline.fill_of_clip_none (cfg := cfg0) 5 _ (fun a => rfl) d ((dats m 0 c).after 5 ⟨k, hk⟩), Window.fill_cut, after_5]
      rfl
    · rw [idleAt_5 ⟨k, hk⟩ (fun hc => h3 ((hcond3 ⟨k, hk⟩).mp hc))]
      show (dats m 0 c).before 5 ⟨k, hk⟩ d = _
      have hE : ¬ k % 8 ≤ k / 8 % 8 := by omega
      rw [ih hk hE d]
      have := outsAt_E m c ⟨k, hk⟩ (by show ¬ k % 8 = 0; omega) hE
      exact (congrArg Prod.fst this).symm

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  by_cases h1 : t.val % 8 = 0
  · by_cases h3 : t.val % 8 = t.val / 8 % 8
    · -- the first key tile of the first query tile
      rw [show (dats m 0 c).leavesExact 5 t = owns (c : Thread nD τ) (ms5 t) fullShare ((dats m 0 c).after 5 t) from by
        unfold Dat.leavesExact; rw [liveAt_5 t ((hcond3 t).mpr h3)], after_5]
      rw [outsAt_A m c t h1 h3]
      unfold out_A sout_A; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ ((hcond1 t).mpr h1) ((hcond2 t).mpr (le_of_eq h3)) ((hcond3 t).mpr h3) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_A c _ _ _ _ _ _ _ _ _ _ _ _ _ _ _ _ _ _ _ _ _ _ _)
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ ((hcond1 t).mpr h1) ((hcond2 t).mpr (le_of_eq h3)) ((hcond3 t).mpr h3) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_A c _ _ _ _ _ _ _ _ _ _ _ _ _ _ _ _ _ _ _ _ _ _ _)
    · -- the first key tile of a later query tile
      rw [Dat.leavesExact_idle (dats m 0 c) 5 t (idleAt_5 t (fun hc => h3 ((hcond3 t).mp hc))) (noFlush_5 t (by omega))]
      rw [outsAt_B m c t h1 h3]
      unfold sout_B; (try dsimp only)
      by_cases hz : t.val = 0
      · exfalso; rw [hz] at h3; exact h3 (by decide)
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_B c (grid0.coords t) _ _ _ _ _ _ _ _ _ _ _ _ _ _ ((hcond1 t).mpr h1) ((hcond2 t).mpr (h1 ▸ Nat.zero_le _)) (fun h => h3 ((hcond3 t).mp h)) (iblk m c 0 t) (iblk m c 1 t) (iblk m c 2 t) (iblk m c 3 t) (iblk m c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS Hg]
        · isplitl [HS]
          · unfold owns; iexists _; isplitr
            swap; · iexact HS
            ipureintro; exact View.read_writes_of_cover _ _ _ _ _ (scover_B c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun hz => h1 (by rw [hz])
    by_cases h2 : t.val % 8 ≤ t.val / 8 % 8
    · by_cases h3 : t.val % 8 = t.val / 8 % 8
      · -- the diagonal tile of a later query tile
        rw [show (dats m 0 c).leavesExact 5 t = owns (c : Thread nD τ) (ms5 t) fullShare ((dats m 0 c).after 5 t) from by
          unfold Dat.leavesExact; rw [liveAt_5 t ((hcond3 t).mpr h3)], after_5]
        rw [outsAt_D m c t h1 h2 h3]
        unfold out_D sout_D; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_D c (grid0.coords t) _ _ _ _ _ _ _ _ _ _ _ _ _ _ (fun h => h1 ((hcond1 t).mp h)) ((hcond2 t).mpr h2) ((hcond3 t).mpr h3) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, ⟨%e5, H5⟩, ⟨%es, HS⟩⟩
        isplitl [HS Hg]
        · isplitl [HS]
          · unfold owns; iexists _; isplitr
            swap; · iexact HS
            ipureintro; exact View.read_writes_of_cover _ _ _ _ _ (scover_D c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_D c _ _ _ _ _ _ _ _ _ _ _ _ _ _ _ _ _ _ _ _ _ _ _ _)
      · -- a key tile strictly before the diagonal
        rw [Dat.leavesExact_idle (dats m 0 c) 5 t (idleAt_5 t (fun hc => h3 ((hcond3 t).mp hc))) (noFlush_5 t (by omega))]
        rw [outsAt_C m c t h1 h2 h3]
        unfold sout_C; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((kernelRun_C c (grid0.coords t) _ _ _ _ _ _ _ _ _ _ _ _ _ _ (fun h => h1 ((hcond1 t).mp h)) ((hcond2 t).mpr h2) (fun h => h3 ((hcond3 t).mp h)) (iblk m c 0 t) (iblk m c 1 t) (iblk m c 2 t) (iblk m c 3 t) (iblk m c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- past the diagonal: the body does nothing
      have h3 : ¬ t.val % 8 = t.val / 8 % 8 := fun h => h2 (le_of_eq h)
      rw [outsAt_E m c t h1 h2]
      rw [PhiS_castSucc m c t, PhiS_pos m c _ _ hz]
      by_cases h7 : t.val % 8 = 7
      · -- the last key tile: the block is written back, at what the diagonal point stored
        rw [show (dats m 0 c).leavesExact 5 t = owns (c : Thread nD τ) (ms5 t) fullShare ((dats m 0 c).after 5 t) from by
          unfold Dat.leavesExact; rw [idleAt_5 t (fun hc => h3 ((hcond3 t).mp hc)), (flush_5 t).mpr h7], after_5, outsAt_E m c t h1 h2]
        simp only [before5_E m c t.val t.isLt h2]
        iintro ⟨⟨HS, Hg⟩, Ho, ⟨%d0, H0⟩, ⟨%d1, H1⟩, ⟨%d2, H2⟩, ⟨%d3, H3⟩, ⟨%d4, H4⟩, ⟨%d5, H5⟩⟩
        iapply (kernelRun_E c (grid0.coords t) _ _ _ _ _ _ _ _ _ _ _ _ _ _ (fun h => h1 ((hcond1 t).mp h)) (fun h => h2 ((hcond2 t).mp h)) (fun h => h3 ((hcond3 t).mp h)) (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [Dat.leavesExact_idle (dats m 0 c) 5 t (idleAt_5 t (fun hc => h3 ((hcond3 t).mp hc))) (noFlush_5 t h7)]
        iintro ⟨⟨HS, Hg⟩, Ho, ⟨%d0, H0⟩, ⟨%d1, H1⟩, ⟨%d2, H2⟩, ⟨%d3, H3⟩, ⟨%d4, H4⟩, ⟨%d5, H5⟩⟩
        iapply (kernelRun_E c (grid0.coords t) _ _ _ _ _ _ _ _ _ _ _ _ _ _ (fun h => h1 ((hcond1 t).mp h)) (fun h => h2 ((hcond2 t).mp h)) (fun h => h3 ((hcond3 t).mp h)) (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.FrameI.Launch.Main.lean ====
/-
  @main up to the attention region: seven lines of host operations, none of which allocates, then the region.
  The program reaches the region holding every unscoped TensorCore buffer at its contents after all seven lines.
  Stated at any float instance.
-/
import proofs.«128873_j58334245814673_2_alg».proof.Proof.FrameI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is seven lines of host operations, then the region: it reaches the region holding every unscoped buffer at
    its contents after all of them (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main preOps
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩
    main_chain

end Cert.KernelIdeal.Hand

end
-- ==== Proof.FrameI.Launch.Split.lean ====
/-
  The region's six windows stand on five buffers: windows 0 and 1 both read the first argument. At the region's
  entry each of the five buffers is held whole at the full share; the full share of the first argument's buffer is
  cut into its two halves, one for window 0 and one for window 1, and every other window takes its buffer whole.
  That is the pipeline's picture of its arrays at entry, each window's array at its own share. Stated at any float
  instance.
-/
import proofs.«128873_j58334245814673_2_alg».proof.Proof.FrameI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares, and the arrays' buffers dealt to the windows -/

/-- The share each window holds its array at: the array read through windows 0 and 1 is split between them, each
    taking one half of the full share; every other window's array is held whole. -/
def qOf : Fin 6 → PosShare TreeShare
  | ⟨0, _⟩ => fullShare.left
  | ⟨1, _⟩ => fullShare.right
  | _ => fullShare

theorem arrRefs_eq : Finset.univ.image (Pipeline.arrRef spec0) = [main_arg0, main_v9, main_v19, main_v29, main_v36].toFinset := by decide

/-- The distinct buffers behind the windows' arrays, one by one: five buffers for six windows. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v9) ↦{fullShare} V m c main_v9)
          ∗ (((c.tc : Thread nD τ).loc main_v19) ↦{fullShare} V m c main_v19) ∗ (((c.tc : Thread nD τ).loc main_v29) ↦{fullShare} V m c main_v29)
          ∗ (((c.tc : Thread nD τ).loc main_v36) ↦{fullShare} V m c main_v36)) :=
  bigSep_eq_bigSepL_of_eq [main_arg0, main_v9, main_v19, main_v29, main_v36] arrRefs_eq (by decide) _

/-- The pipeline's arrays at entry, window by window: each window's array buffer, whole, at its share, at the
    region-entry contents. -/
theorem arrays_entry (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrays ((dats 0 c).arrAt · 0)
      = bigSep Finset.univ fun w : Fin 6 => (((c.tc : Thread nD τ).loc (Pipeline.arrRef spec0 w)) ↦{(dats 0 c).share w} V m c (Pipeline.arrRef spec0 w) : sProp 𝕄) := by
  unfold Dat.arrays
  exact bigSep_congr fun w _ => by
    rw [(arr_whole0 w).set_eq_univ]; dsimp only
    rw [show (dats 0 c).arrAt w 0 = V m c (Pipeline.arrRef spec0 w) from hA c w]

theorem hsplit (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qOf w) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have s0 : (dats 0 c).share 0 = fullShare.left := (if_neg (by decide)).trans (hq c 0)
  have s1 : (dats 0 c).share 1 = fullShare.right := (if_neg (by decide)).trans (hq c 1)
  have s2 : (dats 0 c).share 2 = fullShare := (if_neg (by decide)).trans (hq c 2)
  have s3 : (dats 0 c).share 3 = fullShare := (if_neg (by decide)).trans (hq c 3)
  have s4 : (dats 0 c).share 4 = fullShare := (if_neg (by decide)).trans (hq c 4)
  have s5 : (dats 0 c).share 5 = fullShare := if_pos (by decide)
  rw [arrays_entry m dats hA c, bigSep_W0, s0, s1, s2, s3, s4, s5]
  rw [arrBufs_eq]
  iintro ⟨H0, H9, H19, H29, H36⟩
  ihave H0 := (pointsTo_share (PosShare.mem_left_op_right fullShare)).1 $$ H0
  icases H0 with ⟨H0l, H0r⟩
  isplitl [H0l]; · iexact H0l
  isplitl [H0r]; · iexact H0r
  isplitl [H9]; · iexact H9
  isplitl [H19]; · iexact H19
  isplitl [H29]; · iexact H29
  iexact H36

end Cert.KernelIdeal.Hand

end
-- ==== Proof.FrameI.Launch.Args.lean ====
/-
  The four arguments of @main end unchanged. No host operation before the region writes an argument, so each is at
  its launch contents when the region is entered; the first argument is an input array of the pipeline, never
  written by it, and the other three are no window's array and bypass the region. Stated at any float instance.
-/
import proofs.«128873_j58334245814673_2_alg».proof.Proof.FrameI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- A buffer no operation of any of the lines writes keeps its contents through all of them. -/
theorem after_flatten_keep {b : DevRef τ sig} (opss : List (List (HloOp τ sig (Elt F)))) (W : Valuation τ sig (Elt F))
    (h : opss.Forall fun ops => ops.Forall fun op => b ∉ op.writes) : StableHlo.after opss.flatten W b = W b :=
  StableHlo.after_of_forall_not_mem opss.flatten W fun op hop => by
    obtain ⟨ops, ho, hm⟩ := List.mem_flatten.mp hop
    exact (List.forall_iff_forall_mem.mp ((List.forall_iff_forall_mem.mp h) ops ho)) op hm

/-! Every host operation writes its own result buffer only, and none of those is an argument of @main. -/
theorem keeps0 : ∀ r ∈ [main_arg0, main_arg1, main_arg2, main_arg3], (hostOps0 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps1 : ∀ r ∈ [main_arg0, main_arg1, main_arg2, main_arg3], (hostOps0_1 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps2 : ∀ r ∈ [main_arg0, main_arg1, main_arg2, main_arg3], (hostOps0_2 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps3 : ∀ r ∈ [main_arg0, main_arg1, main_arg2, main_arg3], (hostOps0_3 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps4 : ∀ r ∈ [main_arg0, main_arg1, main_arg2, main_arg3], (hostOps0_4 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps5 : ∀ r ∈ [main_arg0, main_arg1, main_arg2, main_arg3], (hostOps0_5 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)
theorem keeps6 : ∀ r ∈ [main_arg0, main_arg1, main_arg2, main_arg3], (hostOps0_6 : List (HloOp τ sig (Elt F))).Forall fun op => Proc.devRef .tc r ∉ op.writes := by
  intro r hr; simp only [List.mem_cons, List.mem_nil_iff, or_false] at hr
  rcases hr with rfl | rfl | rfl | rfl <;> (simp only [List.Forall]; repeat' constructor) <;>
    exact fun h => absurd (Proc.devRef_injective _ (Finset.mem_singleton.mp h)) (by decide)

/-- So the arguments hold their launch contents when the region is entered. -/
theorem V_arg (c : Dev nD) : ∀ r ∈ [main_arg0, main_arg1, main_arg2, main_arg3], V m c r = m ((c.tc : Thread nD τ).loc r) := fun r hr =>
  after_flatten_keep preOps (fun b => m (c, b))
    ⟨keeps0 r hr, keeps1 r hr, keeps2 r hr, keeps3 r hr, keeps4 r hr, keeps5 r hr, keeps6 r hr⟩

/-- THE FRAME from a frame run: the first argument is the array of input windows 0 and 1, which the pipeline never
    writes (`Dat.arrAt_in`), and is at its launch contents at the region's entry; the other three arguments are no
    window's array, bypass the region (the run's second clause) and are at their launch contents at its entry. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_arg m c main_arg0 (by decide)))),
     ((h c).2 main_arg1 (Pipeline.mem_restRefs_of main_arg1 (by decide) (by decide))).trans (V_arg m c main_arg1 (by decide)),
     ((h c).2 main_arg2 (Pipeline.mem_restRefs_of main_arg2 (by decide) (by decide))).trans (V_arg m c main_arg2 (by decide)),
     ((h c).2 main_arg3 (Pipeline.mem_restRefs_of main_arg3 (by decide) (by decide))).trans (V_arg m c main_arg3 (by decide))⟩) h

end Cert.KernelIdeal.Hand

end
-- ==== Proof.FrameI.Launch.lean ====
/-
  The frame run of the attention region, whose two input windows 0 and 1 read one array. The library's launch
  theorem for windows that need not have distinct arrays is applied with: no semaphore and no prefetched table of the
  kernel's own; the arrays' buffers dealt to the windows share by share; the generator register and the scratch
  routed into the region's invariant at entry and out of it at exit; every other unscoped buffer bypassing the
  region. Stated at any float instance.
-/
import proofs.«128873_j58334245814673_2_alg».proof.Proof.FrameI.Launch.Main
import proofs.«128873_j58334245814673_2_alg».proof.Proof.FrameI.Launch.Split
import proofs.«128873_j58334245814673_2_alg».proof.Proof.FrameI.Launch.Args

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- THE FRAME RUN for windows that share an array. The library's launch theorem for a region whose windows need not have
    distinct arrays, at no semaphore of the kernel's own and no prefetched table: the arrays' buffers are dealt to the
    windows by `hsplit`, the generator register and the scoped rest make the class invariant `ΦA` at entry (`hin`) and
    are given back at exit (`hout`), and every unscoped buffer that is no window's array bypasses the region and is read
    back at the end at its entry contents. -/
theorem run_of_body (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qOf w)
    (hbody : ∀ c, Pipeline.BodyObligationLoose (dats 0 c) (defs₀ (F := F)) Variants.none () Set.univ)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats ()
    cellOf_inj 0 winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨(h c).1, Pipeline.rest_of_restP Pipeline.Prefetch.none spec0 ((cfgs 0).toPCfg_adm (Val := Elt F)).1 c (V m c) s (fun k => k.elim0) (h c).2.1 (h c).2.2⟩)

end Cert.KernelIdeal.Hand

end
-- ==== Proof.FrameI.Frame.lean ====
/-
  The frame run of the attention region and the frame claim: every weakly fair execution of the program terminates,
  nothing faults, the output array ends at what the write-backs leave in it (the proof data's `arrAt`), and every other
  unscoped buffer — the four arguments among them — as the region found it.
-/
import proofs.«128873_j58334245814673_2_alg».proof.Proof.FrameI.Sound
import proofs.«128873_j58334245814673_2_alg».proof.Proof.FrameI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares the proof data names are the ones the arrays are dealt at. -/
theorem hq (c : Dev nD) (w : Fin 6) : (dats m 0 c).q w = qOf w := by
  show shareOf w = qOf w
  match w with
  | ⟨0, _⟩ => rfl
  | ⟨1, _⟩ => rfl
  | ⟨2, _⟩ => rfl
  | ⟨3, _⟩ => rfl
  | ⟨4, _⟩ => rfl
  | ⟨5, _⟩ => rfl

set_option backward.isDefEq.respectTransparency.types false in
/-- The frame run. -/
theorem run_main : θ_run defs (onTc (τ := τ) (main (F := F))) (s₀ m ρ) (Pipeline.FramePost cfgs (dats m) 0 (V m)) :=
  run_of_body m ρ (dats m) (A_eq m) (hq m) (fun c => (body_obligation m c).loose) (fun _ _ => rfl) (hin m) (hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.HostSide.HardK.lean ====
import proofs.«128873_j58334245814673_2_alg».proof.Proof.Gen.KernelIdeal
import Idealize.ShloMosaic.PureOps.Ideal
import Idealize.ShloMosaic.Lib.ValueIdx

/-!
# The hard sign vector, as the kernel program's host operations compute it

For a binding vector `w` of length 1024 the program forms the mean absolute value
`a = (0 + Σ_e |w e|) / 1024`, the product `p e = a · sign (w e)`, and returns `a` where
`p e = 0` and `p e` elsewhere.  `hardK w` is that composition, operation by operation, at the
ideal instance.
-/

noncomputable section

namespace Cert.KernelIdeal.HostSide

open Idealize.ShloMosaic Cert.KernelIdeal Cert.KernelIdeal.Gen

/-- The mean absolute value of `w`, a rank-0 array: `(0 + Σ |w|) / 1024`. -/
def meanAbsK (w : FVec Ideal S1024 .f32) : FVec Ideal S_ .f32 :=
  Host.divf (F := Ideal)
    (Host.reduceAdd (F := Ideal) (Host.absf (F := Ideal) w) (constant (F := Ideal) S_ .f32 0x00000000#32)
      reducesTo_S1024_S_d0 h_S_)
    (constant (F := Ideal) S_ .f32 0x44800000#32)

/-- The mean absolute value times the sign of each entry. -/
def scaledSignK (w : FVec Ideal S1024 .f32) : FVec Ideal S1024 .f32 :=
  mulf (F := Ideal) (broadcastInDim S1024 ![] bcast_S_S1024 (meanAbsK w)) (Host.sign (F := Ideal) w)

/-- The hard sign vector: the scaled sign, with the mean absolute value itself where the scaled sign is zero. -/
def hardK (w : FVec Ideal S1024 .f32) : FVec Ideal S1024 .f32 :=
  select
    (cmpf (F := Ideal) .oeq (scaledSignK w)
      (broadcastInDim S1024 ![] bcast_S_S1024 (constant (F := Ideal) S_ .f32 0x00000000#32)))
    (broadcastInDim S1024 ![] bcast_S_S1024 (meanAbsK w))
    (scaledSignK w)

end Cert.KernelIdeal.HostSide

end
-- ==== Proof.Spec.lean ====
/-
  The mathematics both programs compute, stated once over the extended reals, index by index.

  Inputs: an array `x` of shape [4, 4096, 1024] (batch, position, feature) and three "binding"
  vectors `sq`, `sk`, `sv` of length 1024.  Writing q = x ⊙ sq, k = x ⊙ sk, v = x ⊙ sv (each feature
  scaled by the vector's entry), the results are k, v, and the causal sigmoid attention

      out[b, t, d] = Σ_{s < 4096} a[b, t, s] · v[b, s, d],
      a[b, t, s]  = σ(4 · (1/32) · Σ_e q[b, t, e] · k[b, s, e])   if s ≤ t,   0 otherwise,

  σ the logistic function.  The two float constants are kept as their binary words (1/32 and 4).
-/
import Idealize.ShloMosaic.PureOps.Ideal
import Idealize.ShloMosaic.Lib.ValueIdx

noncomputable section

namespace Cert.Spec

open Idealize.ShloMosaic Idealize.ShloMosaic.ValueIdx

/-- The shape [4, 4096, 1024] of `x` and of every result. -/
abbrev SX : Shape := ⟨3, ![4, 4096, 1024]⟩
/-- The shape [1024] of a binding vector. -/
abbrev SW : Shape := ⟨1, ![1024]⟩

/-- The scaled score of query position `t` against key position `s` in batch `b`:
    ((Σ_e (x[b,t,e]·sq[e]) · (x[b,s,e]·sk[e])) · 1/32) · 4. -/
def score (x : SX.Idx → EReal) (sq sk : SW.Idx → EReal) (b : Fin 4) (t s : Fin 4096) : EReal :=
  ((∑ e : Fin 1024, (x (ix3 b t e) * sq (ix1 e)) * (x (ix3 b s e) * sk (ix1 e)))
      * Ideal.ofBits .f32 0x3D000000#32) * Ideal.ofBits .f32 0x40800000#32

/-- The attention weight: the logistic function of the score where the key is not after the query, zero elsewhere. -/
def attn (x : SX.Idx → EReal) (sq sk : SW.Idx → EReal) (b : Fin 4) (t s : Fin 4096) : EReal :=
  if s.val ≤ t.val then Ideal.logistic (score x sq sk b t s) else 0

/-- One entry of the attention output: the weights of row `t` against the values x[b,s,d]·sv[d], summed over all keys. -/
def outAt (x : SX.Idx → EReal) (sq sk sv : SW.Idx → EReal) (b : Fin 4) (t : Fin 4096) (d : Fin 1024) : EReal :=
  ∑ s : Fin 4096, attn x sq sk b t s * (x (ix3 b s d) * sv (ix1 d))

/-- The attention output as a whole array. -/
def out (x : SX.Idx → EReal) (sq sk sv : SW.Idx → EReal) : SX.Idx → EReal :=
  fun i => outAt x sq sk sv (i 0) (i 1) (i 2)

/-- `x` with feature `d` scaled by `w[d]`: the returned keys (w = sk) and values (w = sv). -/
def scaled (x : SX.Idx → EReal) (w : SW.Idx → EReal) : SX.Idx → EReal :=
  fun i => x i * w (ix1 (i 2))

theorem out_apply (x : SX.Idx → EReal) (sq sk sv : SW.Idx → EReal) (b : Fin 4) (t : Fin 4096) (d : Fin 1024) :
    out x sq sk sv (ix3 b t d) = outAt x sq sk sv b t d := rfl

theorem scaled_apply (x : SX.Idx → EReal) (w : SW.Idx → EReal) (b : Fin 4) (t : Fin 4096) (d : Fin 1024) :
    scaled x w (ix3 b t d) = x (ix3 b t d) * w (ix1 d) := rfl

end Cert.Spec

end
-- ==== Proof.HostSide.Reads.lean ====
import proofs.«128873_j58334245814673_2_alg».proof.Proof.HostSide.HardK
import proofs.«128873_j58334245814673_2_alg».proof.Proof.Spec
import Idealize.ShloMosaic.Lib.Pipeline.Value
import Idealize.ShloMosaic.Lib.ValueLayout

/-!
# The host's layout operations read at an index

A vector of length 1024 reshaped to one row `[1, 1024]` reads, at `(u, e)`, the vector at `e`.
That row broadcast to `[1, 1, 1024]` and then to `[4, 4096, 1024]` reads, at `(b, t, d)`, the
row at `(0, d)`; multiplied entrywise into an array `x` it scales feature `d` of `x` by the
vector's entry `d`.
-/

noncomputable section

namespace Cert.KernelIdeal.HostSide

open Idealize.ShloMosaic Idealize.ShloMosaic.ValueIdx Cert.KernelIdeal Cert.KernelIdeal.Gen

/-- A vector reshaped to one row, read at any index: the vector at the column. -/
theorem reshape_row (w : FVec Ideal S1024 .f32) :
    (shapeCast S1x1024 w shapeCasts_S1024_S1x1024 : S1x1024.Idx → EReal) = fun j => w (ix1 (j 1)) := by
  funext j
  obtain ⟨u, e, rfl⟩ : ∃ u e, j = ix2 u e := ⟨j 0, j 1, eq_ix2 j⟩
  exact shapeCast_a_1a_apply w shapeCasts_S1024_S1x1024 u e

/-- A row broadcast to `[1, 1, 1024]`, read at `(0, 0, d)`: the row at `(0, d)`. -/
theorem bcast_row_apply (r : FVec Ideal S1x1024 .f32) (p q : Fin 1) (d : Fin 1024) :
    broadcastInDim S1x1x1024 ![1, 2] bcast_S1x1024_S1x1x1024_1_2 r (ix3 p q d) = r (ix2 (0 : Fin 1) d) := by
  refine broadcastInDim_apply _ bcast_S1x1024_S1x1x1024_1_2 r (ix3 p q d) (ix2 (0 : Fin 1) d) fun a => ?_
  match a with
  | ⟨0, _⟩ => rfl
  | ⟨1, _⟩ => rfl

/-- A `[1, 1, 1024]` array broadcast to `[4, 4096, 1024]`, read at `(b, t, d)`: the array at `(0, 0, d)`. -/
theorem bcast_full_apply (r : FVec Ideal S1x1x1024 .f32) (b : Fin 4) (t : Fin 4096) (d : Fin 1024) :
    broadcastInDim S4x4096x1024 ![0, 1, 2] bcast_S1x1x1024_S4x4096x1024_0_1_2 r (ix3 b t d)
      = r (ix3 (0 : Fin 1) (0 : Fin 1) d) := by
  refine broadcastInDim_apply _ bcast_S1x1x1024_S4x4096x1024_0_1_2 r (ix3 b t d) (ix3 (0 : Fin 1) (0 : Fin 1) d) fun a => ?_
  match a with
  | ⟨0, _⟩ => rfl
  | ⟨1, _⟩ => rfl
  | ⟨2, _⟩ => rfl

/-- An array times a length-1024 vector reshaped to a row and broadcast along batch and position:
    feature `d` scaled by the vector's entry `d`. -/
theorem mulf_bcast_eq_scaled (x : FVec Ideal S4x4096x1024 .f32) (w : FVec Ideal S1024 .f32) :
    (mulf (F := Ideal) x
        (broadcastInDim S4x4096x1024 ![0, 1, 2] bcast_S1x1x1024_S4x4096x1024_0_1_2
          (broadcastInDim S1x1x1024 ![1, 2] bcast_S1x1024_S1x1x1024_1_2
            (shapeCast S1x1024 w shapeCasts_S1024_S1x1024))) : S4x4096x1024.Idx → EReal)
      = Cert.Spec.scaled x w := by
  funext i
  obtain ⟨b, t, d, rfl⟩ : ∃ b t d, i = ix3 b t d := ⟨i 0, i 1, i 2, eq_ix3 i⟩
  rw [Cert.Spec.scaled_apply]
  show x (ix3 b t d) * _ = _
  rw [bcast_full_apply, bcast_row_apply, reshape_row]

end Cert.KernelIdeal.HostSide

end
-- ==== Proof.HostSide.EntryScaled.lean ====
import proofs.«128873_j58334245814673_2_alg».proof.Proof.FrameI.Entry
import proofs.«128873_j58334245814673_2_alg».proof.Proof.HostSide.Reads
import Idealize.ShloMosaic.Lib.StableHlo.Run

/-!
# The returned keys and values

After the three hard sign vectors the program broadcasts the second and the third row along batch
and position and multiplies each into the input.  Run from the launch contents `m`, the two
returned arrays hold the input with feature `d` scaled by entry `d` of the hard sign vector.
-/

set_option maxRecDepth 16384

noncomputable section

namespace Cert.KernelIdeal.HostSide

open Idealize.ShloMosaic Idealize.ShloMosaic.TcCoe Idealize.ShloMosaic.StableHlo Idealize.ShloMosaic.ValueIdx
open Idealize.SL.Sem
open Cert.KernelIdeal Cert.KernelIdeal.Gen Cert.KernelIdeal.Hand

variable (m : (ℓ : Loc nD τ sig) → Buf (Elt Ideal) ℓ) (c : Dev nD)

/-! ## The returned keys and values: the input scaled by a hard sign vector -/

theorem V_v32_ops :
    (V (F := Ideal) m c main_v32 : S4x4096x1024.Idx → EReal)
      = mulf (F := Ideal) (m ((c : Thread nD τ).loc main_arg0))
          (broadcastInDim S4x4096x1024 ![0, 1, 2] bcast_S1x1x1024_S4x4096x1024_0_1_2
            (broadcastInDim S1x1x1024 ![1, 2] bcast_S1x1024_S1x1x1024_1_2
              (shapeCast S1x1024 (hardK (m ((c : Thread nD τ).loc main_arg2))) shapeCasts_S1024_S1x1024))) := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp
  rfl

theorem V_v35_ops :
    (V (F := Ideal) m c main_v35 : S4x4096x1024.Idx → EReal)
      = mulf (F := Ideal) (m ((c : Thread nD τ).loc main_arg0))
          (broadcastInDim S4x4096x1024 ![0, 1, 2] bcast_S1x1x1024_S4x4096x1024_0_1_2
            (broadcastInDim S1x1x1024 ![1, 2] bcast_S1x1024_S1x1x1024_1_2
              (shapeCast S1x1024 (hardK (m ((c : Thread nD τ).loc main_arg3))) shapeCasts_S1024_S1x1024))) := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp
  rfl

/-- The returned keys: the input, feature by feature, times the second hard sign vector. -/
theorem V_v32 :
    (V (F := Ideal) m c main_v32 : S4x4096x1024.Idx → EReal)
      = Cert.Spec.scaled (m ((c : Thread nD τ).loc main_arg0)) (hardK (m ((c : Thread nD τ).loc main_arg2))) :=
  (V_v32_ops m c).trans (mulf_bcast_eq_scaled _ _)

/-- The returned values: the input, feature by feature, times the third hard sign vector. -/
theorem V_v35 :
    (V (F := Ideal) m c main_v35 : S4x4096x1024.Idx → EReal)
      = Cert.Spec.scaled (m ((c : Thread nD τ).loc main_arg0)) (hardK (m ((c : Thread nD τ).loc main_arg3))) :=
  (V_v35_ops m c).trans (mulf_bcast_eq_scaled _ _)

end Cert.KernelIdeal.HostSide

end
-- ==== Proof.Results.lean ====
/-
  The idealized kernel program's run with its three results named: the attention output array is the specification's
  `out` over the input and the three hard sign vectors; the returned keys and values, which host operations compute
  before the region and the region leaves alone, are the input scaled by the second and third; the arguments end
  unchanged.
-/
import proofs.«128873_j58334245814673_2_alg».proof.Proof.FrameI.Frame
import proofs.«128873_j58334245814673_2_alg».proof.Proof.HostSide.EntryScaled
import proofs.«128873_j58334245814673_2_alg».proof.Proof.Spec

set_option maxRecDepth 16384

noncomputable section

namespace Cert.KernelIdeal.Results

open Idealize.ShloMosaic Idealize.ShloMosaic.TcCoe
open Idealize.SL Idealize.SL.Sem
open Idealize.ShloMosaic.Pipeline (Dat)
open Cert.KernelIdeal Cert.KernelIdeal.Gen Cert.KernelIdeal.Hand Cert.KernelIdeal.HostSide

variable (m : (ℓ : Loc nD τ sig) → Buf (Elt Ideal) ℓ) (ρ : Dev nD → PrngReg)

/-- The specification's attention output over this memory's arguments. -/
abbrev outOf (c : Dev nD) : S4x4096x1024.Idx → EReal :=
  Cert.Spec.out (m ((c.tc : Thread nD τ).loc main_arg0)) (hardK (m ((c.tc : Thread nD τ).loc main_arg1)))
    (hardK (m ((c.tc : Thread nD τ).loc main_arg2))) (hardK (m ((c.tc : Thread nD τ).loc main_arg3)))

/-- The run with the results named, given what the write-backs leave in the output array. -/
theorem value_run
    (hfinal : ∀ c : Dev nD, ((dats (F := Ideal) m 0 c).arrAt 5 cfg0.N : S4x4096x1024.Idx → EReal) = outOf m c) :
    θ_run (defs (F := Ideal)) (onTc (τ := τ) (main (F := Ideal))) ⟨m, fun _ => 0, ρ⟩ (fun r => ∀ c : Dev nD,
      r.2.mem ((c.tc : Thread nD τ).loc main_v36) = outOf m c
      ∧ r.2.mem ((c.tc : Thread nD τ).loc main_v32) = Cert.Spec.scaled (m ((c.tc : Thread nD τ).loc main_arg0)) (hardK (m ((c.tc : Thread nD τ).loc main_arg2)))
      ∧ r.2.mem ((c.tc : Thread nD τ).loc main_v35) = Cert.Spec.scaled (m ((c.tc : Thread nD τ).loc main_arg0)) (hardK (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (hfinal c),
     ((h c).2 main_v32 (Pipeline.mem_restRefs_of main_v32 (by decide) (by decide))).trans (V_v32 m c),
     ((h c).2 main_v35 (Pipeline.mem_restRefs_of main_v35 (by decide) (by decide))).trans (V_v35 m c),
     ((h c).1 0).trans (((dats m 0 c).arrAt_in 0 rfl _).trans ((A_eq m c 0).trans (V_arg m c main_arg0 (by decide)))),
     ((h c).2 main_arg1 (Pipeline.mem_restRefs_of main_arg1 (by decide) (by decide))).trans (V_arg m c main_arg1 (by decide)),
     ((h c).2 main_arg2 (Pipeline.mem_restRefs_of main_arg2 (by decide) (by decide))).trans (V_arg m c main_arg2 (by decide)),
     ((h c).2 main_arg3 (Pipeline.mem_restRefs_of main_arg3 (by decide) (by decide))).trans (V_arg m c main_arg3 (by decide))⟩)
    (run_main m ρ)

end Cert.KernelIdeal.Results

end
-- ==== Proof.KernelMath.BlockSum.lean ====
/-
  The attention sum cut into key blocks of 512 positions, and the causal cut.

  A position s < 4096 is kb·512 + c with kb < 8 and c < 512, so a sum over all positions is the double sum over
  (kb, c).  For the query position t = qi·512 + r, a key position kb·512 + c with kb > qi lies after t, its weight
  is 0 and its term 0 · v = 0: only the blocks kb ≤ qi contribute.  The contribution of block kb is `blockTerm`,
  and the partial sums over kb ≤ n satisfy the recurrence of an accumulator that starts at 0 and adds one block
  per step.  All of this holds in the extended reals without any finiteness assumption: addition is a commutative
  monoid there and 0 · y = 0 for every y.
-/
import proofs.«128873_j58334245814673_2_alg».proof.Proof.Spec

noncomputable section

open scoped BigOperators

namespace Cert.KernelIdeal.Math

open Idealize.ShloMosaic Idealize.ShloMosaic.ValueIdx Cert.Spec

/-- Position kb·512 + c of the sequence: entry c of block kb. -/
def pos (kb : Fin 8) (c : Fin 512) : Fin 4096 := ⟨kb.val * 512 + c.val, by omega⟩

@[simp] theorem pos_val (kb : Fin 8) (c : Fin 512) : (pos kb c).val = kb.val * 512 + c.val := rfl

/-- The pairs (block, entry) are the positions. -/
def blockEquiv : Fin 8 × Fin 512 ≃ Fin 4096 where
  toFun p := pos p.1 p.2
  invFun s := (⟨s.val / 512, by have := s.isLt; omega⟩, ⟨s.val % 512, Nat.mod_lt _ (by decide)⟩)
  left_inv p := by
    rcases p with ⟨kb, c⟩
    have hc := c.isLt
    apply Prod.ext
    · apply Fin.ext; show (kb.val * 512 + c.val) / 512 = kb.val; omega
    · apply Fin.ext; show (kb.val * 512 + c.val) % 512 = c.val; omega
  right_inv s := by
    apply Fin.ext; show s.val / 512 * 512 + s.val % 512 = s.val; omega

/-- A sum over the 4096 positions is the sum over the 8 blocks of the sums over their 512 entries. -/
theorem sum_blocks {M : Type*} [AddCommMonoid M] (f : Fin 4096 → M) :
    ∑ s : Fin 4096, f s = ∑ kb : Fin 8, ∑ c : Fin 512, f (pos kb c) := by
  rw [← Equiv.sum_comp blockEquiv f, Fintype.sum_prod_type]
  rfl

/-- The contribution of key block kb to the output entry (b, qi·512 + r, d): the weights of the query row against
    the block's 512 keys, each times the block's value entry.  The weight is written out: the logistic function
    of the scaled score where the key position is not after the query position, 0 elsewhere. -/
def blockTerm (x : SX.Idx → EReal) (sq sk sv : SW.Idx → EReal) (b : Fin 4) (qi kb : Fin 8) (r : Fin 512)
    (d : Fin 1024) : EReal :=
  ∑ c : Fin 512,
    (if kb.val * 512 + c.val ≤ qi.val * 512 + r.val then
        Ideal.logistic (((∑ e : Fin 1024, (x (ix3 b (pos qi r) e) * sq (ix1 e)) * (x (ix3 b (pos kb c) e) * sk (ix1 e)))
          * Ideal.ofBits .f32 0x3D000000#32) * Ideal.ofBits .f32 0x40800000#32)
      else 0)
      * (x (ix3 b (pos kb c) d) * sv (ix1 d))

/-- The block's contribution is the specification's sum restricted to the block. -/
theorem blockTerm_eq_attn (x : SX.Idx → EReal) (sq sk sv : SW.Idx → EReal) (b : Fin 4) (qi kb : Fin 8) (r : Fin 512)
    (d : Fin 1024) :
    blockTerm x sq sk sv b qi kb r d
      = ∑ c : Fin 512, attn x sq sk b (pos qi r) (pos kb c) * (x (ix3 b (pos kb c) d) * sv (ix1 d)) := rfl

/-- A block after the query's block contributes nothing: every weight in it is 0. -/
theorem blockTerm_eq_zero (x : SX.Idx → EReal) (sq sk sv : SW.Idx → EReal) (b : Fin 4) (qi kb : Fin 8) (r : Fin 512)
    (d : Fin 1024) (h : qi.val < kb.val) : blockTerm x sq sk sv b qi kb r d = 0 := by
  unfold blockTerm
  refine Finset.sum_eq_zero fun c _ => ?_
  have hr := r.isLt
  rw [if_neg (by omega), zero_mul]

/-- The sum of the contributions of the blocks kb ≤ n. -/
def accUpTo (x : SX.Idx → EReal) (sq sk sv : SW.Idx → EReal) (b : Fin 4) (qi : Fin 8) (r : Fin 512) (d : Fin 1024)
    (n : ℕ) : EReal :=
  ∑ kb ∈ Finset.univ.filter (fun kb : Fin 8 => kb.val ≤ n), blockTerm x sq sk sv b qi kb r d

/-- The first step: a zero accumulator plus block 0. -/
theorem accUpTo_zero (x : SX.Idx → EReal) (sq sk sv : SW.Idx → EReal) (b : Fin 4) (qi : Fin 8) (r : Fin 512)
    (d : Fin 1024) : accUpTo x sq sk sv b qi r d 0 = 0 + blockTerm x sq sk sv b qi 0 r d := by
  have hs : Finset.univ.filter (fun kb : Fin 8 => kb.val ≤ 0) = {0} := by
    ext kb
    simp only [Finset.mem_filter, Finset.mem_univ, true_and, Finset.mem_singleton]
    constructor
    · intro h; apply Fin.ext; show kb.val = 0; omega
    · intro h; rw [h]; exact Nat.le_refl _
  rw [accUpTo, hs, Finset.sum_singleton, zero_add]

/-- A later step: the accumulator of the blocks up to n plus block n + 1. -/
theorem accUpTo_succ (x : SX.Idx → EReal) (sq sk sv : SW.Idx → EReal) (b : Fin 4) (qi : Fin 8) (r : Fin 512)
    (d : Fin 1024) (n : ℕ) (h : n + 1 < 8) :
    accUpTo x sq sk sv b qi r d (n + 1)
      = accUpTo x sq sk sv b qi r d n + blockTerm x sq sk sv b qi ⟨n + 1, h⟩ r d := by
  have hs : Finset.univ.filter (fun kb : Fin 8 => kb.val ≤ n + 1)
      = insert (⟨n + 1, h⟩ : Fin 8) (Finset.univ.filter (fun kb : Fin 8 => kb.val ≤ n)) := by
    ext kb
    simp only [Finset.mem_filter, Finset.mem_univ, true_and, Finset.mem_insert]
    constructor
    · intro hk
      by_cases he : kb.val = n + 1
      · exact Or.inl (Fin.ext he)
      · exact Or.inr (by omega)
    · rintro (hk | hk)
      · rw [hk]
      · omega
  have hn : (⟨n + 1, h⟩ : Fin 8) ∉ Finset.univ.filter (fun kb : Fin 8 => kb.val ≤ n) := by
    simp only [Finset.mem_filter, Finset.mem_univ, true_and]
    omega
  rw [accUpTo, hs, Finset.sum_insert hn, add_comm]
  rfl

/-- The same step named by the block it adds. -/
theorem accUpTo_step (x : SX.Idx → EReal) (sq sk sv : SW.Idx → EReal) (b : Fin 4) (qi : Fin 8) (r : Fin 512)
    (d : Fin 1024) (ki : Fin 8) (h : 0 < ki.val) :
    accUpTo x sq sk sv b qi r d ki.val
      = accUpTo x sq sk sv b qi r d (ki.val - 1) + blockTerm x sq sk sv b qi ki r d := by
  have hk := ki.isLt
  have h1 : ki.val - 1 + 1 < 8 := by omega
  have := accUpTo_succ x sq sk sv b qi r d (ki.val - 1) h1
  have he : (⟨ki.val - 1 + 1, h1⟩ : Fin 8) = ki := Fin.ext (by show ki.val - 1 + 1 = ki.val; omega)
  rw [he] at this
  have hv : ki.val - 1 + 1 = ki.val := by omega
  rw [hv] at this
  exact this

/-- The output entry at the query position qi·512 + r is the sum of the contributions of the blocks kb ≤ qi. -/
theorem outAt_eq_accUpTo (x : SX.Idx → EReal) (sq sk sv : SW.Idx → EReal) (b : Fin 4) (qi : Fin 8) (r : Fin 512)
    (d : Fin 1024) :
    outAt x sq sk sv b (pos qi r) d = accUpTo x sq sk sv b qi r d qi.val := by
  rw [outAt, sum_blocks, accUpTo, Finset.sum_filter]
  refine Finset.sum_congr rfl fun kb _ => ?_
  by_cases hk : kb.val ≤ qi.val
  · rw [if_pos hk]; rfl
  · rw [if_neg hk, ← blockTerm_eq_attn, blockTerm_eq_zero x sq sk sv b qi kb r d (by omega)]

/-- The same with the blocks listed by their number: kb ranges over 0, …, qi. -/
theorem accUpTo_eq_sum_range (x : SX.Idx → EReal) (sq sk sv : SW.Idx → EReal) (b : Fin 4) (qi : Fin 8) (r : Fin 512)
    (d : Fin 1024) (n : ℕ) (hn : n < 8) :
    accUpTo x sq sk sv b qi r d n
      = ∑ kb ∈ Finset.range (n + 1), if h : kb < 8 then blockTerm x sq sk sv b qi ⟨kb, h⟩ r d else 0 := by
  induction n with
  | zero =>
    rw [accUpTo_zero, zero_add, Finset.sum_range_one, dif_pos (by decide)]
    rfl
  | succ m ih =>
    rw [accUpTo_succ x sq sk sv b qi r d m hn, ih (by omega), Finset.sum_range_succ _ (m + 1), dif_pos hn]

end Cert.KernelIdeal.Math

end
-- ==== Proof.KernelValue.Whole.lean ====
/-
  From the write-backs to the whole output array.  The output block (b, qi) — rows qi·512 … qi·512 + 511 of batch b —
  is written back once, at the last key tile (point b·64 + qi·8 + 7), from a buffer that holds the specification's
  attention output on those rows; the 32 blocks tile the array, so the array ends at the specification's output.
-/
import proofs.«128873_j58334245814673_2_alg».proof.Proof.FrameI.Outs
import proofs.«128873_j58334245814673_2_alg».proof.Proof.KernelMath.BlockSum
import proofs.«128873_j58334245814673_2_alg».proof.Proof.HostSide.HardK
import proofs.«128873_j58334245814673_2_alg».proof.Proof.Spec
import Idealize.ShloMosaic.Lib.Pipeline.Value

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.KernelIdeal.HostSide Cert.KernelIdeal.Math

variable (m : (ℓ : Loc nD τ sig) → Buf (Elt Ideal) ℓ) (c : Dev nD)

/-- The specification's attention output over this memory's arguments, as the contents of the output array. -/
abbrev G : Buf (Elt Ideal) ((c.tc : Thread nD τ).loc main_v36) :=
  Cert.Spec.out (m ((c.tc : Thread nD τ).loc main_arg0)) (hardK (m ((c.tc : Thread nD τ).loc main_arg1)))
    (hardK (m ((c.tc : Thread nD τ).loc main_arg2))) (hardK (m ((c.tc : Thread nD τ).loc main_arg3)))

/-- The output window's block index at point t = (b, qi, ki) is (b, qi, 0). -/
theorem idx5 : ∀ t : Fin cfg0.N, win0_5.index t 0 = t.val / 64 ∧ win0_5.index t 1 = t.val / 8 % 8 ∧ win0_5.index t 2 = 0 :=
  (by decide +kernel : ∀ t : Fin grid0.N, win0_5.index t 0 = t.val / 64 ∧ win0_5.index t 1 = t.val / 8 % 8 ∧ win0_5.index t 2 = 0)

/-- Its blocks are never cut. -/
theorem xsize5 : ∀ t : Fin cfg0.N, win0_5.xsize (grid0.coords t) 0 = 1 ∧ win0_5.xsize (grid0.coords t) 1 = 512 ∧ win0_5.xsize (grid0.coords t) 2 = 1024 :=
  (by decide +kernel : ∀ t : Fin grid0.N, win0_5.xsize (grid0.coords t) 0 = 1 ∧ win0_5.xsize (grid0.coords t) 1 = 512 ∧ win0_5.xsize (grid0.coords t) 2 = 1024)

/-- From the diagonal on, the output window's buffer at any index of the block: the specification's output at the
    block's row and column. -/
theorem block_at
    (hinv : ∀ (t : Fin cfg0.N) (b : Fin 4) (qi : Fin 8), b.val = t.val / 64 → qi.val = t.val / 8 % 8 → qi.val ≤ t.val % 8 →
      ∀ (r : Fin 512) (d : Fin 1024), (outsAt (F := Ideal) m c t.val t.isLt).1 (ix3 (0 : Fin 1) r d)
        = Cert.Spec.outAt (m ((c.tc : Thread nD τ).loc main_arg0)) (hardK (m ((c.tc : Thread nD τ).loc main_arg1)))
            (hardK (m ((c.tc : Thread nD τ).loc main_arg2))) (hardK (m ((c.tc : Thread nD τ).loc main_arg3))) b (pos qi r) d)
    (t : Fin cfg0.N) (b : Fin 4) (qi : Fin 8) (hb : b.val = t.val / 64) (hqi : qi.val = t.val / 8 % 8) (hle : qi.val ≤ t.val % 8)
    (j : S1x512x1024.Idx) :
    (outsAt (F := Ideal) m c t.val t.isLt).1 j
      = Cert.Spec.outAt (m ((c.tc : Thread nD τ).loc main_arg0)) (hardK (m ((c.tc : Thread nD τ).loc main_arg1)))
          (hardK (m ((c.tc : Thread nD τ).loc main_arg2))) (hardK (m ((c.tc : Thread nD τ).loc main_arg3))) b (pos qi (j 1)) (j 2) := by
  have e : (ix3 (0 : Fin 1) (j 1) (j 2) : S1x512x1024.Idx) = j :=
    funext fun a => match a with
      | ⟨0, _⟩ => (Fin.eq_zero (j 0)).symm
      | ⟨1, _⟩ => rfl
      | ⟨2, _⟩ => rfl
  exact (congrArg (outsAt (F := Ideal) m c t.val t.isLt).1 e.symm).trans (hinv t b qi hb hqi hle (j 1) (j 2))

set_option maxHeartbeats 1000000 in
/-- What a write-back writes is the specification's output on the block's rows, given that from the diagonal on the
    output window's buffer holds it. -/
theorem flushed_eq
    (hinv : ∀ (t : Fin cfg0.N) (b : Fin 4) (qi : Fin 8), b.val = t.val / 64 → qi.val = t.val / 8 % 8 → qi.val ≤ t.val % 8 →
      ∀ (r : Fin 512) (d : Fin 1024), (outsAt (F := Ideal) m c t.val t.isLt).1 (ix3 (0 : Fin 1) r d)
        = Cert.Spec.outAt (m ((c.tc : Thread nD τ).loc main_arg0)) (hardK (m ((c.tc : Thread nD τ).loc main_arg1)))
            (hardK (m ((c.tc : Thread nD τ).loc main_arg2))) (hardK (m ((c.tc : Thread nD τ).loc main_arg3))) b (pos qi r) d)
    (t : Fin cfg0.N) (hf : (cfg0.win 5).flush t = true) :
    (dats (F := Ideal) m 0 c).flushed 5 t = ((cfg0.win 5).blk t).view.read (Elt Ideal) (G m c) := by
  have h7 : t.val % 8 = 7 := (flush_5 t).mp hf
  have hN : t.val < 256 := lt_of_lt_of_eq t.isLt (show cfg0.N = 256 from N_0)
  obtain ⟨i0, i1, i2⟩ := idx5 t
  show (cfg0.win 5).cut (grid0.coords t) ((dats m 0 c).after 5 t) = _
  rw [after_5]
  funext j
  show (outsAt (F := Ideal) m c t.val t.isLt).1 j = G m c (((cfg0.win 5).blk t).view.emb j)
  refine (block_at m c hinv t ⟨t.val / 64, by omega⟩ ⟨t.val / 8 % 8, by omega⟩ rfl rfl (by show t.val / 8 % 8 ≤ t.val % 8; omega) j).trans ?_
  have hj0 : (j 0).val < 1 := (j 0).isLt
  have e0 : (⟨t.val / 64, by omega⟩ : Fin 4) = ((cfg0.win 5).blk t).view.emb j 0 :=
    Fin.ext (by show t.val / 64 = win0_5.index t 0 * 1 + 1 * (j 0).val; rw [i0]; omega)
  have e1 : pos (⟨t.val / 8 % 8, by omega⟩ : Fin 8) (j 1) = ((cfg0.win 5).blk t).view.emb j 1 :=
    Fin.ext (by show t.val / 8 % 8 * 512 + (j 1).val = win0_5.index t 1 * 512 + 1 * (j 1).val; rw [i1]; omega)
  have e2 : (j 2 : Fin 1024) = ((cfg0.win 5).blk t).view.emb j 2 :=
    Fin.ext (by show (j 2).val = win0_5.index t 2 * 1024 + 1 * (j 2).val; rw [i2]; omega)
  show Cert.Spec.outAt _ _ _ _ _ _ _ = Cert.Spec.outAt _ _ _ _ (((cfg0.win 5).blk t).view.emb j 0) (((cfg0.win 5).blk t).view.emb j 1) (((cfg0.win 5).blk t).view.emb j 2)
  rw [← e0, ← e1, ← e2]

/-- So the output array ends at the specification's attention output. -/
theorem final5
    (hinv : ∀ (t : Fin cfg0.N) (b : Fin 4) (qi : Fin 8), b.val = t.val / 64 → qi.val = t.val / 8 % 8 → qi.val ≤ t.val % 8 →
      ∀ (r : Fin 512) (d : Fin 1024), (outsAt (F := Ideal) m c t.val t.isLt).1 (ix3 (0 : Fin 1) r d)
        = Cert.Spec.outAt (m ((c.tc : Thread nD τ).loc main_arg0)) (hardK (m ((c.tc : Thread nD τ).loc main_arg1)))
            (hardK (m ((c.tc : Thread nD τ).loc main_arg2))) (hardK (m ((c.tc : Thread nD τ).loc main_arg3))) b (pos qi r) d) :
    (dats (F := Ideal) m 0 c).arrAt 5 cfg0.N = G m c :=
  (dats m 0 c).arrAt_eq_of_cover 5 (G m c) (flushed_eq m c hinv) fun i => by
    have hb : (i 0 : ℕ) < 4 := (i 0).isLt
    have hs : (i 1 : ℕ) < 4096 := (i 1).isLt
    have hd : (i 2 : ℕ) < 1024 := (i 2).isLt
    have hN : cfg0.N = 256 := N_0
    let t : Fin cfg0.N := ⟨(i 0 : ℕ) * 64 + (i 1 : ℕ) / 512 * 8 + 7, by omega⟩
    have htv : t.val = (i 0 : ℕ) * 64 + (i 1 : ℕ) / 512 * 8 + 7 := rfl
    obtain ⟨i0, i1, i2⟩ := idx5 t
    obtain ⟨x0, x1, x2⟩ := xsize5 t
    refine ⟨t, (flush_5 t).mpr (by rw [htv]; omega), ?_⟩
    show i ∈ ((View.whole main_v36).slice (win0_5.rect t)).set
    rw [View.set_slice_whole, Rect.mem_set_unit]
    intro a
    match a with
    | ⟨0, _⟩ =>
      show win0_5.index t 0 * win0_5.size 0 ≤ (i 0 : ℕ) ∧ (i 0 : ℕ) < win0_5.index t 0 * win0_5.size 0 + win0_5.xsize (grid0.coords t) 0
      rw [i0, x0, show win0_5.size 0 = 1 from rfl, htv]; omega
    | ⟨1, _⟩ =>
      show win0_5.index t 1 * win0_5.size 1 ≤ (i 1 : ℕ) ∧ (i 1 : ℕ) < win0_5.index t 1 * win0_5.size 1 + win0_5.xsize (grid0.coords t) 1
      rw [i1, x1, show win0_5.size 1 = 512 from rfl, htv]; omega
    | ⟨2, _⟩ =>
      show win0_5.index t 2 * win0_5.size 2 ≤ (i 2 : ℕ) ∧ (i 2 : ℕ) < win0_5.index t 2 * win0_5.size 2 + win0_5.xsize (grid0.coords t) 2
      rw [i2, x2, show win0_5.size 2 = 1024 from rfl]; omega

end Cert.KernelIdeal.Whole

end
-- ==== Proof.KernelValue.Pieces.lean ====
/-
  What the body leaves behind in each control case, as the body's named pure functions (payloads) of the five input
  blocks of the point and of what the accumulator held before it.

  Every load and store of the body goes through the whole-buffer rectangle at zero offsets, so a load reads the buffer's
  contents and the last store into a buffer decides what it holds.  Writing v = (key rows) ⊙ sv for the value block
  (`k0_pay4`), a = the masked logistic weights of the query rows against the key rows (`k0_pay5`), and
  upd v a acc = acc + a · v (`k0_pay2`):
    * first key tile (ki = 0): the accumulator is cleared (`k0_pay1` = 0) and then updated: upd v a 0;
    * a later key tile with ki ≤ qi: the accumulator acc becomes upd v a acc;
    * on the diagonal (ki = qi) the output block is the accumulator just computed with a unit axis in front (`k0_pay3`).
-/
import proofs.«128873_j58334245814673_2_alg».proof.Proof.FrameI.Outs
import Idealize.ShloMosaic.Lib.Pipeline.Value

set_option maxRecDepth 16384

noncomputable section

namespace Cert.KernelIdeal.Value'

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after a list of stores whose LAST one wrote the whole buffer reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- A key tile strictly between the first and the diagonal one: the accumulator becomes the update of what it held by the
    tile's weights and values. -/
theorem sout_C_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : ¬cond3 i) (x0 : Vec F S1x512x1024 .f32) (x1 : Vec F S1x512x1024 .f32) (x2 : Vec F S1x1024 .f32) (x3 : Vec F S1x1024 .f32) (x4 : Vec F S1x1024 .f32) (xs : Vec F S512x1024 .f32) :
    sout_C c i arg3 harg3 arg4 harg4 arg5 harg5 arg6 harg6 arg7 harg7 arg8 harg8 arg9 harg9 hc1 hc2 hc3 x0 x1 x2 x3 x4 xs = Gen.k0_pay2 (Gen.k0_pay4 x1 x4) (Gen.k0_pay5 (BitVec.ofNat 32 (i 1).val) (BitVec.ofNat 32 (i 2).val) x0 x2 x1 x3) xs := by
  unfold sout_C
  rw [View.read_writes_eq_canon _ _ _ (scover_C c i arg3 harg3 arg4 harg4 arg5 harg5 arg6 harg6 arg7 harg7 arg8 harg8 arg9 harg9 hc1 hc2 hc3 x0 x1 x2 x3 x4 xs)]
  unfold kernelRun_C
  dsimp only
  rw [View.canon_unit_zero hz2]
  simp only [View.readAt_eq_ld, harg3.read_unread, harg4.read_unread, harg5.read_unread, harg6.read_unread, harg7.read_unread, harg9.read_unread,
    View.ld_unit_zero (S := S512x1024) hz2, View.ld_unit_zero (S := S1x1024) hz2, View.ld_unit_zero (S := S1x512x1024) hz3]

/-- The diagonal tile, not the first: the same update of the accumulator. -/
theorem sout_D_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i) (x0 : Vec F S1x512x1024 .f32) (x1 : Vec F S1x512x1024 .f32) (x2 : Vec F S1x1024 .f32) (x3 : Vec F S1x1024 .f32) (x4 : Vec F S1x1024 .f32) (xs : Vec F S512x1024 .f32) :
    sout_D c i arg3 harg3 arg4 harg4 arg5 harg5 arg6 harg6 arg7 harg7 arg8 harg8 arg9 harg9 hc1 hc2 hc3 x0 x1 x2 x3 x4 xs = Gen.k0_pay2 (Gen.k0_pay4 x1 x4) (Gen.k0_pay5 (BitVec.ofNat 32 (i 1).val) (BitVec.ofNat 32 (i 2).val) x0 x2 x1 x3) xs := by
  unfold sout_D
  rw [View.read_writes_eq_canon _ _ _ (scover_D c i arg3 harg3 arg4 harg4 arg5 harg5 arg6 harg6 arg7 harg7 arg8 harg8 arg9 harg9 hc1 hc2 hc3 x0 x1 x2 x3 x4 xs)]
  unfold kernelRun_D
  dsimp only
  sl_unfold_words
  rw [View.canon_unit_zero hz2]
  try dsimp only
  simp only [View.readAt_eq_ld, harg3.read_unread, harg4.read_unread, harg5.read_unread, harg6.read_unread, harg7.read_unread, harg9.read_unread,
    View.ld_unit_zero (S := S512x1024) hz2, View.ld_unit_zero (S := S1x1024) hz2, View.ld_unit_zero (S := S1x512x1024) hz3]

/-- The diagonal tile, not the first: the output block is the updated accumulator with a unit axis in front. -/
theorem out_D_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : ¬cond1 i) (hc2 : cond2 i) (hc3 : cond3 i) (x0 : Vec F S1x512x1024 .f32) (x1 : Vec F S1x512x1024 .f32) (x2 : Vec F S1x1024 .f32) (x3 : Vec F S1x1024 .f32) (x4 : Vec F S1x1024 .f32) (xs : Vec F S512x1024 .f32) :
    out_D c i arg3 harg3 arg4 harg4 arg5 harg5 arg6 harg6 arg7 harg7 arg8 harg8 arg9 harg9 hc1 hc2 hc3 x0 x1 x2 x3 x4 xs = Gen.k0_pay3 (Gen.k0_pay2 (Gen.k0_pay4 x1 x4) (Gen.k0_pay5 (BitVec.ofNat 32 (i 1).val) (BitVec.ofNat 32 (i 2).val) x0 x2 x1 x3) xs) := by
  unfold out_D
  rw [View.read_writes_eq_canon _ _ _ (cover_D c i arg3 harg3 arg4 harg4 arg5 harg5 arg6 harg6 arg7 harg7 arg8 harg8 arg9 harg9 hc1 hc2 hc3 x0 x1 x2 x3 x4 xs)]
  unfold kernelRun_D
  dsimp only
  sl_unfold_words
  rw [View.canon_unit_zero hz3, readCov_cons_unit_zero _ hz2]
  try dsimp only
  simp only [View.readAt_eq_ld, harg3.read_unread, harg4.read_unread, harg5.read_unread, harg6.read_unread, harg7.read_unread, harg9.read_unread,
    View.ld_unit_zero (S := S512x1024) hz2, View.ld_unit_zero (S := S1x1024) hz2, View.ld_unit_zero (S := S1x512x1024) hz3]

/-- The first tile, off the diagonal: the accumulator is cleared, then updated. -/
theorem sout_B_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : ¬cond3 i) (x0 : Vec F S1x512x1024 .f32) (x1 : Vec F S1x512x1024 .f32) (x2 : Vec F S1x1024 .f32) (x3 : Vec F S1x1024 .f32) (x4 : Vec F S1x1024 .f32) :
    sout_B c i arg3 harg3 arg4 harg4 arg5 harg5 arg6 harg6 arg7 harg7 arg8 harg8 arg9 harg9 hc1 hc2 hc3 x0 x1 x2 x3 x4 = Gen.k0_pay2 (Gen.k0_pay4 x1 x4) (Gen.k0_pay5 (BitVec.ofNat 32 (i 1).val) (BitVec.ofNat 32 (i 2).val) x0 x2 x1 x3) Gen.k0_pay1 := by
  unfold sout_B
  rw [View.read_writes_eq_canon _ _ _ (scover_B c i arg3 harg3 arg4 harg4 arg5 harg5 arg6 harg6 arg7 harg7 arg8 harg8 arg9 harg9 hc1 hc2 hc3 x0 x1 x2 x3 x4)]
  unfold kernelRun_B
  dsimp only
  sl_unfold_words
  rw [View.canon_cons_unit_zero hz2, readCov_cons_unit_zero _ hz2]
  try dsimp only
  simp only [View.readAt_eq_ld, harg3.read_unread, harg4.read_unread, harg5.read_unread, harg6.read_unread, harg7.read_unread,
    View.ld_unit_zero (S := S1x1024) hz2, View.ld_unit_zero (S := S1x512x1024) hz3]

/-- The first tile on the diagonal (query tile 0): the accumulator is cleared, then updated. -/
theorem sout_A_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i) (x0 : Vec F S1x512x1024 .f32) (x1 : Vec F S1x512x1024 .f32) (x2 : Vec F S1x1024 .f32) (x3 : Vec F S1x1024 .f32) (x4 : Vec F S1x1024 .f32) :
    sout_A c i arg3 harg3 arg4 harg4 arg5 harg5 arg6 harg6 arg7 harg7 arg8 harg8 arg9 harg9 hc1 hc2 hc3 x0 x1 x2 x3 x4 = Gen.k0_pay2 (Gen.k0_pay4 x1 x4) (Gen.k0_pay5 (BitVec.ofNat 32 (i 1).val) (BitVec.ofNat 32 (i 2).val) x0 x2 x1 x3) Gen.k0_pay1 := by
  unfold sout_A
  rw [View.read_writes_eq_canon _ _ _ (scover_A c i arg3 harg3 arg4 harg4 arg5 harg5 arg6 harg6 arg7 harg7 arg8 harg8 arg9 harg9 hc1 hc2 hc3 x0 x1 x2 x3 x4)]
  unfold kernelRun_A
  dsimp only
  sl_unfold_words
  rw [View.canon_cons_unit_zero hz2, readCov_cons_unit_zero _ hz2]
  try dsimp only
  simp only [View.readAt_eq_ld, harg3.read_unread, harg4.read_unread, harg5.read_unread, harg6.read_unread, harg7.read_unread,
    View.ld_unit_zero (S := S1x1024) hz2, View.ld_unit_zero (S := S1x512x1024) hz3]

/-- The first tile on the diagonal: the output block is that accumulator with a unit axis in front. -/
theorem out_A_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc1 : cond1 i) (hc2 : cond2 i) (hc3 : cond3 i) (x0 : Vec F S1x512x1024 .f32) (x1 : Vec F S1x512x1024 .f32) (x2 : Vec F S1x1024 .f32) (x3 : Vec F S1x1024 .f32) (x4 : Vec F S1x1024 .f32) :
    out_A c i arg3 harg3 arg4 harg4 arg5 harg5 arg6 harg6 arg7 harg7 arg8 harg8 arg9 harg9 hc1 hc2 hc3 x0 x1 x2 x3 x4 = Gen.k0_pay3 (Gen.k0_pay2 (Gen.k0_pay4 x1 x4) (Gen.k0_pay5 (BitVec.ofNat 32 (i 1).val) (BitVec.ofNat 32 (i 2).val) x0 x2 x1 x3) Gen.k0_pay1) := by
  unfold out_A
  rw [View.read_writes_eq_canon _ _ _ (cover_A c i arg3 harg3 arg4 harg4 arg5 harg5 arg6 harg6 arg7 harg7 arg8 harg8 arg9 harg9 hc1 hc2 hc3 x0 x1 x2 x3 x4)]
  unfold kernelRun_A
  dsimp only
  sl_unfold_words
  rw [View.canon_unit_zero hz3, readCov_cons_unit_zero _ hz2, readCov_cons_unit_zero _ hz2]
  try dsimp only
  simp only [View.readAt_eq_ld, harg3.read_unread, harg4.read_unread, harg5.read_unread, harg6.read_unread, harg7.read_unread,
    View.ld_unit_zero (S := S1x1024) hz2, View.ld_unit_zero (S := S1x512x1024) hz3]

end Cert.KernelIdeal.Value'

end
-- ==== Proof.KernelValue.Cases.lean ====
/-
  The output block and the accumulator after each grid point, control case by control case, in terms of ONE function of
  the point: `upd t acc`, the accumulator acc plus the point's weights times the point's values.

    ki = 0 = qi :  accumulator upd t 0,            output block = that accumulator (unit axis in front)
    ki = 0 < qi :  accumulator upd t 0,            output block carried from the point before
    0 < ki < qi :  accumulator upd t (acc before), output block carried
    0 < ki = qi :  accumulator upd t (acc before), output block = that accumulator
    ki > qi     :  nothing changes (the recursion's own equation).
-/
import proofs.«128873_j58334245814673_2_alg».proof.Proof.KernelValue.Pieces

set_option maxRecDepth 16384

noncomputable section

namespace Cert.KernelIdeal.Value'

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)

/-- The accumulator's update at point t: the accumulator plus the point's weights times the point's values, as the
    body's payloads of the point's five input blocks. -/
def upd (c : Dev nD) (t : Fin cfg0.N) (acc : Vec F S512x1024 .f32) : Vec F S512x1024 .f32 :=
  Gen.k0_pay2 (Gen.k0_pay4 (iblk m c 1 t) (iblk m c 4 t))
    (Gen.k0_pay5 (BitVec.ofNat 32 (grid0.coords t 1).val) (BitVec.ofNat 32 (grid0.coords t 2).val)
      (iblk m c 0 t) (iblk m c 2 t) (iblk m c 1 t) (iblk m c 3 t)) acc

/-- ki = 0 = qi: the accumulator restarts from the zero block; the output block is the new accumulator. -/
theorem outsAt_first_diag (c : Dev nD) (t : Fin cfg0.N) (h1 : t.val % 8 = 0) (h3 : t.val % 8 = t.val / 8 % 8) :
    outsAt m c t.val t.isLt = (Gen.k0_pay3 (upd m c t Gen.k0_pay1), upd m c t Gen.k0_pay1) := by
  rw [outsAt_A m c t h1 h3]
  exact congrArg₂ Prod.mk
    (out_A_eq c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (le_of_eq h3)) ((hcond3 t).mpr h3) (iblk m c 0 t) (iblk m c 1 t) (iblk m c 2 t) (iblk m c 3 t) (iblk m c 4 t))
    (sout_A_eq c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (le_of_eq h3)) ((hcond3 t).mpr h3) (iblk m c 0 t) (iblk m c 1 t) (iblk m c 2 t) (iblk m c 3 t) (iblk m c 4 t))

/-- ki = 0 < qi: the accumulator restarts from the zero block; the output block is carried. -/
theorem outsAt_first (c : Dev nD) (t : Fin cfg0.N) (h1 : t.val % 8 = 0) (h3 : ¬t.val % 8 = t.val / 8 % 8) :
    outsAt m c t.val t.isLt = ((outsAt m c (t.val - 1) (Nat.lt_of_le_of_lt (Nat.sub_le _ _) t.isLt)).1, upd m c t Gen.k0_pay1) := by
  rw [outsAt_B m c t h1 h3]
  exact congrArg (Prod.mk _)
    (sout_B_eq c (grid0.coords t) (ms0 t) (hs0 t) (ms1 t) (hs1 t) (ms2 t) (hs2 t) (ms3 t) (hs3 t) (ms4 t) (hs4 t) (ms5 t) (hs5 t) scM (Memref.isWhole_whole _) ((hcond1 t).mpr h1) ((hcond2 t).mpr (h1 ▸ Nat.zero_le _)) (fun h => h3 ((hcond3 t).mp h)) (iblk m c 0 t) (iblk m c 1 t) (iblk m c 2 t) (iblk m c 3 t) (iblk m c 4 t))

/-- 0 < ki < qi: the accumulator is updated; the output block is carried. -/
theorem outsAt_before_diag (c : Dev nD) (t : Fin cfg0.N) (h1 : ¬t.val % 8 = 0) (h2 : t.val % 8 ≤ t.val / 8 % 8) (h3 : ¬t.val % 8 = t.val / 8 % 8) :
    outsAt m c t.val t.isLt = ((outsAt m c (t.val - 1) (Nat.lt_of_le_of_lt (Nat.sub_le _ _) t.isLt)).1, upd m c t (outsAt m c (t.val - 1) (Nat.lt_of_le_of_lt (Nat.sub_le _ _) t.isLt)).2) := by
  rw [outsAt_C m c t h1 h2 h3]
  exact congrArg (Prod.mk _)
    (sout_C_eq c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) (fun h => h3 ((hcond3 t).mp h)) (iblk m c 0 t) (iblk m c 1 t) (iblk m c 2 t) (iblk m c 3 t) (iblk m c 4 t) (outsAt m c (t.val - 1) (Nat.lt_of_le_of_lt (Nat.sub_le _ _) t.isLt)).2)

/-- 0 < ki = qi: the accumulator is updated; the output block is the new accumulator. -/
theorem outsAt_diag (c : Dev nD) (t : Fin cfg0.N) (h1 : ¬t.val % 8 = 0) (h2 : t.val % 8 ≤ t.val / 8 % 8) (h3 : t.val % 8 = t.val / 8 % 8) :
    outsAt m c t.val t.isLt = (Gen.k0_pay3 (upd m c t (outsAt m c (t.val - 1) (Nat.lt_of_le_of_lt (Nat.sub_le _ _) t.isLt)).2), upd m c t (outsAt m c (t.val - 1) (Nat.lt_of_le_of_lt (Nat.sub_le _ _) t.isLt)).2) := by
  rw [outsAt_D m c t h1 h2 h3]
  exact congrArg₂ Prod.mk
    (out_D_eq c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) ((hcond3 t).mpr h3) (iblk m c 0 t) (iblk m c 1 t) (iblk m c 2 t) (iblk m c 3 t) (iblk m c 4 t) (outsAt m c (t.val - 1) (Nat.lt_of_le_of_lt (Nat.sub_le _ _) t.isLt)).2)
    (sout_D_eq c (grid0.coords t) (ms0 t) (hs0 t) (ms1 t) (hs1 t) (ms2 t) (hs2 t) (ms3 t) (hs3 t) (ms4 t) (hs4 t) (ms5 t) (hs5 t) scM (Memref.isWhole_whole _) (fun h => h1 ((hcond1 t).mp h)) ((hcond2 t).mpr h2) ((hcond3 t).mpr h3) (iblk m c 0 t) (iblk m c 1 t) (iblk m c 2 t) (iblk m c 3 t) (iblk m c 4 t) (outsAt m c (t.val - 1) (Nat.lt_of_le_of_lt (Nat.sub_le _ _) t.isLt)).2)

end Cert.KernelIdeal.Value'

end
-- ==== Proof.KernelValue.Blocks.lean ====
/-
  The grid point's coordinates and the five input blocks at a point, entry by entry.

  Point t of the 4 × 8 × 8 grid is (batch, query tile, key tile) = (t / 64, t / 8 % 8, t % 8).  The first window of x
  is on block (b, qi): its entry (0, r, e) is x[b, qi·512 + r, e].  The second window of x is on block (b, min(ki, qi)):
  its entry (0, c, e) is x[b, min(ki, qi)·512 + c, e].  The three binding rows are whole arrays of one block each.
  The block indices are decided once over the 256 points; a block's coordinate in its array is always
  (block index) × (block size) + (coordinate inside the block).
-/
import proofs.«128873_j58334245814673_2_alg».proof.Proof.FrameI.Outs
import proofs.«128873_j58334245814673_2_alg».proof.Proof.KernelMath.BlockSum
import Idealize.ShloMosaic.Lib.Pipeline.Value

set_option maxRecDepth 16384

noncomputable section

namespace Cert.KernelIdeal.Value'

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand

open Idealize.ShloMosaic.ValueIdx Cert.KernelIdeal.Math

variable {F : FTy → Type} [FloatOps F]
variable (m : (ℓ : Loc nD τ sig) → Buf (Elt F) ℓ)

/-! ## The point's coordinates -/

/-- The grid's coordinates of point t: batch t / 64, query tile t / 8 % 8, key tile t % 8. -/
theorem coords_facts : ∀ t : Fin cfg0.N, (grid0.coords t 0).val = t.val / 64 ∧ (grid0.coords t 1).val = t.val / 8 % 8 ∧ (grid0.coords t 2).val = t.val % 8 :=
  (by decide +kernel : ∀ t : Fin grid0.N, (grid0.coords t 0).val = t.val / 64 ∧ (grid0.coords t 1).val = t.val / 8 % 8 ∧ (grid0.coords t 2).val = t.val % 8)

/-- The batch of point t. -/
abbrev bOf (t : Fin cfg0.N) : Fin 4 := ⟨t.val / 64, by have h := t.isLt; have hN : cfg0.N = 256 := N_0; omega⟩
/-- The query tile of point t. -/
abbrev qOf (t : Fin cfg0.N) : Fin 8 := ⟨t.val / 8 % 8, Nat.mod_lt _ (by decide)⟩
/-- The key tile of point t. -/
abbrev kOf (t : Fin cfg0.N) : Fin 8 := ⟨t.val % 8, Nat.mod_lt _ (by decide)⟩
/-- The key tile the second window of x is on at point t: the key tile, held at the query tile once past it. -/
abbrev kmOf (t : Fin cfg0.N) : Fin 8 := ⟨min (t.val % 8) (t.val / 8 % 8), lt_of_le_of_lt (min_le_left _ _) (Nat.mod_lt _ (by decide))⟩

/-! ## The windows' block indices, decided over the grid -/

theorem idx0 : ∀ t : Fin cfg0.N, win0_0.index t 0 = t.val / 64 ∧ win0_0.index t 1 = t.val / 8 % 8 ∧ win0_0.index t 2 = 0 :=
  (by decide +kernel : ∀ t : Fin grid0.N, win0_0.index t 0 = t.val / 64 ∧ win0_0.index t 1 = t.val / 8 % 8 ∧ win0_0.index t 2 = 0)
theorem idx1 : ∀ t : Fin cfg0.N, win0_1.index t 0 = t.val / 64 ∧ win0_1.index t 1 = min (t.val % 8) (t.val / 8 % 8) ∧ win0_1.index t 2 = 0 :=
  (by decide +kernel : ∀ t : Fin grid0.N, win0_1.index t 0 = t.val / 64 ∧ win0_1.index t 1 = min (t.val % 8) (t.val / 8 % 8) ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val / 64 ∧ win0_5.index t 1 = t.val / 8 % 8 ∧ win0_5.index t 2 = 0 :=
  (by decide +kernel : ∀ t : Fin grid0.N, win0_5.index t 0 = t.val / 64 ∧ win0_5.index t 1 = t.val / 8 % 8 ∧ win0_5.index t 2 = 0)

/-! ## The input blocks at a point, entry by entry

A block's coordinate in its array is (block index) × (block size) + (coordinate inside the block). -/

/-- The query block: rows qi·512 + r of batch b of x. -/
theorem iblk0_apply (c : Dev nD) (t : Fin cfg0.N) (r : Fin 512) (e : Fin 1024) :
    (iblk m c 0 t : Vec F S1x512x1024 .f32) (ix3 (0 : Fin 1) r e)
      = (V m c main_arg0 : S4x4096x1024.Idx → Elt F .f32) (ix3 (bOf t) (pos (qOf t) r) e) := by
  have hi := idx0 t
  unfold iblk
  rw [View.read_apply]
  show V m c main_arg0 _ = V m c main_arg0 _
  congr 1
  funext a
  apply Fin.ext
  match a with
  | ⟨0, _⟩ => show win0_0.index t 0 * 1 + 1 * (0 : ℕ) = t.val / 64; rw [hi.1]; omega
  | ⟨1, _⟩ => show win0_0.index t 1 * 512 + 1 * r.val = (t.val / 8 % 8) * 512 + r.val; rw [hi.2.1]; omega
  | ⟨2, _⟩ => show win0_0.index t 2 * 1024 + 1 * e.val = e.val; rw [hi.2.2]; omega

/-- The key block: rows min(ki, qi)·512 + c of batch b of x. -/
theorem iblk1_apply (c : Dev nD) (t : Fin cfg0.N) (r : Fin 512) (e : Fin 1024) :
    (iblk m c 1 t : Vec F S1x512x1024 .f32) (ix3 (0 : Fin 1) r e)
      = (V m c main_arg0 : S4x4096x1024.Idx → Elt F .f32) (ix3 (bOf t) (pos (kmOf t) r) e) := by
  have hi := idx1 t
  unfold iblk
  rw [View.read_apply]
  show V m c main_arg0 _ = V m c main_arg0 _
  congr 1
  funext a
  apply Fin.ext
  match a with
  | ⟨0, _⟩ => show win0_1.index t 0 * 1 + 1 * (0 : ℕ) = t.val / 64; rw [hi.1]; omega
  | ⟨1, _⟩ => show win0_1.index t 1 * 512 + 1 * r.val = (min (t.val % 8) (t.val / 8 % 8)) * 512 + r.val; rw [hi.2.1]; omega
  | ⟨2, _⟩ => show win0_1.index t 2 * 1024 + 1 * e.val = e.val; rw [hi.2.2]; omega

/-- The query binding's block is its whole array. -/
theorem iblk2_apply (c : Dev nD) (t : Fin cfg0.N) (e : Fin 1024) :
    (iblk m c 2 t : Vec F S1x1024 .f32) (ix2 (0 : Fin 1) e) = (V m c main_v9 : S1x1024.Idx → Elt F .f32) (ix2 (0 : Fin 1) e) := by
  have hi := idx2 t
  unfold iblk
  rw [View.read_apply]
  show V m c main_v9 _ = V m c main_v9 _
  congr 1
  funext a
  apply Fin.ext
  match a with
  | ⟨0, _⟩ => show win0_2.index t 0 * 1 + 1 * (0 : ℕ) = 0; rw [hi.1]
  | ⟨1, _⟩ => show win0_2.index t 1 * 1024 + 1 * e.val = e.val; rw [hi.2]; omega

/-- The key binding's block is its whole array. -/
theorem iblk3_apply (c : Dev nD) (t : Fin cfg0.N) (e : Fin 1024) :
    (iblk m c 3 t : Vec F S1x1024 .f32) (ix2 (0 : Fin 1) e) = (V m c main_v19 : S1x1024.Idx → Elt F .f32) (ix2 (0 : Fin 1) e) := by
  have hi := idx3 t
  unfold iblk
  rw [View.read_apply]
  show V m c main_v19 _ = V m c main_v19 _
  congr 1
  funext a
  apply Fin.ext
  match a with
  | ⟨0, _⟩ => show win0_3.index t 0 * 1 + 1 * (0 : ℕ) = 0; rw [hi.1]
  | ⟨1, _⟩ => show win0_3.index t 1 * 1024 + 1 * e.val = e.val; rw [hi.2]; omega

/-- The value binding's block is its whole array. -/
theorem iblk4_apply (c : Dev nD) (t : Fin cfg0.N) (e : Fin 1024) :
    (iblk m c 4 t : Vec F S1x1024 .f32) (ix2 (0 : Fin 1) e) = (V m c main_v29 : S1x1024.Idx → Elt F .f32) (ix2 (0 : Fin 1) e) := by
  have hi := idx4 t
  unfold iblk
  rw [View.read_apply]
  show V m c main_v29 _ = V m c main_v29 _
  congr 1
  funext a
  apply Fin.ext
  match a with
  | ⟨0, _⟩ => show win0_4.index t 0 * 1 + 1 * (0 : ℕ) = 0; rw [hi.1]
  | ⟨1, _⟩ => show win0_4.index t 1 * 1024 + 1 * e.val = e.val; rw [hi.2]; omega

end Cert.KernelIdeal.Value'

end
-- ==== Proof.KernelMath.Payloads.lean ====
/-
  The simple values of the attention step read at an entry, at the extended reals.

  The zero block is 0 everywhere; the output block is the accumulator with a unit axis put in front; the value
  block is the key rows times the value binding, entry by entry; and the accumulator's update adds, at (r, d), the
  sum over the 512 keys c of weight(r, c) · value(c, d).
-/
import proofs.«128873_j58334245814673_2_alg».proof.Proof.Gen.KernelIdeal.Skeleton
import Idealize.ShloMosaic.Lib.ValueLayout
import Idealize.ShloMosaic.Lib.KernelVsHost
import Idealize.ShloMosaic.Lib.StackMember

noncomputable section

open scoped BigOperators

namespace Cert.KernelIdeal.Math

open Idealize.ShloMosaic Idealize.ShloMosaic.ValueIdx Cert.KernelIdeal Cert.KernelIdeal.Gen

/-- A product of an m×k by a k×n matrix into a zero accumulator, read at (a, b): the sum over the contracted
    coordinate of the products of the entries. -/
theorem matmul_zero_plain_apply {m k n : Nat} {φ₁ φ₂ : FTy}
    (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    matmul D prec A B (constant (F := Ideal) ⟨2, ![m, n]⟩ .f32 0x00000000#32) (ix2 a b)
      = ∑ c : Fin k, A (ix2 a c) * B (ix2 c b) := by
  subst hD
  rw [matmul_zero_eq_dotGeneral]
  exact StackMember.dotGeneral_plain_apply prec A B a b

/-- A row of bindings [1, n] under a cast to its own shape, laid down m rows, keeps the column coordinate. -/
theorem row_cast_broadcast_apply {α : Type} {m n : Nat} (x : (⟨2, ![1, n]⟩ : Shape).Idx → α)
    (hc : (⟨2, ![1, n]⟩ : Shape).ShapeCasts ⟨2, ![1, n]⟩) (h : (⟨2, ![1, n]⟩ : Shape).Broadcasts ⟨2, ![m, n]⟩)
    (p : Fin m) (j : Fin n) :
    broadcastTo ⟨2, ![m, n]⟩ (shapeCast ⟨2, ![1, n]⟩ x hc) h (ix2 p j) = x (ix2 (0 : Fin 1) j) := by
  rw [shapeCast_self]
  exact broadcastTo_1b_ab_apply x h p j

/-- The zero block is 0 at every entry. -/
theorem pay1_apply (j : S512x1024.Idx) : Gen.k0_pay1 (F := Ideal) j = 0 := by
  unfold Gen.k0_pay1
  rw [shapeCast_self]
  exact Ideal.ofBits_zero_f32

/-- The output block is the accumulator: entry (u, r, d) of the block is entry (r, d) of the accumulator. -/
theorem pay3_apply (y : Vec Ideal S512x1024 .f32) (u : Fin 1) (r : Fin 512) (d : Fin 1024) :
    Gen.k0_pay3 y (ix3 u r d) = y (ix2 r d) := by
  unfold Gen.k0_pay3
  exact shapeCast_ab_1ab_apply y _ u r d

/-- The value block: key row c, feature d, times the value binding of feature d. -/
theorem pay4_apply (xk : Vec Ideal S1x512x1024 .f32) (sv : Vec Ideal S1x1024 .f32) (c : Fin 512) (d : Fin 1024) :
    Gen.k0_pay4 xk sv (ix2 c d) = xk (ix3 (0 : Fin 1) c d) * sv (ix2 (0 : Fin 1) d) := by
  unfold Gen.k0_pay4
  rw [truncf_apply, mulf_apply, row_cast_broadcast_apply, shapeCast_1ab_ab_apply]

/-- The accumulator's update at (r, d): the accumulator plus the sum over the keys of weight times value. -/
theorem pay2_apply (v : FVec Ideal S512x1024 .bf16) (a : FVec Ideal S512x512 .f32) (acc : Vec Ideal S512x1024 .f32)
    (r : Fin 512) (d : Fin 1024) :
    Gen.k0_pay2 v a acc (ix2 r d) = acc (ix2 r d) + ∑ c : Fin 512, a (ix2 r c) * v (ix2 c d) := by
  unfold Gen.k0_pay2
  rw [shapeCast_self, addf_apply]
  exact congrArg (acc (ix2 r d) + ·)
    (matmul_zero_plain_apply dot_S512x512_S512x1024_S512x1024_1_0_0_1_n_n rfl none (truncf .bf16 a bitsLt_bf16_f32) v r d)

end Cert.KernelIdeal.Math

end
-- ==== Proof.KernelMath.MaskWord.lean ====
/-
  The causal mask's comparison on 32-bit words.

  The global row number of entry r of query block qi is the word qi·512 + r, the global column number of entry c
  of key block ki the word ki·512 + c; both are below 4096, far below 2³¹, so neither the multiplication nor the
  addition wraps, both words are non-negative as signed numbers, and the signed comparison "row ≥ column" is the
  comparison of the natural numbers.
-/
import Idealize.ShloMosaic.PureOps.Vector

namespace Cert.KernelIdeal.Math

open Idealize.ShloMosaic

/-- The word q·512 + (0·512 + r), computed with wrapping operations, is the number q·512 + r. -/
theorem blockWord (q : Fin 8) (r : Fin 512) :
    IntOp.addi (Scalar.muli (BitVec.ofNat 32 q.val) 512#32) (BitVec.ofNat 32 (0 * 512 + r.val))
      = BitVec.ofNat 32 (q.val * 512 + r.val) := by
  have hq := q.isLt
  have hr := r.isLt
  apply BitVec.eq_of_toNat_eq
  show ((BitVec.ofNat 32 q.val) * 512#32 + BitVec.ofNat 32 (0 * 512 + r.val)).toNat = _
  simp only [BitVec.toNat_add, BitVec.toNat_mul, BitVec.toNat_ofNat]
  omega

/-- Signed "a ≥ b" on the words of two naturals below 2³¹ is "b ≤ a". -/
theorem sge_ofNat (a b : ℕ) (ha : a < 2 ^ 31) (hb : b < 2 ^ 31) :
    IntOp.cmpi .sge (BitVec.ofNat 32 a) (BitVec.ofNat 32 b) = if b ≤ a then 1#1 else 0#1 := by
  have h : (BitVec.ofNat 32 b).sle (BitVec.ofNat 32 a) = decide (b ≤ a) := by
    simp only [BitVec.sle, BitVec.toInt_eq_toNat_cond, BitVec.toNat_ofNat]
    have e1 : a % 2 ^ 32 = a := Nat.mod_eq_of_lt (by omega)
    have e2 : b % 2 ^ 32 = b := Nat.mod_eq_of_lt (by omega)
    rw [e1, e2, if_pos (by omega), if_pos (by omega)]
    simp
  show BitVec.ofBool ((BitVec.ofNat 32 b).sle (BitVec.ofNat 32 a)) = _
  rw [h]
  by_cases hle : b ≤ a
  · rw [if_pos hle, decide_eq_true hle]; rfl
  · rw [if_neg hle, decide_eq_false hle]; rfl

/-- The mask bit of entry (r, c) of the block pair (qi, ki): 1 exactly where the key position is not after the
    query position. -/
theorem maskWord (qi ki : Fin 8) (r c : Fin 512) :
    IntOp.cmpi .sge
        (IntOp.addi (Scalar.muli (BitVec.ofNat 32 qi.val) 512#32) (BitVec.ofNat 32 (0 * 512 + r.val)))
        (IntOp.addi (Scalar.muli (BitVec.ofNat 32 ki.val) 512#32) (BitVec.ofNat 32 (0 * 512 + c.val)))
      = if ki.val * 512 + c.val ≤ qi.val * 512 + r.val then 1#1 else 0#1 := by
  have hq := qi.isLt
  have hk := ki.isLt
  have hr := r.isLt
  have hc := c.isLt
  rw [blockWord, blockWord]
  exact sge_ofNat _ _ (by omega) (by omega)

/-- A select on the mask bit is the `if` on the positions. -/
theorem select_maskWord {α : Type} (qi ki : Fin 8) (r c : Fin 512) (A B : α) :
    Scalar.select
        (IntOp.cmpi .sge
          (IntOp.addi (Scalar.muli (BitVec.ofNat 32 qi.val) 512#32) (BitVec.ofNat 32 (0 * 512 + r.val)))
          (IntOp.addi (Scalar.muli (BitVec.ofNat 32 ki.val) 512#32) (BitVec.ofNat 32 (0 * 512 + c.val)))) A B
      = if ki.val * 512 + c.val ≤ qi.val * 512 + r.val then A else B := by
  rw [maskWord]
  by_cases h : ki.val * 512 + c.val ≤ qi.val * 512 + r.val
  · rw [if_pos h, if_pos h]; exact if_pos rfl
  · rw [if_neg h, if_neg h]; exact if_neg (by decide)

end Cert.KernelIdeal.Math
-- ==== Proof.KernelMath.Pay5.lean ====
/-
  The attention weights of one block pair read at an entry, at the extended reals.

  Entry (r, c) of the weight block for query block qi and key block ki: the query row r and the key row c, each
  scaled feature by feature by its binding, are multiplied and summed over the 1024 features; the sum is scaled by
  the two constants (1/32, then 4) and passed through the logistic function; and the result is kept where the key
  position ki·512 + c is not after the query position qi·512 + r, and replaced by 0 elsewhere.
-/
import proofs.«128873_j58334245814673_2_alg».proof.Proof.KernelMath.Payloads
import proofs.«128873_j58334245814673_2_alg».proof.Proof.KernelMath.MaskWord

noncomputable section

open scoped BigOperators

namespace Cert.KernelIdeal.Math

open Idealize.ShloMosaic Idealize.ShloMosaic.ValueIdx Cert.KernelIdeal Cert.KernelIdeal.Gen

/-- The mask at entry (r, c) is the comparison of the two position words. -/
theorem mask_apply (a1 a2 : BitVec 32) (r c : Fin 512) :
    cmpi .sge
        (addi (broadcast S512x512 (Scalar.muli a1 512#32)) (iota .tc S512x512 32 [0] iota_S512x512_d0_w32))
        (addi (broadcast S512x512 (Scalar.muli a2 512#32)) (iota .tc S512x512 32 [1] iota_S512x512_d1_w32))
        (ix2 r c)
      = IntOp.cmpi .sge
          (IntOp.addi (Scalar.muli a1 512#32) (BitVec.ofNat 32 (0 * 512 + r.val)))
          (IntOp.addi (Scalar.muli a2 512#32) (BitVec.ofNat 32 (0 * 512 + c.val))) := rfl

/-- A block of rows [1, 512, 1024] scaled by a binding row [1, 1024], at row p and feature e. -/
theorem scaled_block_apply (xb : Vec Ideal S1x512x1024 .f32) (w : Vec Ideal S1x1024 .f32) (p : Fin 512) (e : Fin 1024) :
    (truncf .bf16
        (mulf (shapeCast S512x1024 xb shapeCasts_S1x512x1024_S512x1024)
          (broadcastTo S512x1024 (shapeCast S1x1024 w shapeCasts_S1x1024_S1x1024) broadcasts_S1x1024_S512x1024))
        bitsLt_bf16_f32 : FVec Ideal S512x1024 .bf16) (ix2 p e)
      = xb (ix3 (0 : Fin 1) p e) * w (ix2 (0 : Fin 1) e) := by
  rw [truncf_apply, mulf_apply, row_cast_broadcast_apply, shapeCast_1ab_ab_apply]

/-- The weight block at entry (r, c): the logistic function of the scaled score where the key position is not
    after the query position, 0 elsewhere. -/
theorem pay5_apply (qi ki : Fin 8) (xq xk : Vec Ideal S1x512x1024 .f32) (sq sk : Vec Ideal S1x1024 .f32)
    (r c : Fin 512) :
    Gen.k0_pay5 (BitVec.ofNat 32 qi.val) (BitVec.ofNat 32 ki.val) xq sq xk sk (ix2 r c)
      = if ki.val * 512 + c.val ≤ qi.val * 512 + r.val then
          Ideal.logistic (((∑ e : Fin 1024, (xq (ix3 (0 : Fin 1) r e) * sq (ix2 (0 : Fin 1) e))
              * (xk (ix3 (0 : Fin 1) c e) * sk (ix2 (0 : Fin 1) e)))
            * Ideal.ofBits .f32 0x3D000000#32) * Ideal.ofBits .f32 0x40800000#32)
        else 0 := by
  unfold Gen.k0_pay5
  rw [select_apply, mask_apply, select_maskWord]
  by_cases hP : ki.val * 512 + c.val ≤ qi.val * 512 + r.val
  · rw [if_pos hP, if_pos hP]
    show Ideal.logistic _ = Ideal.logistic _
    congr 1
    rw [mulf_apply, mulf_apply, broadcast_apply, broadcast_apply,
      matmul_zero_plain_apply dot_S512x1024_S1024x512_S512x512_1_0_0_1_n_n rfl]
    show (∑ e : Fin 1024, _) * Ideal.ofBits .f32 0x3D000000#32 * Ideal.ofBits .f32 0x40800000#32 = _
    congr 2
    refine Finset.sum_congr rfl fun e _ => ?_
    rw [scaled_block_apply, transpose_ix2_apply, scaled_block_apply]
  · rw [if_neg hP, if_neg hP]
    exact Ideal.ofBits_zero_f32

end Cert.KernelIdeal.Math

end
-- ==== Proof.KernelMath.Step.lean ====
/-
  One step of the accumulation against the specification's block term.

  When the loaded blocks are the rows qi·512 + p and ki·512 + p of batch b of the input, and the loaded binding rows
  are the binding vectors, the accumulator's update at (r, d) adds exactly the contribution of key block ki to the
  output entry (b, qi·512 + r, d).
-/
import proofs.«128873_j58334245814673_2_alg».proof.Proof.KernelMath.Pay5
import proofs.«128873_j58334245814673_2_alg».proof.Proof.KernelMath.BlockSum

noncomputable section

open scoped BigOperators

namespace Cert.KernelIdeal.Math

open Idealize.ShloMosaic Idealize.ShloMosaic.ValueIdx Cert.KernelIdeal Cert.KernelIdeal.Gen Cert.Spec

/-- The weights times the values, summed over the block's keys, is the block's contribution. -/
theorem weights_values_eq_blockTerm (x : SX.Idx → EReal) (sq sk sv : SW.Idx → EReal) (b : Fin 4) (qi ki : Fin 8)
    (xq xk : Vec Ideal S1x512x1024 .f32) (sq2 sk2 sv2 : Vec Ideal S1x1024 .f32)
    (hxq : ∀ (p : Fin 512) (e : Fin 1024), xq (ix3 (0 : Fin 1) p e) = x (ix3 b (pos qi p) e))
    (hxk : ∀ (p : Fin 512) (e : Fin 1024), xk (ix3 (0 : Fin 1) p e) = x (ix3 b (pos ki p) e))
    (hsq : ∀ e : Fin 1024, sq2 (ix2 (0 : Fin 1) e) = sq (ix1 e))
    (hsk : ∀ e : Fin 1024, sk2 (ix2 (0 : Fin 1) e) = sk (ix1 e))
    (hsv : ∀ e : Fin 1024, sv2 (ix2 (0 : Fin 1) e) = sv (ix1 e))
    (r : Fin 512) (d : Fin 1024) :
    (∑ c : Fin 512, Gen.k0_pay5 (BitVec.ofNat 32 qi.val) (BitVec.ofNat 32 ki.val) xq sq2 xk sk2 (ix2 r c)
        * Gen.k0_pay4 xk sv2 (ix2 c d))
      = blockTerm x sq sk sv b qi ki r d := by
  unfold blockTerm
  refine Finset.sum_congr rfl fun c _ => ?_
  rw [pay5_apply, pay4_apply, hxk c d, hsv d]
  have hs : (∑ e : Fin 1024, (xq (ix3 (0 : Fin 1) r e) * sq2 (ix2 (0 : Fin 1) e))
        * (xk (ix3 (0 : Fin 1) c e) * sk2 (ix2 (0 : Fin 1) e)))
      = ∑ e : Fin 1024, (x (ix3 b (pos qi r) e) * sq (ix1 e)) * (x (ix3 b (pos ki c) e) * sk (ix1 e)) :=
    Finset.sum_congr rfl fun e _ => by rw [hxq r e, hxk c e, hsq e, hsk e]
  rw [hs]

/-- The accumulator's update adds the block's contribution. -/
theorem step_apply (x : SX.Idx → EReal) (sq sk sv : SW.Idx → EReal) (b : Fin 4) (qi ki : Fin 8)
    (xq xk : Vec Ideal S1x512x1024 .f32) (sq2 sk2 sv2 : Vec Ideal S1x1024 .f32)
    (hxq : ∀ (p : Fin 512) (e : Fin 1024), xq (ix3 (0 : Fin 1) p e) = x (ix3 b (pos qi p) e))
    (hxk : ∀ (p : Fin 512) (e : Fin 1024), xk (ix3 (0 : Fin 1) p e) = x (ix3 b (pos ki p) e))
    (hsq : ∀ e : Fin 1024, sq2 (ix2 (0 : Fin 1) e) = sq (ix1 e))
    (hsk : ∀ e : Fin 1024, sk2 (ix2 (0 : Fin 1) e) = sk (ix1 e))
    (hsv : ∀ e : Fin 1024, sv2 (ix2 (0 : Fin 1) e) = sv (ix1 e))
    (acc : Vec Ideal S512x1024 .f32) (r : Fin 512) (d : Fin 1024) :
    Gen.k0_pay2 (Gen.k0_pay4 xk sv2)
        (Gen.k0_pay5 (BitVec.ofNat 32 qi.val) (BitVec.ofNat 32 ki.val) xq sq2 xk sk2) acc (ix2 r d)
      = acc (ix2 r d) + blockTerm x sq sk sv b qi ki r d := by
  rw [pay2_apply, weights_values_eq_blockTerm x sq sk sv b qi ki xq xk sq2 sk2 sv2 hxq hxk hsq hsk hsv r d]

end Cert.KernelIdeal.Math

end
-- ==== Proof.HostSide.EntryRows.lean ====
import proofs.«128873_j58334245814673_2_alg».proof.Proof.FrameI.Entry
import proofs.«128873_j58334245814673_2_alg».proof.Proof.HostSide.Reads
import Idealize.ShloMosaic.Lib.StableHlo.Run

/-!
# The three row buffers when the attention region is entered

Per binding vector the program runs the nine host operations that form the hard sign vector and
a reshape of it to one row `[1, 1024]`.  Run from the launch contents `m`, the three row buffers
hold the hard sign vectors of the three binding vectors.
-/

set_option maxRecDepth 16384

noncomputable section

namespace Cert.KernelIdeal.HostSide

open Idealize.ShloMosaic Idealize.ShloMosaic.TcCoe Idealize.ShloMosaic.StableHlo Idealize.ShloMosaic.ValueIdx
open Idealize.SL.Sem
open Cert.KernelIdeal Cert.KernelIdeal.Gen Cert.KernelIdeal.Hand

variable (m : (ℓ : Loc nD τ sig) → Buf (Elt Ideal) ℓ) (c : Dev nD)

/-! ## The three rows: the hard sign vectors reshaped -/

theorem V_v9_cast :
    (V (F := Ideal) m c main_v9 : S1x1024.Idx → EReal)
      = shapeCast S1x1024 (hardK (m ((c : Thread nD τ).loc main_arg1))) shapeCasts_S1024_S1x1024 := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp
  rfl

theorem V_v19_cast :
    (V (F := Ideal) m c main_v19 : S1x1024.Idx → EReal)
      = shapeCast S1x1024 (hardK (m ((c : Thread nD τ).loc main_arg2))) shapeCasts_S1024_S1x1024 := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp
  rfl

theorem V_v29_cast :
    (V (F := Ideal) m c main_v29 : S1x1024.Idx → EReal)
      = shapeCast S1x1024 (hardK (m ((c : Thread nD τ).loc main_arg3))) shapeCasts_S1024_S1x1024 := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp
  rfl

/-- The first row buffer holds the hard sign vector of the first binding vector. -/
theorem V_v9 :
    (V (F := Ideal) m c main_v9 : S1x1024.Idx → EReal)
      = fun j => hardK (m ((c : Thread nD τ).loc main_arg1)) (ix1 (j 1)) :=
  (V_v9_cast m c).trans (reshape_row _)

/-- The second row buffer holds the hard sign vector of the second binding vector. -/
theorem V_v19 :
    (V (F := Ideal) m c main_v19 : S1x1024.Idx → EReal)
      = fun j => hardK (m ((c : Thread nD τ).loc main_arg2)) (ix1 (j 1)) :=
  (V_v19_cast m c).trans (reshape_row _)

/-- The third row buffer holds the hard sign vector of the third binding vector. -/
theorem V_v29 :
    (V (F := Ideal) m c main_v29 : S1x1024.Idx → EReal)
      = fun j => hardK (m ((c : Thread nD τ).loc main_arg3)) (ix1 (j 1)) :=
  (V_v29_cast m c).trans (reshape_row _)

end Cert.KernelIdeal.HostSide

end
-- ==== Proof.HostSide.EntryArgs.lean ====
import proofs.«128873_j58334245814673_2_alg».proof.Proof.FrameI.Entry
import Idealize.ShloMosaic.Lib.StableHlo.Run
import Idealize.ShloMosaic.Lib.ValueIdx
import Idealize.ShloMosaic.PureOps.Ideal

/-!
# The argument buffers when the attention region is entered

Before its one region the program runs 48 host operations; none of them writes an argument
buffer, so each of the four holds its launch contents.
-/

set_option maxRecDepth 16384

noncomputable section

namespace Cert.KernelIdeal.HostSide

open Idealize.ShloMosaic Idealize.ShloMosaic.TcCoe Idealize.ShloMosaic.StableHlo Idealize.ShloMosaic.ValueIdx
open Idealize.SL.Sem
open Cert.KernelIdeal Cert.KernelIdeal.Gen Cert.KernelIdeal.Hand

variable (m : (ℓ : Loc nD τ sig) → Buf (Elt Ideal) ℓ) (c : Dev nD)

/-! ## The arguments: no host operation writes one -/

theorem V_arg0 : V (F := Ideal) m c main_arg0 = m ((c : Thread nD τ).loc main_arg0) := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp

theorem V_arg1 : V (F := Ideal) m c main_arg1 = m ((c : Thread nD τ).loc main_arg1) := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp

theorem V_arg2 : V (F := Ideal) m c main_arg2 = m ((c : Thread nD τ).loc main_arg2) := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp

theorem V_arg3 : V (F := Ideal) m c main_arg3 = m ((c : Thread nD τ).loc main_arg3) := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results_simp

end Cert.KernelIdeal.HostSide

end
-- ==== Proof.KernelValue.Invariant.lean ====
/-
  The accumulation invariant of the attention region at the extended reals, by induction along the grid's order.

  With x the launched input, sq, sk, sv the hard sign vectors of the three binding vectors, and point t = (b, qi, ki):
  each point with ki ≤ qi adds to the accumulator, at (r, d), the contribution of key block ki to the output entry
  (b, qi·512 + r, d) (the weights are the masked logistic scores of query rows qi·512 + r against key rows ki·512 + c,
  the values the key rows scaled by sv); the first key tile starts from 0.  So up to the diagonal the accumulator is
  the partial sum over the key blocks 0 … ki, on the diagonal it is the whole output entry (later key blocks lie after
  every query row of the tile and weigh 0), the output block takes it there, and past the diagonal nothing changes.
-/
import proofs.«128873_j58334245814673_2_alg».proof.Proof.KernelValue.Cases
import proofs.«128873_j58334245814673_2_alg».proof.Proof.KernelValue.Blocks
import proofs.«128873_j58334245814673_2_alg».proof.Proof.KernelMath.Step
import proofs.«128873_j58334245814673_2_alg».proof.Proof.HostSide.EntryRows
import proofs.«128873_j58334245814673_2_alg».proof.Proof.HostSide.EntryArgs

set_option maxRecDepth 16384

noncomputable section

namespace Cert.KernelIdeal.Value'

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand

open Idealize.ShloMosaic.ValueIdx Cert.KernelIdeal.Math Cert.KernelIdeal.HostSide Cert.Spec

variable (m : (ℓ : Loc nD τ sig) → Buf (Elt Ideal) ℓ) (c : Dev nD)

/-- The input array x, as the program is launched with it. -/
abbrev xOf : SX.Idx → EReal := m ((c : Thread nD τ).loc main_arg0)
/-- The query binding: the hard sign vector of the first binding vector. -/
abbrev sqOf : SW.Idx → EReal := hardK (m ((c : Thread nD τ).loc main_arg1))
/-- The key binding: the hard sign vector of the second binding vector. -/
abbrev skOf : SW.Idx → EReal := hardK (m ((c : Thread nD τ).loc main_arg2))
/-- The value binding: the hard sign vector of the third binding vector. -/
abbrev svOf : SW.Idx → EReal := hardK (m ((c : Thread nD τ).loc main_arg3))

/-- At a point with ki ≤ qi the accumulator's update adds the contribution of key block ki to the entries of
    query block qi of batch b: there the second window of x is on block ki itself. -/
theorem upd_apply (t : Fin cfg0.N) (hle : t.val % 8 ≤ t.val / 8 % 8) (acc : Vec Ideal S512x1024 .f32) (r : Fin 512) (d : Fin 1024) :
    upd m c t acc (ix2 r d) = acc (ix2 r d) + blockTerm (xOf m c) (sqOf m c) (skOf m c) (svOf m c) (bOf t) (qOf t) (kOf t) r d := by
  obtain ⟨-, hc1, hc2⟩ := coords_facts t
  have hkm : kmOf t = kOf t := Fin.ext (show min (t.val % 8) (t.val / 8 % 8) = t.val % 8 from min_eq_left hle)
  have e1 : BitVec.ofNat 32 (grid0.coords t 1).val = BitVec.ofNat 32 (qOf t).val := congrArg (BitVec.ofNat 32) hc1
  have e2 : BitVec.ofNat 32 (grid0.coords t 2).val = BitVec.ofNat 32 (kOf t).val := congrArg (BitVec.ofNat 32) hc2
  unfold upd
  rw [e1, e2]
  exact step_apply (xOf m c) (sqOf m c) (skOf m c) (svOf m c) (bOf t) (qOf t) (kOf t)
    (iblk m c 0 t) (iblk m c 1 t) (iblk m c 2 t) (iblk m c 3 t) (iblk m c 4 t)
    (fun p e => (iblk0_apply m c t p e).trans (congrFun (V_arg0 m c) _))
    (fun p e => (iblk1_apply m c t p e).trans ((congrFun (V_arg0 m c) _).trans (by rw [hkm])))
    (fun e => (iblk2_apply m c t e).trans (congrFun (V_v9 m c) _))
    (fun e => (iblk3_apply m c t e).trans (congrFun (V_v19 m c) _))
    (fun e => (iblk4_apply m c t e).trans (congrFun (V_v29 m c) _))
    acc r d

/-- THE INVARIANT at point n = (b, qi, ki).  Up to the diagonal (ki ≤ qi) the accumulator holds, at (r, d), the sum of
    the contributions of the key blocks 0 … ki to the output entry (b, qi·512 + r, d); from the diagonal on (ki ≥ qi)
    the output block holds the specification's attention output at those entries. -/
def InvAt (n : ℕ) (hn : n < cfg0.N) : Prop :=
  (n % 8 ≤ n / 8 % 8 → ∀ (r : Fin 512) (d : Fin 1024),
      (outsAt m c n hn).2 (ix2 r d) = accUpTo (xOf m c) (sqOf m c) (skOf m c) (svOf m c) (bOf ⟨n, hn⟩) (qOf ⟨n, hn⟩) r d (n % 8))
  ∧ (n / 8 % 8 ≤ n % 8 → ∀ (r : Fin 512) (d : Fin 1024),
      (outsAt m c n hn).1 (ix3 (0 : Fin 1) r d) = outAt (xOf m c) (sqOf m c) (skOf m c) (svOf m c) (bOf ⟨n, hn⟩) (pos (qOf ⟨n, hn⟩) r) d)

/-- The invariant passes from a point to the next (the first key tile of a row needs nothing of the point before). -/
theorem inv_step (t : Fin cfg0.N)
    (hprev : ¬t.val % 8 = 0 → InvAt m c (t.val - 1) (Nat.lt_of_le_of_lt (Nat.sub_le _ _) t.isLt)) :
    InvAt m c t.val t.isLt := by
  have hN : cfg0.N = 256 := N_0
  have hlt := t.isLt
  -- on the diagonal the blocks 0 … qi are all the blocks that contribute: the accumulator is the output
  have diag : t.val % 8 = t.val / 8 % 8 → ∀ (A : Vec Ideal S512x1024 .f32),
      (∀ (r : Fin 512) (d : Fin 1024), A (ix2 r d) = accUpTo (xOf m c) (sqOf m c) (skOf m c) (svOf m c) (bOf t) (qOf t) r d (t.val % 8)) →
      ∀ (r : Fin 512) (d : Fin 1024), Gen.k0_pay3 A (ix3 (0 : Fin 1) r d) = outAt (xOf m c) (sqOf m c) (skOf m c) (svOf m c) (bOf t) (pos (qOf t) r) d := by
    intro h3 A hA r d
    rw [pay3_apply, hA, outAt_eq_accUpTo]
    exact congrArg _ h3
  by_cases h1 : t.val % 8 = 0
  · have hk0 : kOf t = 0 := Fin.ext h1
    have hacc : ∀ (r : Fin 512) (d : Fin 1024), upd m c t (Gen.k0_pay1 (F := Ideal)) (ix2 r d) = accUpTo (xOf m c) (sqOf m c) (skOf m c) (svOf m c) (bOf t) (qOf t) r d (t.val % 8) := by
      intro r d
      rw [upd_apply m c t (by omega) (Gen.k0_pay1 (F := Ideal)) r d, pay1_apply, h1, accUpTo_zero, hk0]
    by_cases h3 : t.val % 8 = t.val / 8 % 8
    · unfold InvAt; rw [outsAt_first_diag m c t h1 h3]
      exact ⟨fun _ => hacc, fun _ => diag h3 _ hacc⟩
    · unfold InvAt; rw [outsAt_first m c t h1 h3]
      exact ⟨fun _ => hacc, fun h => absurd h (by omega)⟩
  · obtain ⟨ih1, ih2⟩ := hprev h1
    have hp : t.val - 1 < cfg0.N := Nat.lt_of_le_of_lt (Nat.sub_le _ _) t.isLt
    have hb : bOf ⟨t.val - 1, hp⟩ = bOf t := Fin.ext (by show (t.val - 1) / 64 = t.val / 64; omega)
    have hq : qOf ⟨t.val - 1, hp⟩ = qOf t := Fin.ext (by show (t.val - 1) / 8 % 8 = t.val / 8 % 8; omega)
    by_cases h2 : t.val % 8 ≤ t.val / 8 % 8
    · have hacc : ∀ (r : Fin 512) (d : Fin 1024),
          upd m c t (outsAt m c (t.val - 1) hp).2 (ix2 r d) = accUpTo (xOf m c) (sqOf m c) (skOf m c) (svOf m c) (bOf t) (qOf t) r d (t.val % 8) := by
        intro r d
        have hi := ih1 (by omega) r d
        rw [hb, hq] at hi
        have hk : (t.val - 1) % 8 = (kOf t).val - 1 := by show _ = t.val % 8 - 1; omega
        rw [upd_apply m c t h2 _ r d, hi, hk]
        exact (accUpTo_step (xOf m c) (sqOf m c) (skOf m c) (svOf m c) (bOf t) (qOf t) r d (kOf t) (by show 0 < t.val % 8; omega)).symm
      by_cases h3 : t.val % 8 = t.val / 8 % 8
      · unfold InvAt; rw [outsAt_diag m c t h1 h2 h3]
        exact ⟨fun _ => hacc, fun _ => diag h3 _ hacc⟩
      · unfold InvAt; rw [outsAt_before_diag m c t h1 h2 h3]
        exact ⟨fun _ => hacc, fun h => absurd h (by omega)⟩
    · unfold InvAt; rw [outsAt_E m c t h1 h2]
      refine ⟨fun h => absurd h h2, fun _ r d => ?_⟩
      have hi := ih2 (by omega) r d
      rw [hb, hq] at hi
      exact hi

/-- The invariant holds at every point: by induction along the grid's order. -/
theorem inv_all : ∀ (n : ℕ) (hn : n < cfg0.N), InvAt m c n hn := by
  intro n
  induction n with
  | zero => intro hn; exact inv_step m c ⟨0, hn⟩ (fun h => absurd rfl h)
  | succ k ih => intro hn; exact inv_step m c ⟨k + 1, hn⟩ (fun _ => ih (Nat.lt_of_succ_lt hn))

/-- Up to the diagonal the accumulator holds the partial sum over the key blocks met so far. -/
theorem acc_up_to_diag (t : Fin cfg0.N) (h : t.val % 8 ≤ t.val / 8 % 8) (r : Fin 512) (d : Fin 1024) :
    (outsAt (F := Ideal) m c t.val t.isLt).2 (ix2 r d)
      = accUpTo (m ((c : Thread nD τ).loc main_arg0)) (hardK (m ((c : Thread nD τ).loc main_arg1)))
          (hardK (m ((c : Thread nD τ).loc main_arg2))) (hardK (m ((c : Thread nD τ).loc main_arg3)))
          (bOf t) (qOf t) r d (t.val % 8) :=
  (inv_all m c t.val t.isLt).1 h r d

/-- From the diagonal on, the output block holds the attention output of the rows qi·512 + r of batch b. -/
theorem out_at_or_past_diag (t : Fin cfg0.N) (h : t.val / 8 % 8 ≤ t.val % 8) (r : Fin 512) (d : Fin 1024) :
    (outsAt (F := Ideal) m c t.val t.isLt).1 (ix3 (0 : Fin 1) r d)
      = Cert.Spec.outAt (m ((c : Thread nD τ).loc main_arg0)) (hardK (m ((c : Thread nD τ).loc main_arg1)))
          (hardK (m ((c : Thread nD τ).loc main_arg2))) (hardK (m ((c : Thread nD τ).loc main_arg3)))
          (bOf t) (pos (qOf t) r) d :=
  (inv_all m c t.val t.isLt).2 h r d

end Cert.KernelIdeal.Value'

end
-- ==== Proof.KernelValue.Final.lean ====
/-
  The output array after the region is the specification's attention output: the accumulation invariant (from the
  diagonal on, the output window's buffer holds the specification's output on the block's rows) fed to the write-backs.
-/
import proofs.«128873_j58334245814673_2_alg».proof.Proof.KernelValue.Whole
import proofs.«128873_j58334245814673_2_alg».proof.Proof.KernelValue.Invariant

set_option maxRecDepth 16384

noncomputable section

namespace Cert.KernelIdeal.Value'

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.KernelIdeal.HostSide Cert.KernelIdeal.Math

variable (m : (ℓ : Loc nD τ sig) → Buf (Elt Ideal) ℓ) (c : Dev nD)

/-- The output array ends at the specification's attention output over the input and the three hard sign vectors. -/
theorem final5 : (dats (F := Ideal) m 0 c).arrAt 5 cfg0.N = Cert.KernelIdeal.Whole.G m c :=
  Cert.KernelIdeal.Whole.final5 m c (fun t b qi hb hqi hle r d => by
    obtain rfl : b = bOf t := Fin.ext hb
    obtain rfl : qi = qOf t := Fin.ext hqi
    exact out_at_or_past_diag m c t hle r d)

end Cert.KernelIdeal.Value'

end
-- ==== Proof.RefValue.Basic.lean ====
/-
  The reference's binding vectors and its two scaled copies of x, read index by index.

  For a binding vector w the reference forms hard(w) (the mean of |w| times the sign of w, zeros replaced by that mean)
  and then ste(w) = (hard(w) - w) + w, which it broadcasts along the feature axis and multiplies into x.  So the keys
  and values it returns are x with feature d scaled by ste(w)[d]; and where w is finite, (a - w) + w = a on the extended
  reals, so ste(w) = hard(w).
-/
import proofs.«128873_j58334245814673_2_alg».proof.Proof.Gen.ReferenceIdeal.Read
import proofs.«128873_j58334245814673_2_alg».proof.Proof.Spec

noncomputable section

namespace Cert.ReferenceIdeal.RefValue

open Cert.ReferenceIdeal Cert.ReferenceIdeal.Gen Idealize.ShloMosaic Idealize.ShloMosaic.ValueIdx

/-! ## The broadcast of a length-1024 vector along the feature axis -/

/-- The query vector's broadcast to [4, 4096, 1024] reads the vector at the feature coordinate. -/
theorem v12_at (x1 : (⟨S1024, .f32⟩ : BufTy).Contents (Elt Ideal)) (i : S4x4096x1024.Idx) :
    Read.val_main_v12 (F := Ideal) x1 i = Read.val_main_v10 (F := Ideal) x1 (ix1 (i 2)) := by
  rw [Read.val_main_v12_apply, Read.val_main_v11_apply]
  congr 1
  funext a; match a with | ⟨0, _⟩ => rfl

/-- The key vector's broadcast to [4, 4096, 1024] reads the vector at the feature coordinate. -/
theorem v26_at (x2 : (⟨S1024, .f32⟩ : BufTy).Contents (Elt Ideal)) (i : S4x4096x1024.Idx) :
    Read.val_main_v26 (F := Ideal) x2 i = Read.val_main_v24 (F := Ideal) x2 (ix1 (i 2)) := by
  rw [Read.val_main_v26_apply, Read.val_main_v25_apply]
  congr 1
  funext a; match a with | ⟨0, _⟩ => rfl

/-- The value vector's broadcast to [4, 4096, 1024] reads the vector at the feature coordinate. -/
theorem v40_at (x3 : (⟨S1024, .f32⟩ : BufTy).Contents (Elt Ideal)) (i : S4x4096x1024.Idx) :
    Read.val_main_v40 (F := Ideal) x3 i = Read.val_main_v38 (F := Ideal) x3 (ix1 (i 2)) := by
  rw [Read.val_main_v40_apply, Read.val_main_v39_apply]
  congr 1
  funext a; match a with | ⟨0, _⟩ => rfl

/-! ## The three scaled copies of x -/

/-- The queries: x with feature d scaled by the query vector's entry d. -/
theorem ref_q (x0 : (⟨S4x4096x1024, .f32⟩ : BufTy).Contents (Elt Ideal)) (x1 : (⟨S1024, .f32⟩ : BufTy).Contents (Elt Ideal)) :
    Read.val_main_v13 (F := Ideal) x0 x1 = Cert.Spec.scaled x0 (Read.val_main_v10 (F := Ideal) x1) := by
  funext i
  rw [Read.val_main_v13_apply, v12_at]
  rfl

/-- The returned keys: x with feature d scaled by the key vector's entry d. -/
theorem ref_k (x0 : (⟨S4x4096x1024, .f32⟩ : BufTy).Contents (Elt Ideal)) (x2 : (⟨S1024, .f32⟩ : BufTy).Contents (Elt Ideal)) :
    Read.val_main_v27 (F := Ideal) x0 x2 = Cert.Spec.scaled x0 (Read.val_main_v24 (F := Ideal) x2) := by
  funext i
  rw [Read.val_main_v27_apply, v26_at]
  rfl

/-- The returned values: x with feature d scaled by the value vector's entry d. -/
theorem ref_v (x0 : (⟨S4x4096x1024, .f32⟩ : BufTy).Contents (Elt Ideal)) (x3 : (⟨S1024, .f32⟩ : BufTy).Contents (Elt Ideal)) :
    Read.val_main_v41 (F := Ideal) x0 x3 = Cert.Spec.scaled x0 (Read.val_main_v38 (F := Ideal) x3) := by
  funext i
  rw [Read.val_main_v41_apply, v40_at]
  rfl

/-! ## Where the binding vector is finite, the straight-through form is the hard vector -/

/-- On the extended reals (a - w) + w = a for a real w, whatever a is. -/
theorem sub_add_self_of_finite (a w : EReal) (ht : w ≠ ⊤) (hb : w ≠ ⊥) : (a - w) + w = a := by
  lift w to ℝ using ⟨ht, hb⟩
  exact EReal.sub_add_cancel

/-- The query vector's straight-through form is its hard vector where the vector is finite. -/
theorem ste_eq_hard_q (x1 : (⟨S1024, .f32⟩ : BufTy).Contents (Elt Ideal)) (h : ∀ i, x1 i ≠ ⊤ ∧ x1 i ≠ ⊥) :
    Read.val_main_v10 (F := Ideal) x1 = Read.val_main_v8 (F := Ideal) x1 := by
  funext i
  rw [Read.val_main_v10_apply, Read.val_main_v9_apply]
  exact sub_add_self_of_finite _ _ (h i).1 (h i).2

/-- The key vector's straight-through form is its hard vector where the vector is finite. -/
theorem ste_eq_hard_k (x2 : (⟨S1024, .f32⟩ : BufTy).Contents (Elt Ideal)) (h : ∀ i, x2 i ≠ ⊤ ∧ x2 i ≠ ⊥) :
    Read.val_main_v24 (F := Ideal) x2 = Read.val_main_v22 (F := Ideal) x2 := by
  funext i
  rw [Read.val_main_v24_apply, Read.val_main_v23_apply]
  exact sub_add_self_of_finite _ _ (h i).1 (h i).2

/-- The value vector's straight-through form is its hard vector where the vector is finite. -/
theorem ste_eq_hard_v (x3 : (⟨S1024, .f32⟩ : BufTy).Contents (Elt Ideal)) (h : ∀ i, x3 i ≠ ⊤ ∧ x3 i ≠ ⊥) :
    Read.val_main_v38 (F := Ideal) x3 = Read.val_main_v36 (F := Ideal) x3 := by
  funext i
  rw [Read.val_main_v38_apply, Read.val_main_v37_apply]
  exact sub_add_self_of_finite _ _ (h i).1 (h i).2

end Cert.ReferenceIdeal.RefValue

end
-- ==== Proof.RefValue.Out.lean ====
/-
  The reference's attention output read index by index: it is the specification's causal sigmoid attention over the
  reference's own binding vectors.

  Entry (b, t, d) of the result is the contraction over the key position s of the weight a[b, t, s] with the value
  x[b, s, d]·sv[d].  The weight is a select on the causal mask — the comparison "row index ≥ column index" of two
  32-bit iotas, which for positions below 4096 is s ≤ t — between 1 / (1 + exp(-z)), the logistic function of
  z = ((Σ_e q[b,t,e]·k[b,s,e])·(1/32))·4, and zero.
-/
import proofs.«128873_j58334245814673_2_alg».proof.Proof.RefValue.Basic
import Idealize.ShloMosaic.Lib.WordArith

noncomputable section

namespace Cert.ReferenceIdeal.RefValue

open Cert.ReferenceIdeal Cert.ReferenceIdeal.Gen Idealize.ShloMosaic Idealize.ShloMosaic.ValueIdx

/-! ## The causal mask -/

/-- The mask at (b, t, s): the signed comparison of the words of t and s, both below 2^31, is the comparison of
    the positions. -/
theorem mask_at (b : Fin 4) (t s : Fin 4096) :
    Read.val_main_call3_v1 (F := Ideal) (ix3 b t s) = if s.val ≤ t.val then 1#1 else 0#1 := by
  rw [Read.val_main_call3_v1_apply, Read.val_main_v52_apply, Read.val_main_v51_apply,
    Read.val_main_v49_apply, Read.val_main_v46_apply, Read.val_main_v45_apply,
    Read.val_main_v50_apply, Read.val_main_v48_apply, Read.val_main_v47_apply]
  show BitVec.ofBool (decide ((BitVec.ofNat 32 s.val).toInt ≤ (BitVec.ofNat 32 t.val).toInt)) = _
  have hs := s.isLt
  have ht := t.isLt
  rw [WordArith.toInt_ofNat_small _ (by omega), WordArith.toInt_ofNat_small _ (by omega)]
  by_cases h : s.val ≤ t.val
  · rw [if_pos h, decide_eq_true (by exact_mod_cast h)]; rfl
  · rw [if_neg h, decide_eq_false (by exact_mod_cast h)]; rfl

/-! ## The logistic function, spelled by its expansion -/

/-- The word 0x3F800000 is the real number one. -/
theorem ofBits_one_f32 : Ideal.ofBits .f32 0x3F800000#32 = 1 := by
  simp [Ideal.ofBits, Ideal.ieee, -EReal.coe_mul]; norm_num

/-- 1 / (1 + exp(-z)) in the reference's operations is the logistic function of z. -/
theorem sig_at (x0 : (⟨S4x4096x1024, .f32⟩ : BufTy).Contents (Elt Ideal)) (x1 x2 : (⟨S1024, .f32⟩ : BufTy).Contents (Elt Ideal))
    (j : S4x4096x4096.Idx) :
    Read.val_main_v60 (F := Ideal) x0 x1 x2 j = Ideal.logistic (Read.val_main_v54 (F := Ideal) x0 x1 x2 j) := by
  rw [Read.val_main_v60_apply, Read.val_main_v59_apply, Read.val_main_cst_11_apply, Read.val_main_v58_apply,
    Read.val_main_v57_apply, Read.val_main_cst_10_apply, Read.val_main_v56_apply, Read.val_main_v55_apply,
    Ideal.ofBits_def, ofBits_one_f32]
  rfl

/-! ## The scaled score -/

/-- The scaled score at (b, t, s) is the specification's, over the reference's query and key vectors. -/
theorem score_at (x0 : (⟨S4x4096x1024, .f32⟩ : BufTy).Contents (Elt Ideal)) (x1 x2 : (⟨S1024, .f32⟩ : BufTy).Contents (Elt Ideal))
    (b : Fin 4) (t s : Fin 4096) :
    Read.val_main_v54 (F := Ideal) x0 x1 x2 (ix3 b t s)
      = Cert.Spec.score x0 (Read.val_main_v10 (F := Ideal) x1) (Read.val_main_v24 (F := Ideal) x2) b t s := by
  rw [Read.val_main_v54_apply, Read.val_main_v53_apply, Read.val_main_cst_9_apply, Read.val_main_v44_apply,
    Read.val_main_v43_apply, Read.val_main_cst_8_apply, Read.val_main_v42_apply]
  have hsum : (∑ e : Fin 1024, (Read.val_main_v13 (F := Ideal) x0 x1) (Read.lidx_main_v42 (ix3 b t s) e)
        * (Read.val_main_v27 (F := Ideal) x0 x2) (Read.ridx_main_v42 (ix3 b t s) e))
      = ∑ e : Fin 1024, (x0 (ix3 b t e) * Read.val_main_v10 (F := Ideal) x1 (ix1 e))
        * (x0 (ix3 b s e) * Read.val_main_v24 (F := Ideal) x2 (ix1 e)) := by
    refine Finset.sum_congr rfl fun e _ => ?_
    have hl : Read.lidx_main_v42 (ix3 b t s) e = ix3 b t e := by
      funext a; match a with | ⟨0, _⟩ => rfl | ⟨1, _⟩ => rfl | ⟨2, _⟩ => rfl
    have hr : Read.ridx_main_v42 (ix3 b t s) e = ix3 b s e := by
      funext a; match a with | ⟨0, _⟩ => rfl | ⟨1, _⟩ => rfl | ⟨2, _⟩ => rfl
    rw [hl, hr, ref_q, ref_k, Cert.Spec.scaled_apply, Cert.Spec.scaled_apply]
  rw [hsum]
  rfl

/-! ## The attention weight and the output -/

/-- The masked weight at (b, t, s) is the specification's attention weight. -/
theorem attn_at (x0 : (⟨S4x4096x1024, .f32⟩ : BufTy).Contents (Elt Ideal)) (x1 x2 : (⟨S1024, .f32⟩ : BufTy).Contents (Elt Ideal))
    (b : Fin 4) (t s : Fin 4096) :
    Read.val_main_v61 (F := Ideal) x0 x1 x2 (ix3 b t s)
      = Cert.Spec.attn x0 (Read.val_main_v10 (F := Ideal) x1) (Read.val_main_v24 (F := Ideal) x2) b t s := by
  rw [Read.val_main_v61_apply, mask_at, sig_at, score_at, Read.val_main_call3_v2_apply, Read.val_main_call3_v0_apply,
    Read.val_main_cst_12_apply]
  unfold Cert.Spec.attn
  by_cases h : s.val ≤ t.val
  · rw [if_pos h, if_pos h, select_one]
  · rw [if_neg h, if_neg h, select_zero, Ideal.ofBits_def, Ideal.ofBits_zero_f32]

/-- One entry of the reference's attention output is the specification's entry. -/
theorem out_at (x0 : (⟨S4x4096x1024, .f32⟩ : BufTy).Contents (Elt Ideal)) (x1 x2 x3 : (⟨S1024, .f32⟩ : BufTy).Contents (Elt Ideal))
    (b : Fin 4) (t : Fin 4096) (d : Fin 1024) :
    Read.val_main_v62 (F := Ideal) x0 x1 x2 x3 (ix3 b t d)
      = Cert.Spec.outAt x0 (Read.val_main_v10 (F := Ideal) x1) (Read.val_main_v24 (F := Ideal) x2)
          (Read.val_main_v38 (F := Ideal) x3) b t d := by
  rw [Read.val_main_v62_apply]
  unfold Cert.Spec.outAt
  refine Finset.sum_congr rfl fun k _ => ?_
  have hl : Read.lidx_main_v62 (ix3 b t d) k = ix3 b t k := by
    funext a; match a with | ⟨0, _⟩ => rfl | ⟨1, _⟩ => rfl | ⟨2, _⟩ => rfl
  have hr : Read.ridx_main_v62 (ix3 b t d) k = ix3 b k d := by
    funext a; match a with | ⟨0, _⟩ => rfl | ⟨1, _⟩ => rfl | ⟨2, _⟩ => rfl
  rw [hl, hr, attn_at, ref_v, Cert.Spec.scaled_apply]

/-- The reference's attention output is the specification's, over the reference's three straight-through vectors.
    Nothing is assumed of the arguments: the reference multiplies x by exactly these vectors. -/
theorem ref_out (x0 : (⟨S4x4096x1024, .f32⟩ : BufTy).Contents (Elt Ideal)) (x1 x2 x3 : (⟨S1024, .f32⟩ : BufTy).Contents (Elt Ideal)) :
    Read.val_main_v62 (F := Ideal) x0 x1 x2 x3
      = Cert.Spec.out x0 (Read.val_main_v10 (F := Ideal) x1) (Read.val_main_v24 (F := Ideal) x2) (Read.val_main_v38 (F := Ideal) x3) := by
  funext i
  obtain ⟨b, t, d, rfl⟩ : ∃ (b : Fin 4) (t : Fin 4096) (d : Fin 1024), i = ix3 b t d := ⟨i 0, i 1, i 2, eq_ix3 i⟩
  exact (out_at x0 x1 x2 x3 b t d).trans (Cert.Spec.out_apply _ _ _ _ b t d).symm

end Cert.ReferenceIdeal.RefValue

end
-- ==== Proof.RefValue.lean ====
/-
  The reference's three results read index by index: the attention output, the keys and the values of the
  specification, over the reference's own binding vectors.

  Every weakly fair execution of the reference terminates with each result at its composed term of the arguments,
  the arguments unchanged; index by index those terms are the specification's `out` and `scaled` over the three
  straight-through vectors (hard(w) - w) + w the reference itself forms, so the run is restated with them.
-/
import proofs.«128873_j58334245814673_2_alg».proof.Defs
import proofs.«128873_j58334245814673_2_alg».proof.Proof.Gen.Pre_finite_inputs
import proofs.«128873_j58334245814673_2_alg».proof.Proof.RefValue.Basic
import proofs.«128873_j58334245814673_2_alg».proof.Proof.RefValue.Out

noncomputable section

namespace Cert.ReferenceIdeal.RefValue

open Cert.ReferenceIdeal Cert.ReferenceIdeal.Gen Idealize.ShloMosaic Idealize.ShloMosaic.TcCoe Idealize.SL.Sem

/-- The reference's run, its results named by the specification: the attention output and the scaled keys and
    values over the straight-through forms of the three binding vectors it was given; the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v62)
          = Cert.Spec.out (m' ((c.tc : Thread nD τ).loc main_arg0))
              (Read.val_main_v10 (F := Ideal) (m' ((c.tc : Thread nD τ).loc main_arg1)))
              (Read.val_main_v24 (F := Ideal) (m' ((c.tc : Thread nD τ).loc main_arg2)))
              (Read.val_main_v38 (F := Ideal) (m' ((c.tc : Thread nD τ).loc main_arg3)))
      ∧ r.2.mem ((c.tc : Thread nD τ).loc main_v27)
          = Cert.Spec.scaled (m' ((c.tc : Thread nD τ).loc main_arg0))
              (Read.val_main_v24 (F := Ideal) (m' ((c.tc : Thread nD τ).loc main_arg2)))
      ∧ r.2.mem ((c.tc : Thread nD τ).loc main_v41)
          = Cert.Spec.scaled (m' ((c.tc : Thread nD τ).loc main_arg0))
              (Read.val_main_v38 (F := Ideal) (m' ((c.tc : Thread nD τ).loc main_arg3)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run (defs (F := Ideal)) _ _).mono (fun _ h c =>
      ⟨(h c).1.trans ((Read.val_main_v62_eq m' c).trans (ref_out _ _ _ _)),
        (h c).2.1.trans ((Read.val_main_v27_eq _ _).trans (ref_k _ _)),
        (h c).2.2.1.trans ((Read.val_main_v41_eq _ _).trans (ref_v _ _)),
        (h c).2.2.2⟩)
    (Cert.ReferenceIdeal.Value.run (F := Ideal) m' ρ')

/-- The reference runs and leaves its arguments unchanged. -/
theorem frame_ri : Cert.frame_ReferenceIdeal := fun m ρ _ =>
  (θ_run (defs (F := Ideal)) _ _).mono (fun _ h c => (h c).2.2.2) (Cert.ReferenceIdeal.Value.run (F := Ideal) m ρ)

end Cert.ReferenceIdeal.RefValue

end
-- ==== Proof.HostSide.Finite.lean ====
import proofs.«128873_j58334245814673_2_alg».proof.Proof.Gen.Pre_finite_inputs
import Idealize.ShloMosaic.Lib.ReduceAll
import Idealize.ShloMosaic.Lib.ValueIdx
import Idealize.ShloMosaic.PureOps.Ideal

/-!
# The inputs are finite

The precondition is the conjunction, over the four argument arrays, of `all (|x| < +∞)`.
Read at the ideal instance (entries are extended reals), an entry whose absolute value
`max x (-x)` lies strictly below `⊤` is neither `⊤` nor `⊥`; hence every entry of every
argument is a real number.
-/

noncomputable section

namespace Cert.Pre_finite_inputs.Hand

open Idealize.ShloMosaic Cert.Pre_finite_inputs

/-- The rank-0 shape has a single index. -/
instance : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- `|x| < +∞` on the extended reals says `x` is a real. -/
theorem finite_of_abs_lt (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

/-- The precondition, at the ideal instance, makes every entry of the four arguments a real number. -/
theorem finite_of_pre [Facts] (a0 : FVec Ideal S4x4096x1024 .f32) (a1 a2 a3 : FVec Ideal S1024 .f32)
    (h : fn (F := Ideal) a0 a1 a2 a3 = (fun _ => 1#1)) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) := by
  have h0 := congrFun h ValueIdx.ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact finite_of_abs_lt _ (Host.reduce_andi_all _ _ _ _ _ h0' i)
  · exact finite_of_abs_lt _ (Host.reduce_andi_all _ _ _ _ _ h1 i)
  · exact finite_of_abs_lt _ (Host.reduce_andi_all _ _ _ _ _ h2 i)
  · exact finite_of_abs_lt _ (Host.reduce_andi_all _ _ _ _ _ h3 i)

end Cert.Pre_finite_inputs.Hand

end
-- ==== Proof.HostSide.HardEq.lean ====
import proofs.«128873_j58334245814673_2_alg».proof.Proof.HostSide.HardK
import proofs.«128873_j58334245814673_2_alg».proof.Proof.Gen.ReferenceIdeal.Read

/-!
# One hard sign vector

Both programs compute the hard sign vector of a binding vector by the same nine host
operations; the two terms differ only in the names of the shapes and of the side-condition
proofs they mention.
-/

noncomputable section

namespace Cert.KernelIdeal.HostSide

open Idealize.ShloMosaic

/-- The kernel program's hard sign vector is the reference program's, of the first binding vector; -/
theorem hard_eq (w : FVec Ideal Cert.KernelIdeal.S1024 .f32) :
    hardK w = Cert.ReferenceIdeal.Read.val_main_v8 (F := Ideal) w := rfl

/-- of the second; -/
theorem hard_eq_v22 (w : FVec Ideal Cert.KernelIdeal.S1024 .f32) :
    hardK w = Cert.ReferenceIdeal.Read.val_main_v22 (F := Ideal) w := rfl

/-- and of the third. -/
theorem hard_eq_v36 (w : FVec Ideal Cert.KernelIdeal.S1024 .f32) :
    hardK w = Cert.ReferenceIdeal.Read.val_main_v36 (F := Ideal) w := rfl

end Cert.KernelIdeal.HostSide

end
-- ==== Proof.lean ====
/-
  The certificate of a causal sigmoid-attention kernel against its reference.

  Both programs compute, from an input x of shape [4, 4096, 1024] and three binding vectors, the "hard" sign vector
  of each binding vector (its mean absolute value times its sign, zeros sent to that mean), the keys k = x ⊙ hard_k and
  values v = x ⊙ hard_v, and out[b,t,d] = Σ_s a[b,t,s] · v[b,s,d] with a[b,t,s] = σ(4 · (1/32) · Σ_e q[b,t,e] k[b,s,e])
  for s ≤ t and 0 otherwise, q = x ⊙ hard_q.

  The kernel walks a grid (batch, query tile, key tile) of 4 × 8 × 8 points with tiles of 512 rows, adds one key tile's
  contribution to an accumulator at each point at or before the diagonal, stores the accumulator to the output block on
  the diagonal, and does nothing past it; the block is written back at the last key tile.  The reference forms the whole
  4096 × 4096 weight matrix, zero above the diagonal, and contracts it with v.  On the extended reals the two agree: the
  sum over all keys splits into the eight tiles, and the tiles past the diagonal contribute 0 · v = 0.  The reference
  multiplies by the straight-through form (hard − w) + w of each sign vector, which is hard itself because the
  precondition makes every entry of w a real number; that is the only use of the precondition.

  The three frames: the two kernel programs' by running the body at every grid point (the same proof at the word-level
  and the idealized instance), the reference's by its run.  The idealization rewrote no operation, so there is nothing
  to preserve.
-/
import proofs.«128873_j58334245814673_2_alg».proof.Defs
import proofs.«128873_j58334245814673_2_alg».proof.Proof.FrameB.Frame
import proofs.«128873_j58334245814673_2_alg».proof.Proof.FrameI.Frame
import proofs.«128873_j58334245814673_2_alg».proof.Proof.Results
import proofs.«128873_j58334245814673_2_alg».proof.Proof.KernelValue.Final
import proofs.«128873_j58334245814673_2_alg».proof.Proof.RefValue
import proofs.«128873_j58334245814673_2_alg».proof.Proof.HostSide.Finite
import proofs.«128873_j58334245814673_2_alg».proof.Proof.HostSide.HardEq
import proofs.«128873_j58334245814673_2_alg».proof.Proof.Gen.Kernel
import proofs.«128873_j58334245814673_2_alg».proof.Proof.Gen.KernelIdeal
import proofs.«128873_j58334245814673_2_alg».proof.Proof.Gen.ReferenceIdeal
import proofs.«128873_j58334245814673_2_alg».proof.Proof.Gen.Pre_finite_inputs

noncomputable section

namespace Cert.Proof

open Idealize.ShloMosaic Idealize.ShloMosaic.TcCoe Idealize.SL.Sem
open Cert.KernelIdeal.HostSide Cert.ReferenceIdeal.RefValue

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.ReferenceIdeal.RefValue.frame_ri

/-- The idealization rewrote no operation. -/
theorem preserves : Cert.preserves_Kernel_KernelIdeal := trivial

/-- From memories agreeing on the arguments both idealized programs end with the specification's three arrays over the
    kernel's hard sign vectors: the kernel by its value run, the reference by its run, its straight-through vectors
    being the hard ones on finite binding vectors. -/
theorem algebraic : Cert.algebraic_KernelIdeal_ReferenceIdeal := by
  intro m ρ m' ρ' hpre hagree
  refine ⟨fun c => Cert.KernelIdeal.Results.outOf m c,
    fun c => Cert.Spec.scaled (m ((c.tc : Thread Cert.KernelIdeal.nD Cert.KernelIdeal.τ).loc Cert.KernelIdeal.main_arg0)) (hardK (m ((c.tc : Thread Cert.KernelIdeal.nD Cert.KernelIdeal.τ).loc Cert.KernelIdeal.main_arg2))),
    fun c => Cert.Spec.scaled (m ((c.tc : Thread Cert.KernelIdeal.nD Cert.KernelIdeal.τ).loc Cert.KernelIdeal.main_arg0)) (hardK (m ((c.tc : Thread Cert.KernelIdeal.nD Cert.KernelIdeal.τ).loc Cert.KernelIdeal.main_arg3))),
    Cert.KernelIdeal.Results.value_run m ρ (fun c => Cert.KernelIdeal.Value'.final5 m c), ?_⟩
  refine (θ_run Cert.ReferenceIdeal.defs _ _).mono (fun r h c => ?_) (Cert.ReferenceIdeal.RefValue.ref_run m' ρ')
  obtain ⟨-, f1, f2, f3⟩ := Cert.Pre_finite_inputs.Hand.finite_of_pre _ _ _ _ (hpre c)
  obtain ⟨e0, e1, e2, e3⟩ := hagree c
  refine ⟨(h c).1.trans ?_, (h c).2.1.trans ?_, (h c).2.2.1.trans ?_, (h c).2.2.2⟩
  · rw [e0, e1, e2, e3, ste_eq_hard_q _ f1, ste_eq_hard_k _ f2, ste_eq_hard_v _ f3, ← hard_eq, ← hard_eq_v22, ← hard_eq_v36]
  · rw [e0, e2, ste_eq_hard_k _ f2, ← hard_eq_v22]
  · rw [e0, e3, ste_eq_hard_v _ f3, ← hard_eq_v36]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
